-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn_part1 {F : FTy → Type} [FloatOps F] (main_v13 : IVec S_ 1) (main_v16 : IVec S86x4096 1) : IVec S_ 1 :=
  let main_c_5 : IVec S_ 1 := constantI S_ 1 1#1
  let main_v17 : IVec S_ 1 := (fun x v => Host.reduce IntOp.andi x v reducesTo_S86x4096_S_d0_1 h_S_) main_v16 main_c_5
  let main_v18 : IVec S_ 1 := andi main_v13 main_v17
  main_v18

def fn {F : FTy → Type} [FloatOps F] (main_arg0 : FVec F S4x2048x4096 .f32) (main_arg1 : IVec S4096x11008 32) (main_arg2 : FVec F S32x11008 .f32) (main_arg3 : IVec S4096x11008 32) (main_arg4 : FVec F S32x11008 .f32) (main_arg5 : IVec S11008x4096 32) (main_arg6 : FVec F S86x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg4
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S86x4096 .f32 := Host.absf main_arg6
  let main_cst_4 : FVec F S_ .f32 := constant S_ .f32 0x7F800000#32
  let main_v15 : FVec F S86x4096 .f32 := broadcastInDim S86x4096 ![] bcast_S_S86x4096 main_cst_4
  let main_v16 : IVec S86x4096 1 := cmpf .olt main_v14 main_v15
  fn_part1 (F := F) main_v13 main_v16
-- ==== Kernel.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S_ : Shape := ⟨0, ![]⟩
abbrev S4096x11264 : Shape := ⟨2, ![4096, 11264]⟩
abbrev S32x11264 : Shape := ⟨2, ![32, 11264]⟩
abbrev S11264x4096 : Shape := ⟨2, ![11264, 4096]⟩
abbrev S88x4096 : Shape := ⟨2, ![88, 4096]⟩
abbrev S8192x4096 : Shape := ⟨2, ![8192, 4096]⟩
abbrev S8192x11264 : Shape := ⟨2, ![8192, 11264]⟩
abbrev S1024x1024 : Shape := ⟨2, ![1024, 1024]⟩
abbrev S1024x256 : Shape := ⟨2, ![1024, 256]⟩
abbrev S8x256 : Shape := ⟨2, ![8, 256]⟩
abbrev S8x1x256 : Shape := ⟨3, ![8, 1, 256]⟩
abbrev S8x128x256 : Shape := ⟨3, ![8, 128, 256]⟩
abbrev S256x1024 : Shape := ⟨2, ![256, 1024]⟩
abbrev S8x1024 : Shape := ⟨2, ![8, 1024]⟩
abbrev S8x1x1024 : Shape := ⟨3, ![8, 1, 1024]⟩
abbrev S8x128x1024 : Shape := ⟨3, ![8, 128, 1024]⟩

abbrev nBuf : Space → Nat
  | .hbm => 29
  | .vmem => 23
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .i32⟩
  | .hbm, ⟨2, _⟩ => ⟨S32x11008, .f32⟩
  | .hbm, ⟨3, _⟩ => ⟨S4096x11008, .i32⟩
  | .hbm, ⟨4, _⟩ => ⟨S32x11008, .f32⟩
  | .hbm, ⟨5, _⟩ => ⟨S11008x4096, .i32⟩
  | .hbm, ⟨6, _⟩ => ⟨S86x4096, .f32⟩
  | .hbm, ⟨7, _⟩ => ⟨S_, .i32⟩
  | .hbm, ⟨8, _⟩ => ⟨S_, .i32⟩
  | .hbm, ⟨9, _⟩ => ⟨S4096x11264, .i32⟩
  | .hbm, ⟨10, _⟩ => ⟨S_, .i32⟩
  | .hbm, ⟨11, _⟩ => ⟨S_, .i32⟩
  | .hbm, ⟨12, _⟩ => ⟨S4096x11264, .i32⟩
  | .hbm, ⟨13, _⟩ => ⟨S_, .f32⟩
  | .hbm, ⟨14, _⟩ => ⟨S_, .f32⟩
  | .hbm, ⟨15, _⟩ => ⟨S32x11264, .f32⟩
  | .hbm, ⟨16, _⟩ => ⟨S_, .f32⟩
  | .hbm, ⟨17, _⟩ => ⟨S_, .f32⟩
  | .hbm, ⟨18, _⟩ => ⟨S32x11264, .f32⟩
  | .hbm, ⟨19, _⟩ => ⟨S_, .i32⟩
  | .hbm, ⟨20, _⟩ => ⟨S_, .i32⟩
  | .hbm, ⟨21, _⟩ => ⟨S11264x4096, .i32⟩
  | .hbm, ⟨22, _⟩ => ⟨S_, .f32⟩
  | .hbm, ⟨23, _⟩ => ⟨S_, .f32⟩
  | .hbm, ⟨24, _⟩ => ⟨S88x4096, .f32⟩
  | .hbm, ⟨25, _⟩ => ⟨S8192x4096, .f32⟩
  | .hbm, ⟨26, _⟩ => ⟨S8192x11264, .bf16⟩
  | .hbm, ⟨27, _⟩ => ⟨S8192x4096, .f32⟩
  | .hbm, ⟨28, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x256, .i32⟩
  | .local _ .vmem, ⟨3, _⟩ => ⟨S1024x256, .i32⟩
  | .local _ .vmem, ⟨4, _⟩ => ⟨S8x256, .f32⟩
  | .local _ .vmem, ⟨5, _⟩ => ⟨S8x256, .f32⟩
  | .local _ .vmem, ⟨6, _⟩ => ⟨S1024x256, .i32⟩
  | .local _ .vmem, ⟨7, _⟩ => ⟨S1024x256, .i32⟩
  | .local _ .vmem, ⟨8, _⟩ => ⟨S8x256, .f32⟩
  | .local _ .vmem, ⟨9, _⟩ => ⟨S8x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S256x1024, .bf16⟩
  | .local _ .vmem, ⟨15, _⟩ => ⟨S256x1024, .bf16⟩
  | .local _ .vmem, ⟨16, _⟩ => ⟨S1024x1024, .i32⟩
  | .local _ .vmem, ⟨17, _⟩ => ⟨S1024x1024, .i32⟩
  | .local _ .vmem, ⟨18, _⟩ => ⟨S8x1024, .f32⟩
  | .local _ .vmem, ⟨19, _⟩ => ⟨S8x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_cst : Ref sig .tc := ⟨.hbm, 13, rfl⟩
abbrev main_call2_v0 : Ref sig .tc := ⟨.hbm, 14, rfl⟩
abbrev main_v2 : Ref sig .tc := ⟨.hbm, 15, rfl⟩
abbrev main_cst_1 : Ref sig .tc := ⟨.hbm, 16, rfl⟩
abbrev main_call3_v0 : Ref sig .tc := ⟨.hbm, 17, rfl⟩
abbrev main_v3 : Ref sig .tc := ⟨.hbm, 18, rfl⟩
abbrev main_c_2 : Ref sig .tc := ⟨.hbm, 19, rfl⟩
abbrev main_call4_v0 : Ref sig .tc := ⟨.hbm, 20, rfl⟩
abbrev main_v4 : Ref sig .tc := ⟨.hbm, 21, rfl⟩
abbrev main_cst_3 : Ref sig .tc := ⟨.hbm, 22, rfl⟩
abbrev main_call5_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![8, 44, 4], ![false, false, false]⟩

def k0_cond2 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![32, 4, 11], ![false, false, false]⟩

def k1_cond2 (i : grid1.Coords) : BitVec 1 :=
  let arg2 : BitVec 32 := BitVec.ofNat 32 (i 2).val
  let c10_i32 : BitVec 32 := 10#32
  let v24 : BitVec 1 := Scalar.cmpi .eq arg2 c10_i32
  let v25 : BitVec 32 := Scalar.extui v24
  let c0_i32_11 : BitVec 32 := 0#32
  let v26 : BitVec 1 := Scalar.cmpi .ne v25 c0_i32_11
  v26

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S4096x11008_S4096x11264_000_02560 : S4096x11008.Pads (![0, 0] : Fin 2 → Nat) ![0, 256] ![0, 0] S4096x11264
  h_S_ : 0 < S_.numel
  pads_S32x11008_S32x11264_000_02560 : S32x11008.Pads (![0, 0] : Fin 2 → Nat) ![0, 256] ![0, 0] S32x11264
  pads_S11008x4096_S11264x4096_02560_000 : S11008x4096.Pads (![0, 0] : Fin 2 → Nat) ![256, 0] ![0, 0] S11264x4096
  pads_S86x4096_S88x4096_020_000 : S86x4096.Pads (![0, 0] : Fin 2 → Nat) ![2, 0] ![0, 0] S88x4096
  shapeCasts_S4x2048x4096_S8192x4096 : S4x2048x4096.ShapeCasts S8192x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x1x256 : S8x256.ShapeCasts S8x1x256
  shapeCasts_S8x1x256_S8x1x256 : S8x1x256.ShapeCasts S8x1x256
  broadcasts_S8x1x256_S8x128x256 : S8x1x256.Broadcasts S8x128x256
  shapeCasts_S8x128x256_S1024x256 : S8x128x256.ShapeCasts S1024x256
  packedbf16_S1024x256_S1024x256_0_0 : (Rect.unit (s := S1024x256) ![0, 0] S1024x256.size inb_S1024x256_S1024x256_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  shapeCasts_S8192x4096_S4x2048x4096 : S8192x4096.ShapeCasts S4x2048x4096
  dot_S1024x1024_S1024x256_S1024x256_1_0_0_1_n_n_wf : DotDims.WF S1024x1024 S1024x256 S1024x256 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x11264.size a
  hwx0_1 : ∀ i : grid0.Coords, EltTy.bits .i32 = 32 ∨ (Rect.block (s := S4096x11264) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x11264.size a
  hwx0_2 : ∀ i : grid0.Coords, EltTy.bits .f32 = 32 ∨ (Rect.block (s := S32x11264) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x11264.size a
  hwx0_3 : ∀ i : grid0.Coords, EltTy.bits .i32 = 32 ∨ (Rect.block (s := S4096x11264) S1024x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S32x11264.size a
  hwx0_4 : ∀ i : grid0.Coords, EltTy.bits .f32 = 32 ∨ (Rect.block (s := S32x11264) S8x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11264.size a
  hwx0_5 : ∀ i : grid0.Coords, EltTy.bits .bf16 = 32 ∨ (Rect.block (s := S8192x11264) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x11264.size a
  hwx1_0 : ∀ i : grid1.Coords, EltTy.bits .bf16 = 32 ∨ (Rect.block (s := S8192x11264) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .i32 = 32 ∨ (Rect.block (s := S11264x4096) S1024x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S88x4096.size a
  hwx1_2 : ∀ i : grid1.Coords, EltTy.bits .f32 = 32 ∨ (Rect.block (s := S88x4096) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x4096.size a
  hwx1_3 : ∀ i : grid1.Coords, EltTy.bits .f32 = 32 ∨ (Rect.block (s := S8192x4096) S256x1024.size (cc1_transform_3 i) (hinb1_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v7) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x11008 : Shape := ⟨2, ![4096, 11008]⟩
abbrev S32x11008 : Shape := ⟨2, ![32, 11008]⟩
abbrev S11008x4096 : Shape := ⟨2, ![11008, 4096]⟩
abbrev S86x4096 : Shape := ⟨2, ![86, 4096]⟩
abbrev S32x128x11008 : Shape := ⟨3, ![32, 128, 11008]⟩
abbrev S_ : Shape := ⟨0, ![]⟩
abbrev S86x128x4096 : Shape := ⟨3, ![86, 128, 4096]⟩
abbrev S4x2048x11008 : Shape := ⟨3, ![4, 2048, 11008]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x11008, .i32⟩
  | .hbm, ⟨2, _⟩ => ⟨S32x11008, .f32⟩
  | .hbm, ⟨3, _⟩ => ⟨S4096x11008, .i32⟩
  | .hbm, ⟨4, _⟩ => ⟨S32x11008, .f32⟩
  | .hbm, ⟨5, _⟩ => ⟨S11008x4096, .i32⟩
  | .hbm, ⟨6, _⟩ => ⟨S86x4096, .f32⟩
  | .hbm, ⟨7, _⟩ => ⟨S32x128x11008, .f32⟩
  | .hbm, ⟨8, _⟩ => ⟨S4096x11008, .f32⟩
  | .hbm, ⟨9, _⟩ => ⟨S4096x11008, .f32⟩
  | .hbm, ⟨10, _⟩ => ⟨S_, .f32⟩
  | .hbm, ⟨11, _⟩ => ⟨S4096x11008, .f32⟩
  | .hbm, ⟨12, _⟩ => ⟨S4096x11008, .f32⟩
  | .hbm, ⟨13, _⟩ => ⟨S4096x11008, .f32⟩
  | .hbm, ⟨14, _⟩ => ⟨S32x128x11008, .f32⟩
  | .hbm, ⟨15, _⟩ => ⟨S4096x11008, .f32⟩
  | .hbm, ⟨16, _⟩ => ⟨S4096x11008, .f32⟩
  | .hbm, ⟨17, _⟩ => ⟨S_, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S86x128x4096, .f32⟩
  | .hbm, ⟨22, _⟩ => ⟨S11008x4096, .f32⟩
  | .hbm, ⟨23, _⟩ => ⟨S11008x4096, .f32⟩
  | .hbm, ⟨24, _⟩ => ⟨S_, .f32⟩
  | .hbm, ⟨25, _⟩ => ⟨S11008x4096, .f32⟩
  | .hbm, ⟨26, _⟩ => ⟨S11008x4096, .f32⟩
  | .hbm, ⟨27, _⟩ => ⟨S11008x4096, .f32⟩
  | .hbm, ⟨28, _⟩ => ⟨S4x2048x11008, .f32⟩
  | .hbm, ⟨29, _⟩ => ⟨S4x2048x11008, .f32⟩
  | .hbm, ⟨30, _⟩ => ⟨S4x2048x11008, .f32⟩
  | .hbm, ⟨31, _⟩ => ⟨S4x2048x11008, .f32⟩
  | .hbm, ⟨32, _⟩ => ⟨S_, .f32⟩
  | .hbm, ⟨33, _⟩ => ⟨S4x2048x11008, .f32⟩
  | .hbm, ⟨34, _⟩ => ⟨S4x2048x11008, .f32⟩
  | .hbm, ⟨35, _⟩ => ⟨S_, .f32⟩
  | .hbm, ⟨36, _⟩ => ⟨S4x2048x11008, .f32⟩
  | .hbm, ⟨37, _⟩ => ⟨S4x2048x11008, .f32⟩
  | .hbm, ⟨38, _⟩ => ⟨S4x2048x11008, .f32⟩
  | .hbm, ⟨39, _⟩ => ⟨S4x2048x11008, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S_S4096x11008 : S_.BroadcastsInDim S4096x11008 (![] : Fin 0 → Fin S4096x11008.rank)
  bcast_S86x4096_S86x128x4096_0_2 : S86x4096.BroadcastsInDim S86x128x4096 (![0, 2] : Fin 2 → Fin S86x128x4096.rank)
  shapeCasts_S86x128x4096_S11008x4096 : S86x128x4096.ShapeCasts S11008x4096
  bcast_S_S11008x4096 : S_.BroadcastsInDim S11008x4096 (![] : Fin 0 → Fin S11008x4096.rank)
  bcast_S_S4x2048x11008 : S_.BroadcastsInDim S4x2048x11008 (![] : Fin 0 → Fin S4x2048x11008.rank)
  dot_S4x2048x4096_S4096x11008_S4x2048x11008_2_0_01_1_n_n_wf : DotDims.WF S4x2048x4096 S4096x11008 S4x2048x11008 [2] [0] [0, 1] [1] [] []
  dot_S4x2048x11008_S11008x4096_S4x2048x4096_2_0_01_1_n_n_wf : DotDims.WF S4x2048x11008 S11008x4096 S4x2048x4096 [2] [0] [0, 1] [1] [] []

variable [Facts₀]

def dot_S4x2048x4096_S4096x11008_S4x2048x11008_2_0_01_1_n_n : DotDims S4x2048x4096 S4096x11008 S4x2048x11008 where
  lhsContracting := [2]
  rhsContracting := [0]
  lhsNonContracting := [0, 1]
  rhsNonContracting := [1]
  lhsBatch := []
  rhsBatch := []
  wf := dot_S4x2048x4096_S4096x11008_S4x2048x11008_2_0_01_1_n_n_wf
def dot_S4x2048x11008_S11008x4096_S4x2048x4096_2_0_01_1_n_n : DotDims S4x2048x11008 S11008x4096 S4x2048x4096 where
  lhsContracting := [2]
  rhsContracting := [0]
  lhsNonContracting := [0, 1]
  rhsNonContracting := [1]
  lhsBatch := []
  rhsBatch := []
  wf := dot_S4x2048x11008_S11008x4096_S4x2048x4096_2_0_01_1_n_n_wf

class Facts : Prop extends Facts₀ where

variable [Facts]
-- ==== Proof.BR0Runs.lean ====
/-
  The first pallas_call (the gate and up projections, accumulated over four blocks of the contracted axis, then gated):
  what its three control cases share.  The grid is (row block, column block, contraction block); the body zeroes its
  two accumulators when the contraction block is 0, adds one block's products at every point, and writes the gated
  result when the contraction block is 3.  Here: the two branch conditions in closed form over the grid, where the
  output window is idle, the staging memrefs at a point, and the region invariant with the two accumulators named.
-/
import proofs.«107662_j71167608095143_1_alg».proof.Proof.Gen.Kernel.Launch
import proofs.«107662_j71167608095143_1_alg».proof.Proof.Gen.Kernel.Skeleton
import proofs.«107662_j71167608095143_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- "the contraction block is 0": the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the contraction block is 3": the gated result is written. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last contraction block the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1024x256 .bf16 := (Memref.whole cc0_stg5_0 : Memref sig .tc .vmem S1024x256 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The class invariant with the two accumulators as memrefs owned at some contents; the other scoped buffers
    (the second pallas_call's) ride along as `rest0`. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Fr

end
-- ==== Proof.BR0RunB.lean ====
/-
  The first pallas_call's body at a point whose contraction block is 1 or 2: both accumulators are read, one block's
  products are added, and both are stored back whole; the output window is left untouched.
-/
import proofs.«107662_j71167608095143_1_alg».proof.Proof.BR0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the middle case, on any whole memrefs: the inputs at their contents, the output's buffer at
    contents handed back untouched, both accumulators at what the point before left; it ends with the accumulators'
    stores as pieces (the witness the run finds). -/
noncomputable def kernelRun0_B (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, fun xi5 E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.Kernel.Fr

end
-- ==== Proof.BR0RunA.lean ====
/-
  The first pallas_call's body at a point whose contraction block is 0: both accumulators are zeroed, then one
  block's products are added and stored back whole; the output window is left untouched.
-/
import proofs.«107662_j71167608095143_1_alg».proof.Proof.BR0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the first case: the accumulators may hold anything (they are overwritten before they matter). -/
noncomputable def kernelRun0_A (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .f32) (x1 : Vec F S1024x256 .i32) (x2 : Vec F S8x256 .f32) (x3 : Vec F S1024x256 .i32) (x4 : Vec F S8x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, fun xi5 E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.Kernel.Fr

end
-- ==== Proof.BR0RunC.lean ====
/-
  The first pallas_call's body at a point whose contraction block is 3: the last block's products are added to both
  accumulators, and the gated product of the two is stored, whole, into the output window's buffer.
-/
import proofs.«107662_j71167608095143_1_alg».proof.Proof.BR0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the last case: the output's buffer may hold anything; it ends with its store as a piece. -/
noncomputable def kernelRun0_C (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    Σ' (L5 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, ?_, fun E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; iexact HS1

end Cert.Kernel.Fr

end
-- ==== Proof.BR0Frame.lean ====
/-
  The first pallas_call's proof data: what each control case leaves in the two accumulators and in the output
  window's buffer, what they hold point by point along the grid (an accumulator at a point whose contraction block is
  not 0 continues from what the point before left), the region invariant carrying the accumulators between points,
  and the body obligation at a generic point.  `V` is what the region finds in the unscoped buffers on entry.
-/
import proofs.«107662_j71167608095143_1_alg».proof.Proof.BR0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).1 S1024x256.size (by sl_kernel_rfl) y
theorem scover0_A_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x256.size (by sl_kernel_rfl) y
def sout0_A_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).1)
def sout0_A_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.1)

theorem scover0_B_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_B_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x256.size (by sl_kernel_rfl) y
def sout0_B_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).1)
def sout0_B_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.1)

theorem cover0_C_5 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_C_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x256.size (by sl_kernel_rfl) y
theorem scover0_C_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x256.size (by sl_kernel_rfl) y
def out0_C_5 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .bf16 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)
def sout0_C_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)
def sout0_C_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-- A placeholder for the output window's buffer at a point that stores nothing into it (never consulted). -/
def idle5 : Vec F S1024x256 .bf16 := VO0_5.read (Elt F) VO0_5.junk

/-! ## Point by point -/

/-- Case by case at a point `t`: (the output's buffer, the gate accumulator, the up accumulator). -/
def atA (c : Dev nD) (t : Fin cfg0.N) (h0 : t.val % 4 = 0) (h1 : ¬t.val % 4 = 3) : Vec F S1024x256 .bf16 × Vec F S1024x256 .f32 × Vec F S1024x256 .f32 :=
  (idle5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t))
def atB (c : Dev nD) (t : Fin cfg0.N) (h0 : ¬t.val % 4 = 0) (h1 : ¬t.val % 4 = 3) (p : Vec F S1024x256 .bf16 × Vec F S1024x256 .f32 × Vec F S1024x256 .f32) : Vec F S1024x256 .bf16 × Vec F S1024x256 .f32 × Vec F S1024x256 .f32 :=
  (idle5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) p.2.1 p.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) p.2.1 p.2.2)
def atC (c : Dev nD) (t : Fin cfg0.N) (h0 : ¬t.val % 4 = 0) (h1 : t.val % 4 = 3) (p : Vec F S1024x256 .bf16 × Vec F S1024x256 .f32 × Vec F S1024x256 .f32) : Vec F S1024x256 .bf16 × Vec F S1024x256 .f32 × Vec F S1024x256 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2)

/-- THE ACCUMULATION along the grid: the case the contraction block selects, a continuing case over what the point
    before left. -/
def outsAt0 (c : Dev nD) : (n : ℕ) → n < cfg0.N → Vec F S1024x256 .bf16 × Vec F S1024x256 .f32 × Vec F S1024x256 .f32
  | 0, hn => atA V c ⟨0, hn⟩ (Nat.zero_mod _) (fun h => by (try dsimp only at h); omega)
  | n + 1, hn =>
    if h0 : (n + 1) % 4 = 0 then
      if h1 : (n + 1) % 4 = 3 then False.elim (by omega)
      else atA V c ⟨n + 1, hn⟩ h0 h1
    else
      if h1 : (n + 1) % 4 = 3 then atC V c ⟨n + 1, hn⟩ h0 h1 (outsAt0 c n (Nat.lt_of_succ_lt hn))
      else atB V c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 V c t.val t.isLt = atA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = atB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 4 = 0) (h1 : t.val % 4 = 3) :
    outsAt0 V c t.val t.isLt = atC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at first the class's (every scoped buffer at anything); afterwards
    the two accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Fr

end
-- ==== Proof.BR0Body.lean ====
/-
  The first pallas_call's body obligation at a generic grid point: the contraction block decides the case; the region
  invariant hands the body the two accumulators at what the point before left (at anything at the very first point)
  and takes them back at this point's contents.
-/
import proofs.«107662_j71167608095143_1_alg».proof.Proof.BR0Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 1408 := lt_of_lt_of_eq t.isLt (show cfg0.N = 1408 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · by_cases h1 : t.val % 4 = 3
    · exfalso; omega
    · rw [Dat.leavesExact_idle (dat0 V c) 5 t (idleAt0_5 t (fun h => h1 ((hcond0_1 t).mp h))) (noFlush0_5 t (fun h => h1 ((hcond0_1 t).mp h)))]
      rw [outsAt0_A V c t h0 h1]
      unfold atA sout0_A_0 sout0_A_1; (try dsimp only)
      by_cases hz : t.val = 0
      · rw [PhiS0_castSucc V c t, PhiS0_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => h0 (by rw [h])
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold atC out0_C_5 sout0_C_0 sout0_C_1; (try dsimp only)
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold atB sout0_B_0 sout0_B_1; (try dsimp only)
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end Cert.Kernel.Fr

end
-- ==== Proof.BR0Ends.lean ====
/-
  The first pallas_call's invariant at its far end: after the last grid point the accumulator contents are
  forgotten and the class's invariant (every scoped buffer at anything) is given back.
-/
import proofs.«107662_j71167608095143_1_alg».proof.Proof.BR0Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_out0 (c : Dev nD) (n : ℕ) (h : n ≤ cfg0.N) (hz : n ≠ 0) : PhiS0 V c n h ⊢ Pipeline.ΦA spec0 c := by
  rw [PhiS0_pos V c n h hz, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem Phi_at0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl]
  exact Phi_out0 V c _ _ ht

set_option maxHeartbeats 2000000 in
theorem hout0 (c : Dev nD) : (dat0 V c).Φ (Fin.last cfg0.N) ⊢ Pipeline.ΦA spec0 c := by
  refine Phi_at0 V c (Fin.last cfg0.N) ?_
  rw [Fin.val_last, show cfg0.N = 1408 from N_0]
  decide

end Cert.Kernel.Fr

end
-- ==== Proof.BR1Runs.lean ====
/-
  The second pallas_call (the down projection, accumulated over eleven blocks of the padded hidden axis): what its
  three control cases share.  The grid is (row block, column block, contraction block); the body zeroes its accumulator
  when the contraction block is 0, adds one block's products at every point, and copies the accumulator to the output
  window when the contraction block is 10.
-/
import proofs.«107662_j71167608095143_1_alg».proof.Proof.Gen.Kernel.Launch
import proofs.«107662_j71167608095143_1_alg».proof.Proof.Gen.Kernel.Skeleton
import proofs.«107662_j71167608095143_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "the contraction block is 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)

/-- "the contraction block is 10": the result is written. -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S256x1024 .f32 := (Memref.whole cc1_stg3_0 : Memref sig .tc .vmem S256x1024 .f32).view
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S256x1024 .f32 := Memref.whole cc1_scratch0
abbrev VS1_0 : View sig .tc .vmem S256x1024 .f32 := scM1_0.view

/-- The other scoped buffers (the first pallas_call's), each at anything, in front of what is said of the
    accumulator. -/
def chain1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem PhiA1_eq (c : Dev nD) :
    (Pipeline.ΦA spec1 c : sProp 𝕄)
      = iprop(chain1 c iprop(∃ d, owns (c : Thread nD τ) scM1_0 fullShare d) ∗ (∃ r, prngReg c r)) := by
  unfold Pipeline.ΦA chain1; rw [scopedRest1_eq]; simp only [scM1_0, owns_whole]; try rfl

end Cert.Kernel.Fr

end
-- ==== Proof.BR1RunB.lean ====
/-
  The second pallas_call's body at a point whose contraction block is 1..9: the accumulator is read, one block's
  products are added, and it is stored back whole; the output window is left untouched.
-/
import proofs.«107662_j71167608095143_1_alg».proof.Proof.BR1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x1024 .bf16) (x1 : Vec F S1024x1024 .i32) (x2 : Vec F S8x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.BR1RunA.lean ====
/-
  The second pallas_call's body at a point whose contraction block is 0: the accumulator is zeroed, then one
  block's products are added and stored back whole; the output window is left untouched.
-/
import proofs.«107662_j71167608095143_1_alg».proof.Proof.BR1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x1024 .bf16) (x1 : Vec F S1024x1024 .i32) (x2 : Vec F S8x1024 .f32) :
    { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.BR1RunC.lean ====
/-
  The second pallas_call's body at a point whose contraction block is 10: the last block's products are added to
  the accumulator, and the accumulator is copied, whole, into the output window's buffer.
-/
import proofs.«107662_j71167608095143_1_alg».proof.Proof.BR1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x1024 .bf16) (x1 : Vec F S1024x1024 .i32) (x2 : Vec F S8x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.Kernel.Fr

end
-- ==== Proof.BR1Frame.lean ====
/-
  The second pallas_call's proof data: what each control case leaves in the accumulator and in the output window's
  buffer, what they hold point by point along the grid, the region invariant carrying the accumulator between points.
  `V` is what the region finds in the unscoped buffers on entry.
-/
import proofs.«107662_j71167608095143_1_alg».proof.Proof.BR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem scover1_A_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i) (x0 : Vec F S256x1024 .bf16) (x1 : Vec F S1024x1024 .i32) (x2 : Vec F S8x1024 .f32) (y : S256x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S256x1024.size (by sl_kernel_rfl) y
def sout1_A_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i) (x0 : Vec F S256x1024 .bf16) (x1 : Vec F S1024x1024 .i32) (x2 : Vec F S8x1024 .f32) : Vec F S256x1024 .f32 :=
  VS1_0.read (Elt F) (VS1_0.writes (Elt F) VS1_0.junk (kernelRun1_A c i arg3 harg3 arg4 harg4 arg5 harg5 arg6 harg6 arg7 harg7 hc0 hc1 x0 x1 x2).1)

theorem scover1_B_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i) (x0 : Vec F S256x1024 .bf16) (x1 : Vec F S1024x1024 .i32) (x2 : Vec F S8x1024 .f32) (xs0 : Vec F S256x1024 .f32) (y : S256x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S256x1024.size (by sl_kernel_rfl) y
def sout1_B_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i) (x0 : Vec F S256x1024 .bf16) (x1 : Vec F S1024x1024 .i32) (x2 : Vec F S8x1024 .f32) (xs0 : Vec F S256x1024 .f32) : Vec F S256x1024 .f32 :=
  VS1_0.read (Elt F) (VS1_0.writes (Elt F) VS1_0.junk (kernelRun1_B c i arg3 harg3 arg4 harg4 arg5 harg5 arg6 harg6 arg7 harg7 hc0 hc1 x0 x1 x2 xs0).1)

theorem cover1_C_3 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S256x1024.size (by sl_kernel_rfl) y
theorem scover1_C_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x1024.size (by sl_kernel_rfl) y
def out1_C_3 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) : Vec F S256x1024 .f32 :=
  VO1_3.read (Elt F) (VO1_3.writes (Elt F) VO1_3.junk (kernelRun1_C c i arg3 harg3 arg4 harg4 arg5 harg5 arg6 harg6 arg7 harg7 hc0 hc1 x0 x1 x2 xs0).1)
def sout1_C_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) : Vec F S256x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- A placeholder for the output window's buffer at a point that stores nothing into it (never consulted). -/
def idle3 : Vec F S256x1024 .f32 := VO1_3.read (Elt F) VO1_3.junk

/-- Case by case at a point `t`: (the output's buffer, the accumulator). -/
def at1A (c : Dev nD) (t : Fin cfg1.N) (h0 : t.val % 11 = 0) (h1 : ¬t.val % 11 = 10) : Vec F S256x1024 .f32 × Vec F S256x1024 .f32 :=
  (idle3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
def at1B (c : Dev nD) (t : Fin cfg1.N) (h0 : ¬t.val % 11 = 0) (h1 : ¬t.val % 11 = 10) (p : Vec F S256x1024 .f32 × Vec F S256x1024 .f32) : Vec F S256x1024 .f32 × Vec F S256x1024 .f32 :=
  (idle3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) p.2)
def at1C (c : Dev nD) (t : Fin cfg1.N) (h0 : ¬t.val % 11 = 0) (h1 : t.val % 11 = 10) (p : Vec F S256x1024 .f32 × Vec F S256x1024 .f32) : Vec F S256x1024 .f32 × Vec F S256x1024 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) p.2,
    sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) p.2)

/-- THE ACCUMULATION along the grid. -/
def outsAt1 (c : Dev nD) : (n : ℕ) → n < cfg1.N → Vec F S256x1024 .f32 × Vec F S256x1024 .f32
  | 0, hn => at1A V c ⟨0, hn⟩ (Nat.zero_mod _) (fun h => by (try dsimp only at h); omega)
  | n + 1, hn =>
    if h0 : (n + 1) % 11 = 0 then
      if h1 : (n + 1) % 11 = 10 then False.elim (by omega)
      else at1A V c ⟨n + 1, hn⟩ h0 h1
    else
      if h1 : (n + 1) % 11 = 10 then at1C V c ⟨n + 1, hn⟩ h0 h1 (outsAt1 c n (Nat.lt_of_succ_lt hn))
      else at1B V c ⟨n + 1, hn⟩ h0 h1 (outsAt1 c n (Nat.lt_of_succ_lt hn))

theorem outsAt1_A (c : Dev nD) (t : Fin cfg1.N) (h0 : t.val % 11 = 0) (h1 : ¬t.val % 11 = 10) :
    outsAt1 V c t.val t.isLt = at1A V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 11 = 0) (h1 : ¬t.val % 11 = 10) :
    outsAt1 V c t.val t.isLt = at1B V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 11 = 0) (h1 : t.val % 11 = 10) :
    outsAt1 V c t.val t.isLt = at1C V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`. -/
def PhiS1 (c : Dev nD) : (n : ℕ) → n ≤ cfg1.N → sProp 𝕄
  | 0, _ => Pipeline.ΦA spec1 c
  | n + 1, hn => iprop(chain1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(chain1 c (owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Fr

end
-- ==== Proof.BR1Body.lean ====
/-
  The second pallas_call's body obligation at a generic grid point.
-/
import proofs.«107662_j71167608095143_1_alg».proof.Proof.BR1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1408 := lt_of_lt_of_eq t.isLt (show cfg1.N = 1408 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 11 = 0
  · by_cases h1 : t.val % 11 = 10
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold at1A sout1_A_0; (try dsimp only)
      by_cases hz : t.val = 0
      · rw [PhiS1_castSucc V c t, PhiS1_zero V c _ _ hz, PhiA1_eq]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 11 = 10
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold at1C out1_C_3 sout1_C_0; (try dsimp only)
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold at1B sout1_B_0; (try dsimp only)
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.Kernel.Fr

end
-- ==== Proof.BR1Ends.lean ====
/-
  The second pallas_call's invariant at its far end: the accumulator's contents are forgotten.
-/
import proofs.«107662_j71167608095143_1_alg».proof.Proof.BR1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_out1 (c : Dev nD) (n : ℕ) (h : n ≤ cfg1.N) (hz : n ≠ 0) : PhiS1 V c n h ⊢ Pipeline.ΦA spec1 c := by
  rw [PhiS1_pos V c n h hz, PhiA1_eq]
  unfold chain1
  iintro ⟨⟨B0, B1, B2, B3, B4, B5, B6, B7, B8, B9, B10, B11, B12, B13, HS0⟩, Hg⟩
  isplitl [B0 B1 B2 B3 B4 B5 B6 B7 B8 B9 B10 B11 B12 B13 HS0]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexists _; iexact HS0
  iexact Hg

theorem Phi_at1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl]
  exact Phi_out1 V c _ _ ht

set_option maxHeartbeats 2000000 in
theorem hout1 (c : Dev nD) : (dat1 V c).Φ (Fin.last cfg1.N) ⊢ Pipeline.ΦA spec1 c := by
  refine Phi_at1 V c (Fin.last cfg1.N) ?_
  rw [Fin.val_last, show cfg1.N = 1408 from N_1]
  decide

end Cert.Kernel.Fr

end
-- ==== Proof.BKRunCond.lean ====
/-
  @main of the kernel program as a chain of sixteen items — thirteen stretches of host operations (the paddings and
  the flattening of the tokens), the two pallas_calls, and the final reshape — run from the launch to the return, given
  for each pallas_call a record of its layout, body obligation and entry / exit protocol.  The conclusion reads EVERY
  unscoped buffer of a core off the last valuation of the chain: the result buffer and the arguments are instances.
-/
import proofs.«107662_j71167608095143_1_alg».proof.Proof.Gen.Kernel.Regions

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- Given one segment record per pallas_call, entered from and left at the thread states "every unscoped buffer at the
    valuation between two items, beside a rest of the caller's choosing", every weakly fair execution of @main from
    memory `m` with zero counters terminates, and in every final memory each unscoped buffer of each core holds what
    the chain's last valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V14 m outs c) ∗ E 1 c) ⊢ R1.pre c)
    (hpost1 : ∀ c : Dev nD, R1.post c ⊢ iprop(StableHlo.held (c : Thread nD τ) (Pipeline.ucRefs τ sig) (V15 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, (hpost0 c).trans (hpre1 c), hpost1 c, sep_mono .rfl (hE2 c)⟩)
    (hinit := ?_) (QY := fun c s => ∀ b ∈ Pipeline.ucRefs τ sig, s.mem (((c : Thread nD τ)).1, b) = V16 m outs c b)
    (hfin := fun c s' => ?_) (hQ := fun _ h => h)
  · -- at the launch every unscoped buffer is held at the launch memory; the rest of the launch state makes `E 0`
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the return the last thread state is read against the final memory, buffer by buffer
    iintro ⟨Hh, HSI⟩
    unfold StableHlo.held
    imodintro
    iapply (pointsTo_read_all (Pipeline.ucRefs τ sig) (fun b => (((c : Thread nD τ)).1, b)) (V16 m outs c) s')
    isplitl [Hh] <;> iassumption

end Cert.Kernel.Fr

end
-- ==== Proof.BKRun.lean ====
/-
  The kernel program's run from the launch to the return, with both pallas_calls' proof data in place: the first is
  entered at the contents the thirteen host stretches leave and leaves its result array at what its write-backs fold to;
  the second is entered there and leaves its own result array likewise; the final reshape reads it.  Between two items
  the thread state is "every unscoped buffer at the valuation reached so far, the generator register at some state,
  nothing owed".
-/
import proofs.«107662_j71167608095143_1_alg».proof.Proof.BR0Body
import proofs.«107662_j71167608095143_1_alg».proof.Proof.BR0Ends
import proofs.«107662_j71167608095143_1_alg».proof.Proof.BR1Body
import proofs.«107662_j71167608095143_1_alg».proof.Proof.BR1Ends
import proofs.«107662_j71167608095143_1_alg».proof.Proof.BKRunCond
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the two regions' boundaries -/

/-- What the first pallas_call finds: the contents after the thirteen host stretches. -/
abbrev Vr13 : (c : Dev nD) → (b : Ref sig .tc) → Buf (Elt F) ((c : Thread nD τ).loc b) := fun c b => V13 m c b
/-- What it leaves in its result array. -/
def o7 (c : Dev nD) : Buf (Elt F) ((c : Thread nD τ).loc main_v7) := (dat0 (Vr13 m) c).arrAt 5 cfg0.N
/-- The contents between the two pallas_calls. -/
def U14 (c : Dev nD) : Valuation τ sig (Elt F) := Function.update (V13 m c) main_v7 (o7 m c)
abbrev Ur14 : (c : Dev nD) → (b : Ref sig .tc) → Buf (Elt F) ((c : Thread nD τ).loc b) := fun c b => U14 m c b
/-- What the second pallas_call leaves in its result array. -/
def o8 (c : Dev nD) : Buf (Elt F) ((c : Thread nD τ).loc main_v8) := (dat1 (Ur14 m) c).arrAt 3 cfg1.N
def U15 (c : Dev nD) : Valuation τ sig (Elt F) := Function.update (U14 m c) main_v8 (o8 m c)
abbrev Ur15 : (c : Dev nD) → (b : Ref sig .tc) → Buf (Elt F) ((c : Thread nD τ).loc b) := fun c b => U15 m c b
/-- The regions' results as the chain of valuations reads them. -/
def outsK : Outs (F := F) := fun J r c => if J = 14 then U14 m c r else U15 m c r

theorem U14_v7 (c : Dev nD) : U14 m c main_v7 = o7 m c := by unfold U14; exact Function.update_self ..
theorem U14_ne (c : Dev nD) (r : Ref sig .tc) (h : r ≠ main_v7) : U14 m c r = V13 m c r := by
  unfold U14; exact Function.update_of_ne (StableHlo.devRef_ne_of_ne h) _ _
theorem U15_v8 (c : Dev nD) : U15 m c main_v8 = o8 m c := by unfold U15; exact Function.update_self ..
theorem U15_ne (c : Dev nD) (r : Ref sig .tc) (h : r ≠ main_v8) : U15 m c r = U14 m c r := by
  unfold U15; exact Function.update_of_ne (StableHlo.devRef_ne_of_ne h) _ _

theorem V14K (c : Dev nD) : V14 m (outsK m) c = U14 m c := by
  show Function.update (V13 m c) main_v7 (outsK m 14 main_v7 c) = U14 m c
  unfold U14
  congr 1

theorem V15K (c : Dev nD) : V15 m (outsK m) c = U15 m c := by
  show Function.update (V14 m (outsK m) c) main_v8 (outsK m 15 main_v8 c) = U15 m c
  rw [V14K]; unfold U15
  congr 1

theorem hF0 (c : Dev nD) : ∀ w : Fin cfg0.W, (dat0 (Vr13 m) c).arrAt w cfg0.N = Ur14 m c (Pipeline.arrRef spec0 w)
  | ⟨0, _⟩ => (((dat0 (Vr13 m) c).arrAt_in 0 rfl _).trans (A_eq0 (Vr13 m) c 0)).trans (U14_ne m c _ (by decide)).symm
  | ⟨1, _⟩ => (((dat0 (Vr13 m) c).arrAt_in 1 rfl _).trans (A_eq0 (Vr13 m) c 1)).trans (U14_ne m c _ (by decide)).symm
  | ⟨2, _⟩ => (((dat0 (Vr13 m) c).arrAt_in 2 rfl _).trans (A_eq0 (Vr13 m) c 2)).trans (U14_ne m c _ (by decide)).symm
  | ⟨3, _⟩ => (((dat0 (Vr13 m) c).arrAt_in 3 rfl _).trans (A_eq0 (Vr13 m) c 3)).trans (U14_ne m c _ (by decide)).symm
  | ⟨4, _⟩ => (((dat0 (Vr13 m) c).arrAt_in 4 rfl _).trans (A_eq0 (Vr13 m) c 4)).trans (U14_ne m c _ (by decide)).symm
  | ⟨5, _⟩ => (U14_v7 m c).symm
theorem hrest0 (c : Dev nD) : ∀ b, b ∉ Finset.univ.image (Pipeline.arrRef spec0) → Ur14 m c b = Vr13 m c b :=
  fun b hb => U14_ne m c b (fun h => by subst h; exact hb (Finset.mem_image.mpr ⟨5, Finset.mem_univ _, rfl⟩))

theorem hF1 (c : Dev nD) : ∀ w : Fin cfg1.W, (dat1 (Ur14 m) c).arrAt w cfg1.N = Ur15 m c (Pipeline.arrRef spec1 w)
  | ⟨0, _⟩ => (((dat1 (Ur14 m) c).arrAt_in 0 rfl _).trans (A_eq1 (Ur14 m) c 0)).trans (U15_ne m c _ (by decide)).symm
  | ⟨1, _⟩ => (((dat1 (Ur14 m) c).arrAt_in 1 rfl _).trans (A_eq1 (Ur14 m) c 1)).trans (U15_ne m c _ (by decide)).symm
  | ⟨2, _⟩ => (((dat1 (Ur14 m) c).arrAt_in 2 rfl _).trans (A_eq1 (Ur14 m) c 2)).trans (U15_ne m c _ (by decide)).symm
  | ⟨3, _⟩ => (U15_v8 m c).symm
theorem hrest1 (c : Dev nD) : ∀ b, b ∉ Finset.univ.image (Pipeline.arrRef spec1) → Ur15 m c b = Ur14 m c b :=
  fun b hb => U15_ne m c b (fun h => by subst h; exact hb (Finset.mem_image.mpr ⟨3, Finset.mem_univ _, rfl⟩))

/-! ## The proof data family and the thread state -/

def pdats : (p : Fin 2) → (c : Dev nD) → Dat τ (Elt F) Unit ℕ (UR sig nD τ) ℕ (cfgs p) c
  | ⟨0, _⟩ => fun c => dat0 (Vr13 m) c
  | ⟨1, _⟩ => fun c => dat1 (Ur14 m) c
abbrev L0 : GSem nD τ sig → Finset Unit := fun _ => ∅
abbrev lv0 : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun j c => match j with
  | ⟨0, _⟩ => R c
  | ⟨1, _⟩ => R c
  | ⟨2, _⟩ => iprop(∃ W, owes (c : Thread nD τ) (0 : CellTallies nD τ sig Unit) W)

set_option backward.isDefEq.respectTransparency.types false in
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vr13 m) c).loose
  hwaits := Pipeline.hwaits_of_owed_zero _ _ _ _ L0 lv0 0 fun _ _ => rfl
  pre c := iprop(StableHlo.held (c : Thread nD τ) (Pipeline.ucRefs τ sig) (V13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vr13 m) c)
    unfold Pipeline.ΦA
    iintro ⟨Hp, -, Hr⟩
    isplitl [Hr]; · iexact Hr
    iexact Hp
  hout c := by
    refine (hout0 (Vr13 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr13 m c) (Ur14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ur14 m) c).loose
  hwaits := Pipeline.hwaits_of_owed_zero _ _ _ _ L0 lv0 1 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ur14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ur14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ur14 m) c)
    unfold Pipeline.ΦA
    iintro ⟨Hp, -, Hr⟩
    isplitl [Hr]; · iexact Hr
    iexact Hp
  hout c := by
    refine (hout1 (Ur14 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ur14 m c) (Ur15 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution terminates with every unscoped buffer at the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outsK m) c b) :=
  run_cond m emb₁ () Variants.none L0 lv0 (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach L0 lv0 fun c => by
      iintro ⟨⟨-, HO, -, Hp, -⟩, -⟩
      imodintro
      isplitl [Hp]; · iexists _; iexact Hp
      iexists ∅; iexact HO)
    (fun c => .rfl)
    (reg0 m) (fun c => .rfl) (fun c => by rw [V14K]; exact .rfl)
    (reg1 m) (fun c => by rw [V14K]; exact .rfl) (fun c => by rw [V15K]; exact .rfl)

/-- The same read at the result buffer and at the arguments (no item writes an argument). -/
theorem run_main : θ_run defs (onTc (τ := τ) (main (F := F))) ⟨m, fun _ => 0, ρ⟩ (fun r => ∀ c : Dev nD,
      r.2.mem ((c.tc : Thread nD τ).loc main_v9) = V16 m (outsK m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v9 (by decide)),
     (h c _ (mem_uc main_arg0 (by decide))).trans (V16_main_arg0 m (outsK m) c),
     (h c _ (mem_uc main_arg1 (by decide))).trans (V16_main_arg1 m (outsK m) c),
     (h c _ (mem_uc main_arg2 (by decide))).trans (V16_main_arg2 m (outsK m) c),
     (h c _ (mem_uc main_arg3 (by decide))).trans (V16_main_arg3 m (outsK m) c),
     (h c _ (mem_uc main_arg4 (by decide))).trans (V16_main_arg4 m (outsK m) c),
     (h c _ (mem_uc main_arg5 (by decide))).trans (V16_main_arg5 m (outsK m) c),
     (h c _ (mem_uc main_arg6 (by decide))).trans (V16_main_arg6 m (outsK m) c)⟩) (run_all m ρ)

end Cert.Kernel.Fr

end
-- ==== Proof.R0Runs.lean ====
/-
  The first pallas_call (the gate and up projections, accumulated over four blocks of the contracted axis, then gated):
  what its three control cases share.  The grid is (row block, column block, contraction block); the body zeroes its
  two accumulators when the contraction block is 0, adds one block's products at every point, and writes the gated
  result when the contraction block is 3.  Here: the two branch conditions in closed form over the grid, where the
  output window is idle, the staging memrefs at a point, and the region invariant with the two accumulators named.
-/
import proofs.«107662_j71167608095143_1_alg».proof.Proof.Gen.KernelIdeal.Launch
import proofs.«107662_j71167608095143_1_alg».proof.Proof.Gen.KernelIdeal.Skeleton
import proofs.«107662_j71167608095143_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- "the contraction block is 0": the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the contraction block is 3": the gated result is written. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last contraction block the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1024x256 .bf16 := (Memref.whole cc0_stg5_0 : Memref sig .tc .vmem S1024x256 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x256 .f32 := Memref.whole cc0_scratch0
abbrev scM0_1 : Memref sig .tc .vmem S1024x256 .f32 := Memref.whole cc0_scratch1
abbrev VS0_0 : View sig .tc .vmem S1024x256 .f32 := scM0_0.view
abbrev VS0_1 : View sig .tc .vmem S1024x256 .f32 := scM0_1.view

/-- The class invariant with the two accumulators as memrefs owned at some contents; the other scoped buffers
    (the second pallas_call's) ride along as `rest0`. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Fr

end
-- ==== Proof.R0RunB.lean ====
/-
  The first pallas_call's body at a point whose contraction block is 1 or 2: both accumulators are read, one block's
  products are added, and both are stored back whole; the output window is left untouched.
-/
import proofs.«107662_j71167608095143_1_alg».proof.Proof.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the middle case, on any whole memrefs: the inputs at their contents, the output's buffer at
    contents handed back untouched, both accumulators at what the point before left; it ends with the accumulators'
    stores as pieces (the witness the run finds). -/
noncomputable def kernelRun0_B (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i)
    (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, fun xi5 E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.KernelIdeal.Fr

end
-- ==== Proof.R0RunA.lean ====
/-
  The first pallas_call's body at a point whose contraction block is 0: both accumulators are zeroed, then one
  block's products are added and stored back whole; the output window is left untouched.
-/
import proofs.«107662_j71167608095143_1_alg».proof.Proof.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the first case: the accumulators may hold anything (they are overwritten before they matter). -/
noncomputable def kernelRun0_A (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i)
    (x0 : Vec F S1024x1024 .f32) (x1 : Vec F S1024x256 .i32) (x2 : Vec F S8x256 .f32) (x3 : Vec F S1024x256 .i32) (x4 : Vec F S8x256 .f32) :
    Σ' (LS0 : List (View.Piece (Elt F) S1024x256 .f32)), { LS1 : List (View.Piece (Elt F) S1024x256 .f32) //
      ∀ (xi5 : Vec F S1024x256 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, fun xi5 E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; iexact HS0
    iexists _; iexact HS1

end Cert.KernelIdeal.Fr

end
-- ==== Proof.R0RunC.lean ====
/-
  The first pallas_call's body at a point whose contraction block is 3: the last block's products are added to both
  accumulators, and the gated product of the two is stored, whole, into the output window's buffer.
-/
import proofs.«107662_j71167608095143_1_alg».proof.Proof.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the last case: the output's buffer may hold anything; it ends with its store as a piece. -/
noncomputable def kernelRun0_C (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i)
    (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    Σ' (L5 : List (View.Piece (Elt F) S1024x256 .bf16)) (LS0 : List (View.Piece (Elt F) S1024x256 .f32)), { LS1 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10) K } := by
  refine ⟨?_, ?_, ?_, fun E K => ?run⟩
  case run =>
    simp only [cc0__gateup_kernel_eq_skeleton]; unfold cc0__gateup_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    isplitl [HS0]
    · iexists _; iexact HS0
    iexists _; iexact HS1

end Cert.KernelIdeal.Fr

end
-- ==== Proof.R0Frame.lean ====
/-
  The first pallas_call's proof data: what each control case leaves in the two accumulators and in the output
  window's buffer, what they hold point by point along the grid (an accumulator at a point whose contraction block is
  not 0 continues from what the point before left), the region invariant carrying the accumulators between points,
  and the body obligation at a generic point.  `V` is what the region finds in the unscoped buffers on entry.
-/
import proofs.«107662_j71167608095143_1_alg».proof.Proof.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

theorem scover0_A_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).1 S1024x256.size (by sl_kernel_rfl) y
theorem scover0_A_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) (y : S1024x256.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x256.size (by sl_kernel_rfl) y
def sout0_A_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) : Vec F S1024x256 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).1)
def sout0_A_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) : Vec F S1024x256 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.1)

theorem scover0_B_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_B_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x256.size (by sl_kernel_rfl) y
def sout0_B_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).1)
def sout0_B_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xs0 xs1).2.1)

theorem cover0_C_5 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).1 S1024x256.size (by sl_kernel_rfl) y
theorem scover0_C_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.1 S1024x256.size (by sl_kernel_rfl) y
theorem scover0_C_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) (y : S1024x256.Idx) :
    ∃ pc ∈ (kernelRun0_C c i arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0 xs1).2.2.1 S1024x256.size (by sl_kernel_rfl) y
def out0_C_5 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .bf16 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0 xs1).1)
def sout0_C_0 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0 xs1).2.1)
def sout0_C_1 (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) : Vec F S1024x256 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xs0 xs1).2.2.1)

/-- A placeholder for the output window's buffer at a point that stores nothing into it (never consulted). -/
def idle5 : Vec F S1024x256 .bf16 := VO0_5.read (Elt F) VO0_5.junk

/-! ## Point by point -/

/-- Case by case at a point `t`: (the output's buffer, the gate accumulator, the up accumulator). -/
def atA (c : Dev nD) (t : Fin cfg0.N) (h0 : t.val % 4 = 0) (h1 : ¬t.val % 4 = 3) : Vec F S1024x256 .bf16 × Vec F S1024x256 .f32 × Vec F S1024x256 .f32 :=
  (idle5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t))
def atB (c : Dev nD) (t : Fin cfg0.N) (h0 : ¬t.val % 4 = 0) (h1 : ¬t.val % 4 = 3) (p : Vec F S1024x256 .bf16 × Vec F S1024x256 .f32 × Vec F S1024x256 .f32) : Vec F S1024x256 .bf16 × Vec F S1024x256 .f32 × Vec F S1024x256 .f32 :=
  (idle5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) p.2.1 p.2.2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) p.2.1 p.2.2)
def atC (c : Dev nD) (t : Fin cfg0.N) (h0 : ¬t.val % 4 = 0) (h1 : t.val % 4 = 3) (p : Vec F S1024x256 .bf16 × Vec F S1024x256 .f32 × Vec F S1024x256 .f32) : Vec F S1024x256 .bf16 × Vec F S1024x256 .f32 × Vec F S1024x256 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) p.2.1 p.2.2)

/-- THE ACCUMULATION along the grid: the case the contraction block selects, a continuing case over what the point
    before left. -/
def outsAt0 (c : Dev nD) : (n : ℕ) → n < cfg0.N → Vec F S1024x256 .bf16 × Vec F S1024x256 .f32 × Vec F S1024x256 .f32
  | 0, hn => atA V c ⟨0, hn⟩ (Nat.zero_mod _) (fun h => by (try dsimp only at h); omega)
  | n + 1, hn =>
    if h0 : (n + 1) % 4 = 0 then
      if h1 : (n + 1) % 4 = 3 then False.elim (by omega)
      else atA V c ⟨n + 1, hn⟩ h0 h1
    else
      if h1 : (n + 1) % 4 = 3 then atC V c ⟨n + 1, hn⟩ h0 h1 (outsAt0 c n (Nat.lt_of_succ_lt hn))
      else atB V c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 V c t.val t.isLt = atA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 4 = 0) (h1 : ¬t.val % 4 = 3) :
    outsAt0 V c t.val t.isLt = atB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 4 = 0) (h1 : t.val % 4 = 3) :
    outsAt0 V c t.val t.isLt = atC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at first the class's (every scoped buffer at anything); afterwards
    the two accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Fr

end
-- ==== Proof.R0Body.lean ====
/-
  The first pallas_call's body obligation at a generic grid point: the contraction block decides the case; the region
  invariant hands the body the two accumulators at what the point before left (at anything at the very first point)
  and takes them back at this point's contents.
-/
import proofs.«107662_j71167608095143_1_alg».proof.Proof.R0Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 1408 := lt_of_lt_of_eq t.isLt (show cfg0.N = 1408 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · by_cases h1 : t.val % 4 = 3
    · exfalso; omega
    · rw [Dat.leavesExact_idle (dat0 V c) 5 t (idleAt0_5 t (fun h => h1 ((hcond0_1 t).mp h))) (noFlush0_5 t (fun h => h1 ((hcond0_1 t).mp h)))]
      rw [outsAt0_A V c t h0 h1]
      unfold atA sout0_A_0 sout0_A_1; (try dsimp only)
      by_cases hz : t.val = 0
      · rw [PhiS0_castSucc V c t, PhiS0_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun h => h0 (by rw [h])
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold atC out0_C_5 sout0_C_0 sout0_C_1; (try dsimp only)
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold atB sout0_B_0 sout0_B_1; (try dsimp only)
      · rw [PhiS0_castSucc V c t, PhiS0_pos V c _ _ hz]
        iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end Cert.KernelIdeal.Fr

end
-- ==== Proof.R0Ends.lean ====
/-
  The first pallas_call's invariant at its far end: after the last grid point the accumulator contents are
  forgotten and the class's invariant (every scoped buffer at anything) is given back.
-/
import proofs.«107662_j71167608095143_1_alg».proof.Proof.R0Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_out0 (c : Dev nD) (n : ℕ) (h : n ≤ cfg0.N) (hz : n ≠ 0) : PhiS0 V c n h ⊢ Pipeline.ΦA spec0 c := by
  rw [PhiS0_pos V c n h hz, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

theorem Phi_at0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl]
  exact Phi_out0 V c _ _ ht

set_option maxHeartbeats 2000000 in
theorem hout0 (c : Dev nD) : (dat0 V c).Φ (Fin.last cfg0.N) ⊢ Pipeline.ΦA spec0 c := by
  refine Phi_at0 V c (Fin.last cfg0.N) ?_
  rw [Fin.val_last, show cfg0.N = 1408 from N_0]
  decide

end Cert.KernelIdeal.Fr

end
-- ==== Proof.R1Runs.lean ====
/-
  The second pallas_call (the down projection, accumulated over eleven blocks of the padded hidden axis): what its
  three control cases share.  The grid is (row block, column block, contraction block); the body zeroes its accumulator
  when the contraction block is 0, adds one block's products at every point, and copies the accumulator to the output
  window when the contraction block is 10.
-/
import proofs.«107662_j71167608095143_1_alg».proof.Proof.Gen.KernelIdeal.Launch
import proofs.«107662_j71167608095143_1_alg».proof.Proof.Gen.KernelIdeal.Skeleton
import proofs.«107662_j71167608095143_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "the contraction block is 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)

/-- "the contraction block is 10": the result is written. -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S256x1024 .f32 := (Memref.whole cc1_stg3_0 : Memref sig .tc .vmem S256x1024 .f32).view
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S256x1024 .f32 := Memref.whole cc1_scratch0
abbrev VS1_0 : View sig .tc .vmem S256x1024 .f32 := scM1_0.view

/-- The other scoped buffers (the first pallas_call's), each at anything, in front of what is said of the
    accumulator. -/
def chain1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

theorem PhiA1_eq (c : Dev nD) :
    (Pipeline.ΦA spec1 c : sProp 𝕄)
      = iprop(chain1 c iprop(∃ d, owns (c : Thread nD τ) scM1_0 fullShare d) ∗ (∃ r, prngReg c r)) := by
  unfold Pipeline.ΦA chain1; rw [scopedRest1_eq]; simp only [scM1_0, owns_whole]; try rfl

end Cert.KernelIdeal.Fr

end
-- ==== Proof.R1RunB.lean ====
/-
  The second pallas_call's body at a point whose contraction block is 1..9: the accumulator is read, one block's
  products are added, and it is stored back whole; the output window is left untouched.
-/
import proofs.«107662_j71167608095143_1_alg».proof.Proof.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i)
    (x0 : Vec F S256x1024 .bf16) (x1 : Vec F S1024x1024 .i32) (x2 : Vec F S8x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.R1RunA.lean ====
/-
  The second pallas_call's body at a point whose contraction block is 0: the accumulator is zeroed, then one
  block's products are added and stored back whole; the output window is left untouched.
-/
import proofs.«107662_j71167608095143_1_alg».proof.Proof.R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i)
    (x0 : Vec F S256x1024 .bf16) (x1 : Vec F S1024x1024 .i32) (x2 : Vec F S8x1024 .f32) :
    { LS0 : List (View.Piece (Elt F) S256x1024 .f32) //
      ∀ (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.R1RunC.lean ====
/-
  The second pallas_call's body at a point whose contraction block is 10: the last block's products are added to
  the accumulator, and the accumulator is copied, whole, into the output window's buffer.
-/
import proofs.«107662_j71167608095143_1_alg».proof.Proof.R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i)
    (x0 : Vec F S256x1024 .bf16) (x1 : Vec F S1024x1024 .i32) (x2 : Vec F S8x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.KernelIdeal.Fr

end
-- ==== Proof.R1Frame.lean ====
/-
  The second pallas_call's proof data: what each control case leaves in the accumulator and in the output window's
  buffer, what they hold point by point along the grid, the region invariant carrying the accumulator between points.
  `V` is what the region finds in the unscoped buffers on entry.
-/
import proofs.«107662_j71167608095143_1_alg».proof.Proof.R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem scover1_A_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i) (x0 : Vec F S256x1024 .bf16) (x1 : Vec F S1024x1024 .i32) (x2 : Vec F S8x1024 .f32) (y : S256x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S256x1024.size (by sl_kernel_rfl) y
def sout1_A_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i) (x0 : Vec F S256x1024 .bf16) (x1 : Vec F S1024x1024 .i32) (x2 : Vec F S8x1024 .f32) : Vec F S256x1024 .f32 :=
  VS1_0.read (Elt F) (VS1_0.writes (Elt F) VS1_0.junk (kernelRun1_A c i arg3 harg3 arg4 harg4 arg5 harg5 arg6 harg6 arg7 harg7 hc0 hc1 x0 x1 x2).1)

theorem scover1_B_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i) (x0 : Vec F S256x1024 .bf16) (x1 : Vec F S1024x1024 .i32) (x2 : Vec F S8x1024 .f32) (xs0 : Vec F S256x1024 .f32) (y : S256x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S256x1024.size (by sl_kernel_rfl) y
def sout1_B_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i) (x0 : Vec F S256x1024 .bf16) (x1 : Vec F S1024x1024 .i32) (x2 : Vec F S8x1024 .f32) (xs0 : Vec F S256x1024 .f32) : Vec F S256x1024 .f32 :=
  VS1_0.read (Elt F) (VS1_0.writes (Elt F) VS1_0.junk (kernelRun1_B c i arg3 harg3 arg4 harg4 arg5 harg5 arg6 harg6 arg7 harg7 hc0 hc1 x0 x1 x2 xs0).1)

theorem cover1_C_3 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S256x1024.size (by sl_kernel_rfl) y
theorem scover1_C_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) (y : S256x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S256x1024.size (by sl_kernel_rfl) y
def out1_C_3 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) : Vec F S256x1024 .f32 :=
  VO1_3.read (Elt F) (VO1_3.writes (Elt F) VO1_3.junk (kernelRun1_C c i arg3 harg3 arg4 harg4 arg5 harg5 arg6 harg6 arg7 harg7 hc0 hc1 x0 x1 x2 xs0).1)
def sout1_C_0 (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) : Vec F S256x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- A placeholder for the output window's buffer at a point that stores nothing into it (never consulted). -/
def idle3 : Vec F S256x1024 .f32 := VO1_3.read (Elt F) VO1_3.junk

/-- Case by case at a point `t`: (the output's buffer, the accumulator). -/
def at1A (c : Dev nD) (t : Fin cfg1.N) (h0 : t.val % 11 = 0) (h1 : ¬t.val % 11 = 10) : Vec F S256x1024 .f32 × Vec F S256x1024 .f32 :=
  (idle3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
def at1B (c : Dev nD) (t : Fin cfg1.N) (h0 : ¬t.val % 11 = 0) (h1 : ¬t.val % 11 = 10) (p : Vec F S256x1024 .f32 × Vec F S256x1024 .f32) : Vec F S256x1024 .f32 × Vec F S256x1024 .f32 :=
  (idle3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) p.2)
def at1C (c : Dev nD) (t : Fin cfg1.N) (h0 : ¬t.val % 11 = 0) (h1 : t.val % 11 = 10) (p : Vec F S256x1024 .f32 × Vec F S256x1024 .f32) : Vec F S256x1024 .f32 × Vec F S256x1024 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) p.2,
    sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) p.2)

/-- THE ACCUMULATION along the grid. -/
def outsAt1 (c : Dev nD) : (n : ℕ) → n < cfg1.N → Vec F S256x1024 .f32 × Vec F S256x1024 .f32
  | 0, hn => at1A V c ⟨0, hn⟩ (Nat.zero_mod _) (fun h => by (try dsimp only at h); omega)
  | n + 1, hn =>
    if h0 : (n + 1) % 11 = 0 then
      if h1 : (n + 1) % 11 = 10 then False.elim (by omega)
      else at1A V c ⟨n + 1, hn⟩ h0 h1
    else
      if h1 : (n + 1) % 11 = 10 then at1C V c ⟨n + 1, hn⟩ h0 h1 (outsAt1 c n (Nat.lt_of_succ_lt hn))
      else at1B V c ⟨n + 1, hn⟩ h0 h1 (outsAt1 c n (Nat.lt_of_succ_lt hn))

theorem outsAt1_A (c : Dev nD) (t : Fin cfg1.N) (h0 : t.val % 11 = 0) (h1 : ¬t.val % 11 = 10) :
    outsAt1 V c t.val t.isLt = at1A V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 11 = 0) (h1 : ¬t.val % 11 = 10) :
    outsAt1 V c t.val t.isLt = at1B V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 11 = 0) (h1 : t.val % 11 = 10) :
    outsAt1 V c t.val t.isLt = at1C V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`. -/
def PhiS1 (c : Dev nD) : (n : ℕ) → n ≤ cfg1.N → sProp 𝕄
  | 0, _ => Pipeline.ΦA spec1 c
  | n + 1, hn => iprop(chain1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(chain1 c (owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Fr

end
-- ==== Proof.R1Body.lean ====
/-
  The second pallas_call's body obligation at a generic grid point.
-/
import proofs.«107662_j71167608095143_1_alg».proof.Proof.R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 1408 := lt_of_lt_of_eq t.isLt (show cfg1.N = 1408 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 11 = 0
  · by_cases h1 : t.val % 11 = 10
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold at1A sout1_A_0; (try dsimp only)
      by_cases hz : t.val = 0
      · rw [PhiS1_castSucc V c t, PhiS1_zero V c _ _ hz, PhiA1_eq]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 11 = 10
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold at1C out1_C_3 sout1_C_0; (try dsimp only)
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold at1B sout1_B_0; (try dsimp only)
      · rw [PhiS1_castSucc V c t, PhiS1_pos V c _ _ hz]
        unfold chain1
        iintro ⟨⟨⟨B0, B1, B2, B3, B4, B5, B6, B7, B8, B9, B10, B11, B12, B13, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B0 B1 B2 B3 B4 B5 B6 B7 B8 B9 B10 B11 B12 B13 HS0 Hg]
        · isplitl [B0 B1 B2 B3 B4 B5 B6 B7 B8 B9 B10 B11 B12 B13 HS0]
          · isplitl [B0]; · iexact B0
            isplitl [B1]; · iexact B1
            isplitl [B2]; · iexact B2
            isplitl [B3]; · iexact B3
            isplitl [B4]; · iexact B4
            isplitl [B5]; · iexact B5
            isplitl [B6]; · iexact B6
            isplitl [B7]; · iexact B7
            isplitl [B8]; · iexact B8
            isplitl [B9]; · iexact B9
            isplitl [B10]; · iexact B10
            isplitl [B11]; · iexact B11
            isplitl [B12]; · iexact B12
            isplitl [B13]; · iexact B13
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.KernelIdeal.Fr

end
-- ==== Proof.R1Ends.lean ====
/-
  The second pallas_call's invariant at its far end: the accumulator's contents are forgotten.
-/
import proofs.«107662_j71167608095143_1_alg».proof.Proof.R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_out1 (c : Dev nD) (n : ℕ) (h : n ≤ cfg1.N) (hz : n ≠ 0) : PhiS1 V c n h ⊢ Pipeline.ΦA spec1 c := by
  rw [PhiS1_pos V c n h hz, PhiA1_eq]
  unfold chain1
  iintro ⟨⟨B0, B1, B2, B3, B4, B5, B6, B7, B8, B9, B10, B11, B12, B13, HS0⟩, Hg⟩
  isplitl [B0 B1 B2 B3 B4 B5 B6 B7 B8 B9 B10 B11 B12 B13 HS0]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexists _; iexact HS0
  iexact Hg

theorem Phi_at1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl]
  exact Phi_out1 V c _ _ ht

set_option maxHeartbeats 2000000 in
theorem hout1 (c : Dev nD) : (dat1 V c).Φ (Fin.last cfg1.N) ⊢ Pipeline.ΦA spec1 c := by
  refine Phi_at1 V c (Fin.last cfg1.N) ?_
  rw [Fin.val_last, show cfg1.N = 1408 from N_1]
  decide

end Cert.KernelIdeal.Fr

end
-- ==== Proof.KRunCond.lean ====
/-
  @main of the kernel program as a chain of sixteen items — thirteen stretches of host operations (the paddings and
  the flattening of the tokens), the two pallas_calls, and the final reshape — run from the launch to the return, given
  for each pallas_call a record of its layout, body obligation and entry / exit protocol.  The conclusion reads EVERY
  unscoped buffer of a core off the last valuation of the chain: the result buffer and the arguments are instances.
-/
import proofs.«107662_j71167608095143_1_alg».proof.Proof.Gen.KernelIdeal.Regions

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- Given one segment record per pallas_call, entered from and left at the thread states "every unscoped buffer at the
    valuation between two items, beside a rest of the caller's choosing", every weakly fair execution of @main from
    memory `m` with zero counters terminates, and in every final memory each unscoped buffer of each core holds what
    the chain's last valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V14 m outs c) ∗ E 1 c) ⊢ R1.pre c)
    (hpost1 : ∀ c : Dev nD, R1.post c ⊢ iprop(StableHlo.held (c : Thread nD τ) (Pipeline.ucRefs τ sig) (V15 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, .rfl, .rfl, .rfl, .rfl, .rfl, .rfl, .rfl, .rfl, .rfl, .rfl, hpre0 c, (hpost0 c).trans (hpre1 c), hpost1 c, sep_mono .rfl (hE2 c)⟩)
    (hinit := ?_) (QY := fun c s => ∀ b ∈ Pipeline.ucRefs τ sig, s.mem (((c : Thread nD τ)).1, b) = V16 m outs c b)
    (hfin := fun c s' => ?_) (hQ := fun _ h => h)
  · -- at the launch every unscoped buffer is held at the launch memory; the rest of the launch state makes `E 0`
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the return the last thread state is read against the final memory, buffer by buffer
    iintro ⟨Hh, HSI⟩
    unfold StableHlo.held
    imodintro
    iapply (pointsTo_read_all (Pipeline.ucRefs τ sig) (fun b => (((c : Thread nD τ)).1, b)) (V16 m outs c) s')
    isplitl [Hh] <;> iassumption

end Cert.KernelIdeal.Fr

end
-- ==== Proof.KRun.lean ====
/-
  The kernel program's run from the launch to the return, with both pallas_calls' proof data in place: the first is
  entered at the contents the thirteen host stretches leave and leaves its result array at what its write-backs fold to;
  the second is entered there and leaves its own result array likewise; the final reshape reads it.  Between two items
  the thread state is "every unscoped buffer at the valuation reached so far, the generator register at some state,
  nothing owed".
-/
import proofs.«107662_j71167608095143_1_alg».proof.Proof.R0Body
import proofs.«107662_j71167608095143_1_alg».proof.Proof.R0Ends
import proofs.«107662_j71167608095143_1_alg».proof.Proof.R1Body
import proofs.«107662_j71167608095143_1_alg».proof.Proof.R1Ends
import proofs.«107662_j71167608095143_1_alg».proof.Proof.KRunCond
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at the two regions' boundaries -/

/-- What the first pallas_call finds: the contents after the thirteen host stretches. -/
abbrev Vr13 : (c : Dev nD) → (b : Ref sig .tc) → Buf (Elt F) ((c : Thread nD τ).loc b) := fun c b => V13 m c b
/-- What it leaves in its result array. -/
def o7 (c : Dev nD) : Buf (Elt F) ((c : Thread nD τ).loc main_v7) := (dat0 (Vr13 m) c).arrAt 5 cfg0.N
/-- The contents between the two pallas_calls. -/
def U14 (c : Dev nD) : Valuation τ sig (Elt F) := Function.update (V13 m c) main_v7 (o7 m c)
abbrev Ur14 : (c : Dev nD) → (b : Ref sig .tc) → Buf (Elt F) ((c : Thread nD τ).loc b) := fun c b => U14 m c b
/-- What the second pallas_call leaves in its result array. -/
def o8 (c : Dev nD) : Buf (Elt F) ((c : Thread nD τ).loc main_v8) := (dat1 (Ur14 m) c).arrAt 3 cfg1.N
def U15 (c : Dev nD) : Valuation τ sig (Elt F) := Function.update (U14 m c) main_v8 (o8 m c)
abbrev Ur15 : (c : Dev nD) → (b : Ref sig .tc) → Buf (Elt F) ((c : Thread nD τ).loc b) := fun c b => U15 m c b
/-- The regions' results as the chain of valuations reads them. -/
def outsK : Outs (F := F) := fun J r c => if J = 14 then U14 m c r else U15 m c r

theorem U14_v7 (c : Dev nD) : U14 m c main_v7 = o7 m c := by unfold U14; exact Function.update_self ..
theorem U14_ne (c : Dev nD) (r : Ref sig .tc) (h : r ≠ main_v7) : U14 m c r = V13 m c r := by
  unfold U14; exact Function.update_of_ne (StableHlo.devRef_ne_of_ne h) _ _
theorem U15_v8 (c : Dev nD) : U15 m c main_v8 = o8 m c := by unfold U15; exact Function.update_self ..
theorem U15_ne (c : Dev nD) (r : Ref sig .tc) (h : r ≠ main_v8) : U15 m c r = U14 m c r := by
  unfold U15; exact Function.update_of_ne (StableHlo.devRef_ne_of_ne h) _ _

theorem V14K (c : Dev nD) : V14 m (outsK m) c = U14 m c := by
  show Function.update (V13 m c) main_v7 (outsK m 14 main_v7 c) = U14 m c
  unfold U14
  congr 1

theorem V15K (c : Dev nD) : V15 m (outsK m) c = U15 m c := by
  show Function.update (V14 m (outsK m) c) main_v8 (outsK m 15 main_v8 c) = U15 m c
  rw [V14K]; unfold U15
  congr 1

theorem hF0 (c : Dev nD) : ∀ w : Fin cfg0.W, (dat0 (Vr13 m) c).arrAt w cfg0.N = Ur14 m c (Pipeline.arrRef spec0 w)
  | ⟨0, _⟩ => (((dat0 (Vr13 m) c).arrAt_in 0 rfl _).trans (A_eq0 (Vr13 m) c 0)).trans (U14_ne m c _ (by decide)).symm
  | ⟨1, _⟩ => (((dat0 (Vr13 m) c).arrAt_in 1 rfl _).trans (A_eq0 (Vr13 m) c 1)).trans (U14_ne m c _ (by decide)).symm
  | ⟨2, _⟩ => (((dat0 (Vr13 m) c).arrAt_in 2 rfl _).trans (A_eq0 (Vr13 m) c 2)).trans (U14_ne m c _ (by decide)).symm
  | ⟨3, _⟩ => (((dat0 (Vr13 m) c).arrAt_in 3 rfl _).trans (A_eq0 (Vr13 m) c 3)).trans (U14_ne m c _ (by decide)).symm
  | ⟨4, _⟩ => (((dat0 (Vr13 m) c).arrAt_in 4 rfl _).trans (A_eq0 (Vr13 m) c 4)).trans (U14_ne m c _ (by decide)).symm
  | ⟨5, _⟩ => (U14_v7 m c).symm
theorem hrest0 (c : Dev nD) : ∀ b, b ∉ Finset.univ.image (Pipeline.arrRef spec0) → Ur14 m c b = Vr13 m c b :=
  fun b hb => U14_ne m c b (fun h => by subst h; exact hb (Finset.mem_image.mpr ⟨5, Finset.mem_univ _, rfl⟩))

theorem hF1 (c : Dev nD) : ∀ w : Fin cfg1.W, (dat1 (Ur14 m) c).arrAt w cfg1.N = Ur15 m c (Pipeline.arrRef spec1 w)
  | ⟨0, _⟩ => (((dat1 (Ur14 m) c).arrAt_in 0 rfl _).trans (A_eq1 (Ur14 m) c 0)).trans (U15_ne m c _ (by decide)).symm
  | ⟨1, _⟩ => (((dat1 (Ur14 m) c).arrAt_in 1 rfl _).trans (A_eq1 (Ur14 m) c 1)).trans (U15_ne m c _ (by decide)).symm
  | ⟨2, _⟩ => (((dat1 (Ur14 m) c).arrAt_in 2 rfl _).trans (A_eq1 (Ur14 m) c 2)).trans (U15_ne m c _ (by decide)).symm
  | ⟨3, _⟩ => (U15_v8 m c).symm
theorem hrest1 (c : Dev nD) : ∀ b, b ∉ Finset.univ.image (Pipeline.arrRef spec1) → Ur15 m c b = Ur14 m c b :=
  fun b hb => U15_ne m c b (fun h => by subst h; exact hb (Finset.mem_image.mpr ⟨3, Finset.mem_univ _, rfl⟩))

/-! ## The proof data family and the thread state -/

def pdats : (p : Fin 2) → (c : Dev nD) → Dat τ (Elt F) Unit ℕ (UR sig nD τ) ℕ (cfgs p) c
  | ⟨0, _⟩ => fun c => dat0 (Vr13 m) c
  | ⟨1, _⟩ => fun c => dat1 (Ur14 m) c
abbrev L0 : GSem nD τ sig → Finset Unit := fun _ => ∅
abbrev lv0 : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun j c => match j with
  | ⟨0, _⟩ => R c
  | ⟨1, _⟩ => R c
  | ⟨2, _⟩ => iprop(∃ W, owes (c : Thread nD τ) (0 : CellTallies nD τ sig Unit) W)

set_option backward.isDefEq.respectTransparency.types false in
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vr13 m) c).loose
  hwaits := Pipeline.hwaits_of_owed_zero _ _ _ _ L0 lv0 0 fun _ _ => rfl
  pre c := iprop(StableHlo.held (c : Thread nD τ) (Pipeline.ucRefs τ sig) (V13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec0 c (Vr13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vr13 m) c)
    unfold Pipeline.ΦA
    iintro ⟨Hp, -, Hr⟩
    isplitl [Hr]; · iexact Hr
    iexact Hp
  hout c := by
    refine (hout0 (Vr13 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr13 m c) (Ur14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ur14 m) c).loose
  hwaits := Pipeline.hwaits_of_owed_zero _ _ _ _ L0 lv0 1 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ur14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ur14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Ur14 m) c)
    unfold Pipeline.ΦA
    iintro ⟨Hp, -, Hr⟩
    isplitl [Hr]; · iexact Hr
    iexact Hp
  hout c := by
    refine (hout1 (Ur14 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ur14 m c) (Ur15 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution terminates with every unscoped buffer at the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V16 m (outsK m) c b) :=
  run_cond m emb₁ () Variants.none L0 lv0 (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach L0 lv0 fun c => by
      iintro ⟨⟨-, HO, -, Hp, -⟩, -⟩
      imodintro
      isplitl [Hp]; · iexists _; iexact Hp
      iexists ∅; iexact HO)
    (fun c => .rfl)
    (reg0 m) (fun c => .rfl) (fun c => by rw [V14K]; exact .rfl)
    (reg1 m) (fun c => by rw [V14K]; exact .rfl) (fun c => by rw [V15K]; exact .rfl)

/-- The same read at the result buffer and at the arguments (no item writes an argument). -/
theorem run_main : θ_run defs (onTc (τ := τ) (main (F := F))) ⟨m, fun _ => 0, ρ⟩ (fun r => ∀ c : Dev nD,
      r.2.mem ((c.tc : Thread nD τ).loc main_v9) = V16 m (outsK m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v9 (by decide)),
     (h c _ (mem_uc main_arg0 (by decide))).trans (V16_main_arg0 m (outsK m) c),
     (h c _ (mem_uc main_arg1 (by decide))).trans (V16_main_arg1 m (outsK m) c),
     (h c _ (mem_uc main_arg2 (by decide))).trans (V16_main_arg2 m (outsK m) c),
     (h c _ (mem_uc main_arg3 (by decide))).trans (V16_main_arg3 m (outsK m) c),
     (h c _ (mem_uc main_arg4 (by decide))).trans (V16_main_arg4 m (outsK m) c),
     (h c _ (mem_uc main_arg5 (by decide))).trans (V16_main_arg5 m (outsK m) c),
     (h c _ (mem_uc main_arg6 (by decide))).trans (V16_main_arg6 m (outsK m) c)⟩) (run_all m ρ)

end Cert.KernelIdeal.Fr

end
-- ==== Proof.Spec.lean ====
/-
  The specification both programs meet, index by index, over the extended reals: a gated MLP whose three weight
  matrices are stored as 4-bit codes with one scale per group of 128 input rows.  A code `q` and its group's
  scale `s` stand for the weight `(q - 8) · s`.  With `g = x · Wg`, `u = x · Wu` the hidden activations are
  `(g · σ(g)) · u`, where `σ z = 1 / (1 + e^(-z))`, and the result is their product with `Wd`.
  Float literals stay words: `Ideal.ofBits .f32 0x41000000#32` is the literal 8.0 of both programs.
-/
import Idealize.ShloMosaic.PureOps.Ideal
import Idealize.ShloMosaic.Lib.ValueIdx

noncomputable section

open scoped BigOperators

namespace Cert.Mlp

open Idealize.ShloMosaic Idealize.ShloMosaic.ValueIdx

/-- The literal 8.0 both programs subtract from a code. -/
abbrev eight : EReal := Ideal.ofBits .f32 0x41000000#32

/-- A 4-bit code (a 32-bit word read signed) and its scale as a weight. -/
def wt (q : BitVec 32) (s : EReal) : EReal := (FloatOps.sitofp (F := Ideal) .f32 q - eight) * s

/-- The gate / up weight at input row `k` and hidden column `i`: scale row `k / 128`. -/
def wIn (q : (⟨2, ![4096, 11008]⟩ : Shape).Idx → BitVec 32) (s : (⟨2, ![32, 11008]⟩ : Shape).Idx → EReal)
    (k : Fin 4096) (i : Fin 11008) : EReal :=
  wt (q (ix2 k i)) (s (ix2 (⟨k.val / 128, by have := k.isLt; omega⟩ : Fin 32) i))

/-- The down weight at hidden row `i` and output column `h`: scale row `i / 128`. -/
def wOut (q : (⟨2, ![11008, 4096]⟩ : Shape).Idx → BitVec 32) (s : (⟨2, ![86, 4096]⟩ : Shape).Idx → EReal)
    (i : Fin 11008) (h : Fin 4096) : EReal :=
  wt (q (ix2 i h)) (s (ix2 (⟨i.val / 128, by have := i.isLt; omega⟩ : Fin 86) h))

/-- A projection of token `(b, t)` onto hidden column `i`. -/
def proj (x : (⟨3, ![4, 2048, 4096]⟩ : Shape).Idx → EReal)
    (q : (⟨2, ![4096, 11008]⟩ : Shape).Idx → BitVec 32) (s : (⟨2, ![32, 11008]⟩ : Shape).Idx → EReal)
    (b : Fin 4) (t : Fin 2048) (i : Fin 11008) : EReal :=
  ∑ k : Fin 4096, x (ix3 b t k) * wIn q s k i

/-- The gating `(g · σ(g)) · u`. -/
def gated (g u : EReal) : EReal := (g * Ideal.logistic g) * u

/-- The hidden activation of token `(b, t)` at column `i`. -/
def hid (x : (⟨3, ![4, 2048, 4096]⟩ : Shape).Idx → EReal)
    (gq : (⟨2, ![4096, 11008]⟩ : Shape).Idx → BitVec 32) (gs : (⟨2, ![32, 11008]⟩ : Shape).Idx → EReal)
    (uq : (⟨2, ![4096, 11008]⟩ : Shape).Idx → BitVec 32) (us : (⟨2, ![32, 11008]⟩ : Shape).Idx → EReal)
    (b : Fin 4) (t : Fin 2048) (i : Fin 11008) : EReal :=
  gated (proj x gq gs b t i) (proj x uq us b t i)

/-- The whole result array. -/
def out (x : (⟨3, ![4, 2048, 4096]⟩ : Shape).Idx → EReal)
    (gq : (⟨2, ![4096, 11008]⟩ : Shape).Idx → BitVec 32) (gs : (⟨2, ![32, 11008]⟩ : Shape).Idx → EReal)
    (uq : (⟨2, ![4096, 11008]⟩ : Shape).Idx → BitVec 32) (us : (⟨2, ![32, 11008]⟩ : Shape).Idx → EReal)
    (dq : (⟨2, ![11008, 4096]⟩ : Shape).Idx → BitVec 32) (ds : (⟨2, ![86, 4096]⟩ : Shape).Idx → EReal) :
    (⟨3, ![4, 2048, 4096]⟩ : Shape).Idx → EReal :=
  fun j => ∑ i : Fin 11008, hid x gq gs uq us (j 0) (j 1) i * wOut dq ds i (j 2)

end Cert.Mlp

end
-- ==== Proof.KSpec.lean ====
/-
  What the two pallas_calls compute, as whole arrays over the padded extents (the hidden axis padded from 11008 to
  11264 columns): the gated hidden activations from the flattened tokens and the padded gate / up codes and scales,
  and the down projection from the hidden activations and the padded down codes and scales.  Both are plain sums
  over the whole contracted axis; the kernels reach them block by block.
-/
import proofs.«107662_j71167608095143_1_alg».proof.Proof.Spec

noncomputable section

open scoped BigOperators

namespace Cert.Mlp

open Idealize.ShloMosaic Idealize.ShloMosaic.ValueIdx

/-- A projection over the padded extents: token row `r`, hidden column `i`. -/
def projP (X : (⟨2, ![8192, 4096]⟩ : Shape).Idx → EReal)
    (q : (⟨2, ![4096, 11264]⟩ : Shape).Idx → BitVec 32) (s : (⟨2, ![32, 11264]⟩ : Shape).Idx → EReal)
    (r : Fin 8192) (i : Fin 11264) : EReal :=
  ∑ k : Fin 4096, X (ix2 r k) * wt (q (ix2 k i)) (s (ix2 (⟨k.val / 128, by have := k.isLt; omega⟩ : Fin 32) i))

/-- The first pallas_call's result: the gated hidden activations over the padded extents. -/
def hidP (X : (⟨2, ![8192, 4096]⟩ : Shape).Idx → EReal)
    (gq : (⟨2, ![4096, 11264]⟩ : Shape).Idx → BitVec 32) (gs : (⟨2, ![32, 11264]⟩ : Shape).Idx → EReal)
    (uq : (⟨2, ![4096, 11264]⟩ : Shape).Idx → BitVec 32) (us : (⟨2, ![32, 11264]⟩ : Shape).Idx → EReal) :
    (⟨2, ![8192, 11264]⟩ : Shape).Idx → EReal :=
  fun j => gated (projP X gq gs (j 0) (j 1)) (projP X uq us (j 0) (j 1))

/-- The second pallas_call's result: the down projection over the padded hidden axis. -/
def outP (H : (⟨2, ![8192, 11264]⟩ : Shape).Idx → EReal)
    (dq : (⟨2, ![11264, 4096]⟩ : Shape).Idx → BitVec 32) (ds : (⟨2, ![88, 4096]⟩ : Shape).Idx → EReal) :
    (⟨2, ![8192, 4096]⟩ : Shape).Idx → EReal :=
  fun j => ∑ i : Fin 11264, H (ix2 (j 0) i) * wt (dq (ix2 i (j 1))) (ds (ix2 (⟨i.val / 128, by have := i.isLt; omega⟩ : Fin 88) (j 1)))

end Cert.Mlp

end
-- ==== Proof.HostGlue.lean ====
/-
  The host operations around the two kernels, read at one index.

  Before the kernels the hidden axis of every weight table is padded from 11008 to 11264 entries (scale tables from
  86 to 88 rows): a padded table reads the original table inside the original extent and the padding value outside.
  The activations are viewed as [8192, 4096]: row `r` is token `(r / 2048, r % 2048)`; the result is viewed back.
-/
import proofs.«107662_j71167608095143_1_alg».proof.KernelIdeal
import Idealize.ShloMosaic.Lib.ValueIdx
import Idealize.ShloMosaic.Lib.Pipeline.Value
import Idealize.ShloMosaic.Lib.KernelVsHost

noncomputable section

namespace Cert.KernelIdeal.HostGlue

open Idealize.ShloMosaic Idealize.ShloMosaic.ValueIdx Cert.KernelIdeal

variable {α : Type}

/-! ## Padding the last axis: [n, 11008] to [n, 11264] -/

/-- A [4096, 11008] table padded by 256 columns, at (k, i): the table for `i < 11008`, else the padding value. -/
theorem pad_cols4096_apply (x : S4096x11008.Idx → α) (v : S_.Idx → α)
    (h : S4096x11008.Pads (![0, 0] : Fin 2 → Nat) ![0, 256] ![0, 0] S4096x11264) (hu : 0 < S_.numel)
    (k : Fin 4096) (i : Fin 11264) :
    pad S4096x11264 ![0, 0] ![0, 256] ![0, 0] x v h hu (ix2 k i)
      = if hi : i.val < 11008 then x (ix2 k ⟨i.val, hi⟩) else v ix0 := by
  by_cases hi : i.val < 11008
  · rw [dif_pos hi]
    refine pad_apply_of_inside _ _ _ x v h hu (ix2 k i) (ix2 k ⟨i.val, hi⟩) fun a => ?_
    match a with
    | ⟨0, _⟩ => show k.val = 0 + k.val * (0 + 1); omega
    | ⟨1, _⟩ => show i.val = 0 + i.val * (0 + 1); omega
  · rw [dif_neg hi]
    refine (pad_apply_of_not_inside _ _ _ x v h hu (ix2 k i) ⟨1, by decide⟩ ?_).trans (congrArg v (eq_ix0 _))
    show ¬(0 ≤ i.val ∧ (i.val - 0) % (0 + 1) = 0 ∧ (i.val - 0) / (0 + 1) < 11008)
    omega

/-- A [32, 11008] table padded by 256 columns, at (k, i). -/
theorem pad_cols32_apply (x : S32x11008.Idx → α) (v : S_.Idx → α)
    (h : S32x11008.Pads (![0, 0] : Fin 2 → Nat) ![0, 256] ![0, 0] S32x11264) (hu : 0 < S_.numel)
    (k : Fin 32) (i : Fin 11264) :
    pad S32x11264 ![0, 0] ![0, 256] ![0, 0] x v h hu (ix2 k i)
      = if hi : i.val < 11008 then x (ix2 k ⟨i.val, hi⟩) else v ix0 := by
  by_cases hi : i.val < 11008
  · rw [dif_pos hi]
    refine pad_apply_of_inside _ _ _ x v h hu (ix2 k i) (ix2 k ⟨i.val, hi⟩) fun a => ?_
    match a with
    | ⟨0, _⟩ => show k.val = 0 + k.val * (0 + 1); omega
    | ⟨1, _⟩ => show i.val = 0 + i.val * (0 + 1); omega
  · rw [dif_neg hi]
    refine (pad_apply_of_not_inside _ _ _ x v h hu (ix2 k i) ⟨1, by decide⟩ ?_).trans (congrArg v (eq_ix0 _))
    show ¬(0 ≤ i.val ∧ (i.val - 0) % (0 + 1) = 0 ∧ (i.val - 0) / (0 + 1) < 11008)
    omega

/-! ## Padding the first axis: [11008, 4096] to [11264, 4096], [86, 4096] to [88, 4096] -/

/-- A [11008, 4096] table padded by 256 rows, at (i, c): the table for `i < 11008`, else the padding value. -/
theorem pad_rows11008_apply (x : S11008x4096.Idx → α) (v : S_.Idx → α)
    (h : S11008x4096.Pads (![0, 0] : Fin 2 → Nat) ![256, 0] ![0, 0] S11264x4096) (hu : 0 < S_.numel)
    (i : Fin 11264) (c : Fin 4096) :
    pad S11264x4096 ![0, 0] ![256, 0] ![0, 0] x v h hu (ix2 i c)
      = if hi : i.val < 11008 then x (ix2 ⟨i.val, hi⟩ c) else v ix0 := by
  by_cases hi : i.val < 11008
  · rw [dif_pos hi]
    refine pad_apply_of_inside _ _ _ x v h hu (ix2 i c) (ix2 ⟨i.val, hi⟩ c) fun a => ?_
    match a with
    | ⟨0, _⟩ => show i.val = 0 + i.val * (0 + 1); omega
    | ⟨1, _⟩ => show c.val = 0 + c.val * (0 + 1); omega
  · rw [dif_neg hi]
    refine (pad_apply_of_not_inside _ _ _ x v h hu (ix2 i c) ⟨0, by decide⟩ ?_).trans (congrArg v (eq_ix0 _))
    show ¬(0 ≤ i.val ∧ (i.val - 0) % (0 + 1) = 0 ∧ (i.val - 0) / (0 + 1) < 11008)
    omega

/-- An [86, 4096] table padded by 2 rows, at (i, c): the table for `i < 86`, else the padding value. -/
theorem pad_rows86_apply (x : S86x4096.Idx → α) (v : S_.Idx → α)
    (h : S86x4096.Pads (![0, 0] : Fin 2 → Nat) ![2, 0] ![0, 0] S88x4096) (hu : 0 < S_.numel)
    (i : Fin 88) (c : Fin 4096) :
    pad S88x4096 ![0, 0] ![2, 0] ![0, 0] x v h hu (ix2 i c)
      = if hi : i.val < 86 then x (ix2 ⟨i.val, hi⟩ c) else v ix0 := by
  by_cases hi : i.val < 86
  · rw [dif_pos hi]
    refine pad_apply_of_inside _ _ _ x v h hu (ix2 i c) (ix2 ⟨i.val, hi⟩ c) fun a => ?_
    match a with
    | ⟨0, _⟩ => show i.val = 0 + i.val * (0 + 1); omega
    | ⟨1, _⟩ => show c.val = 0 + c.val * (0 + 1); omega
  · rw [dif_neg hi]
    refine (pad_apply_of_not_inside _ _ _ x v h hu (ix2 i c) ⟨0, by decide⟩ ?_).trans (congrArg v (eq_ix0 _))
    show ¬(0 ≤ i.val ∧ (i.val - 0) % (0 + 1) = 0 ∧ (i.val - 0) / (0 + 1) < 86)
    omega

/-! ## The padding values -/

/-- The integer padding value: the code 8. -/
theorem constantI_eight_apply (j : S_.Idx) : constantI S_ 32 8#32 j = 8#32 := rfl

/-- The float padding value: zero. -/
theorem constant_zero_apply (j : S_.Idx) : constant (F := Ideal) S_ .f32 0x00000000#32 j = 0 :=
  Ideal.ofBits_zero_f32

/-! ## The two views of the activations -/

/-- The [8192, 4096] view of the [4, 2048, 4096] activations at (r, k): token `(r / 2048, r % 2048)`. -/
theorem reshape_in_apply (x : S4x2048x4096.Idx → α) (h : S4x2048x4096.ShapeCasts S8192x4096)
    (r : Fin 8192) (k : Fin 4096) :
    shapeCast S8192x4096 x h (ix2 r k)
      = x (ix3 (⟨r.val / 2048, by have := r.isLt; omega⟩ : Fin 4)
            (⟨r.val % 2048, Nat.mod_lt _ (by decide)⟩ : Fin 2048) k) := by
  have hr := r.isLt
  refine shapeCast_apply x h (ix2 r k) _ ?_
  rw [Shape.rowMajor_val_three, Shape.rowMajor_val_two]
  show ((r.val / 2048) * 2048 + r.val % 2048) * 4096 + k.val = r.val * 4096 + k.val
  omega

/-- The [4, 2048, 4096] view of an [8192, 4096] array at (b, t, k): row `b * 2048 + t`. -/
theorem reshape_out_apply (y : S8192x4096.Idx → α) (h : S8192x4096.ShapeCasts S4x2048x4096)
    (b : Fin 4) (t : Fin 2048) (k : Fin 4096) :
    shapeCast S4x2048x4096 y h (ix3 b t k)
      = y (ix2 (⟨b.val * 2048 + t.val, by have := b.isLt; have := t.isLt; omega⟩ : Fin 8192) k) := by
  refine shapeCast_apply y h (ix3 b t k) _ ?_
  rw [Shape.rowMajor_val_three, Shape.rowMajor_val_two]
  show (b.val * 2048 + t.val) * 4096 + k.val = (b.val * 2048 + t.val) * 4096 + k.val
  rfl

end Cert.KernelIdeal.HostGlue

end
-- ==== Proof.Glue.lean ====
/-
  From the padded pipeline to the specification: pure mathematics over the extended reals.

  The pipeline pads the hidden axis of every weight table from 11008 to 11264 entries, views the tokens as 8192
  rows, computes the gated hidden activations and the down projection as sums over the whole padded axes, and views
  the result back as [4, 2048, 4096].  Inside the original extent a padded table reads the original table, so hidden
  column `i < 11008` of the padded pipeline is the specification's hidden activation.  A padded hidden row
  `i ≥ 11008` of the down weights has scale row `i / 128 ≥ 86`, a padded row of the scale table, whose entries are
  the padding value 0: its weight is `(code - 8) * 0 = 0`, and `z * 0 = 0` for every extended real `z`, so the padded
  tail of the down projection's sum vanishes whatever the hidden activations there are.
-/
import proofs.«107662_j71167608095143_1_alg».proof.Proof.KSpec
import proofs.«107662_j71167608095143_1_alg».proof.Proof.HostGlue

noncomputable section

open scoped BigOperators

namespace Cert.KernelIdeal.Glue

open Idealize.ShloMosaic Idealize.ShloMosaic.ValueIdx Cert.KernelIdeal Cert.KernelIdeal.HostGlue Cert.Mlp

/-- A sum over `n` indices whose terms vanish from index `m` on is the sum over the first `m`. -/
theorem sum_fin_tail_zero {M : Type*} [AddCommMonoid M] {m n : Nat} (hmn : m ≤ n) (f : Fin n → M)
    (h0 : ∀ i : Fin n, m ≤ i.val → f i = 0) : ∑ i : Fin n, f i = ∑ i : Fin m, f (Fin.castLE hmn i) := by
  obtain ⟨d, rfl⟩ := Nat.exists_eq_add_of_le hmn
  rw [Fin.sum_univ_add, Finset.sum_eq_zero fun i _ => h0 (Fin.natAdd m i) (by simp), add_zero]
  rfl

/-- The row of token `(b, t)` in the [8192, 4096] view. -/
abbrev row (b : Fin 4) (t : Fin 2048) : Fin 8192 :=
  ⟨b.val * 2048 + t.val, by have := b.isLt; have := t.isLt; omega⟩

/-- An original hidden index inside the padded hidden axis. -/
abbrev col (i : Fin 11008) : Fin 11264 := Fin.castLE (by decide) i

/-- The [8192, 4096] view at the row of token `(b, t)` is the token. -/
theorem reshape_row (x : S4x2048x4096.Idx → EReal) (hc1 : S4x2048x4096.ShapeCasts S8192x4096)
    (b : Fin 4) (t : Fin 2048) (k : Fin 4096) :
    shapeCast S8192x4096 x hc1 (ix2 (row b t) k) = x (ix3 b t k) := by
  refine shapeCast_apply x hc1 (ix2 (row b t) k) (ix3 b t k) ?_
  rw [Shape.rowMajor_val_three, Shape.rowMajor_val_two]
  rfl

section
variable {α : Type}

/-- A column-padded [4096, ·] table reads the original table at an original column. -/
theorem pad_cols4096_in (q : S4096x11008.Idx → α) (v : S_.Idx → α)
    (hp : S4096x11008.Pads (![0, 0] : Fin 2 → Nat) ![0, 256] ![0, 0] S4096x11264) (hu : 0 < S_.numel)
    (k : Fin 4096) (i : Fin 11008) :
    pad S4096x11264 ![0, 0] ![0, 256] ![0, 0] q v hp hu (ix2 k (col i)) = q (ix2 k i) := by
  rw [pad_cols4096_apply, dif_pos (show (col i).val < 11008 from i.isLt)]
  rfl

/-- A column-padded [32, ·] table reads the original table at an original column. -/
theorem pad_cols32_in (s : S32x11008.Idx → α) (v : S_.Idx → α)
    (hp : S32x11008.Pads (![0, 0] : Fin 2 → Nat) ![0, 256] ![0, 0] S32x11264) (hu : 0 < S_.numel)
    (k : Fin 32) (i : Fin 11008) :
    pad S32x11264 ![0, 0] ![0, 256] ![0, 0] s v hp hu (ix2 k (col i)) = s (ix2 k i) := by
  rw [pad_cols32_apply, dif_pos (show (col i).val < 11008 from i.isLt)]
  rfl

/-- A row-padded [·, 4096] table reads the original table at an original row. -/
theorem pad_rows11008_in (q : S11008x4096.Idx → α) (v : S_.Idx → α)
    (hp : S11008x4096.Pads (![0, 0] : Fin 2 → Nat) ![256, 0] ![0, 0] S11264x4096) (hu : 0 < S_.numel)
    (i : Fin 11008) (c : Fin 4096) :
    pad S11264x4096 ![0, 0] ![256, 0] ![0, 0] q v hp hu (ix2 (col i) c) = q (ix2 i c) := by
  rw [pad_rows11008_apply, dif_pos (show (col i).val < 11008 from i.isLt)]
  rfl

end

/-- A projection of the padded pipeline at an original hidden column is the specification's. -/
theorem projP_pad (x : S4x2048x4096.Idx → EReal) (q : S4096x11008.Idx → BitVec 32) (s : S32x11008.Idx → EReal)
    (c8 : S_.Idx → BitVec 32) (z0 : S_.Idx → EReal)
    (hp1 : S4096x11008.Pads (![0, 0] : Fin 2 → Nat) ![0, 256] ![0, 0] S4096x11264)
    (hp2 : S32x11008.Pads (![0, 0] : Fin 2 → Nat) ![0, 256] ![0, 0] S32x11264) (hu : 0 < S_.numel)
    (hc1 : S4x2048x4096.ShapeCasts S8192x4096) (b : Fin 4) (t : Fin 2048) (i : Fin 11008) :
    projP (shapeCast S8192x4096 x hc1) (pad S4096x11264 ![0, 0] ![0, 256] ![0, 0] q c8 hp1 hu)
        (pad S32x11264 ![0, 0] ![0, 256] ![0, 0] s z0 hp2 hu) (row b t) (col i)
      = proj x q s b t i := by
  unfold projP proj wIn
  refine Finset.sum_congr rfl fun k _ => ?_
  rw [reshape_row, pad_cols4096_in, pad_cols32_in]

/-- The hidden activations of the padded pipeline at an original hidden column are the specification's. -/
theorem hidP_pad (x : S4x2048x4096.Idx → EReal) (gq uq : S4096x11008.Idx → BitVec 32)
    (gs us : S32x11008.Idx → EReal) (c8a c8b : S_.Idx → BitVec 32) (z0a z0b : S_.Idx → EReal)
    (hp1 : S4096x11008.Pads (![0, 0] : Fin 2 → Nat) ![0, 256] ![0, 0] S4096x11264)
    (hp2 : S32x11008.Pads (![0, 0] : Fin 2 → Nat) ![0, 256] ![0, 0] S32x11264) (hu : 0 < S_.numel)
    (hc1 : S4x2048x4096.ShapeCasts S8192x4096) (b : Fin 4) (t : Fin 2048) (i : Fin 11008) :
    hidP (shapeCast S8192x4096 x hc1) (pad S4096x11264 ![0, 0] ![0, 256] ![0, 0] gq c8a hp1 hu)
        (pad S32x11264 ![0, 0] ![0, 256] ![0, 0] gs z0a hp2 hu)
        (pad S4096x11264 ![0, 0] ![0, 256] ![0, 0] uq c8b hp1 hu)
        (pad S32x11264 ![0, 0] ![0, 256] ![0, 0] us z0b hp2 hu) (ix2 (row b t) (col i))
      = hid x gq gs uq us b t i := by
  unfold hidP hid
  show gated (projP _ _ _ (row b t) (col i)) (projP _ _ _ (row b t) (col i)) = _
  rw [projP_pad, projP_pad]

/-- The padded scale rows of the down weights hold the padding value. -/
theorem pad_rows86_tail (ds : S86x4096.Idx → EReal) (z0 : S_.Idx → EReal) (hz : ∀ j, z0 j = 0)
    (hp4 : S86x4096.Pads (![0, 0] : Fin 2 → Nat) ![2, 0] ![0, 0] S88x4096) (hu : 0 < S_.numel)
    (i : Fin 11264) (hi : 11008 ≤ i.val) (c : Fin 4096) :
    pad S88x4096 ![0, 0] ![2, 0] ![0, 0] ds z0 hp4 hu
      (ix2 (⟨i.val / 128, by have := i.isLt; omega⟩ : Fin 88) c) = 0 := by
  rw [pad_rows86_apply, dif_neg (show ¬ i.val / 128 < 86 by omega)]
  exact hz _

/-- The original scale rows of the down weights are read unchanged. -/
theorem pad_rows86_in (ds : S86x4096.Idx → EReal) (z0 : S_.Idx → EReal)
    (hp4 : S86x4096.Pads (![0, 0] : Fin 2 → Nat) ![2, 0] ![0, 0] S88x4096) (hu : 0 < S_.numel)
    (i : Fin 11008) (c : Fin 4096) :
    pad S88x4096 ![0, 0] ![2, 0] ![0, 0] ds z0 hp4 hu
      (ix2 (⟨(col i).val / 128, by have := (col i).isLt; omega⟩ : Fin 88) c)
      = ds (ix2 (⟨i.val / 128, by have := i.isLt; omega⟩ : Fin 86) c) := by
  rw [pad_rows86_apply, dif_pos (show (col i).val / 128 < 86 by have := i.isLt; show i.val / 128 < 86; omega)]
  rfl

/-- THE BRIDGE: the padded pipeline's result, viewed as [4, 2048, 4096], is the specification. -/
theorem glue (x : S4x2048x4096.Idx → EReal) (gq uq : S4096x11008.Idx → BitVec 32) (gs us : S32x11008.Idx → EReal)
    (dq : S11008x4096.Idx → BitVec 32) (ds : S86x4096.Idx → EReal)
    (c8a c8b c8c : S_.Idx → BitVec 32) (z0a z0b z0c : S_.Idx → EReal) (hzc : ∀ j, z0c j = 0)
    (hp1 : S4096x11008.Pads (![0, 0] : Fin 2 → Nat) ![0, 256] ![0, 0] S4096x11264)
    (hp2 : S32x11008.Pads (![0, 0] : Fin 2 → Nat) ![0, 256] ![0, 0] S32x11264)
    (hp3 : S11008x4096.Pads (![0, 0] : Fin 2 → Nat) ![256, 0] ![0, 0] S11264x4096)
    (hp4 : S86x4096.Pads (![0, 0] : Fin 2 → Nat) ![2, 0] ![0, 0] S88x4096) (hu : 0 < S_.numel)
    (hc1 : S4x2048x4096.ShapeCasts S8192x4096) (hc2 : S8192x4096.ShapeCasts S4x2048x4096) :
    shapeCast S4x2048x4096
        (outP
          (hidP (shapeCast S8192x4096 x hc1) (pad S4096x11264 ![0, 0] ![0, 256] ![0, 0] gq c8a hp1 hu)
            (pad S32x11264 ![0, 0] ![0, 256] ![0, 0] gs z0a hp2 hu)
            (pad S4096x11264 ![0, 0] ![0, 256] ![0, 0] uq c8b hp1 hu)
            (pad S32x11264 ![0, 0] ![0, 256] ![0, 0] us z0b hp2 hu))
          (pad S11264x4096 ![0, 0] ![256, 0] ![0, 0] dq c8c hp3 hu)
          (pad S88x4096 ![0, 0] ![2, 0] ![0, 0] ds z0c hp4 hu))
        hc2
      = out x gq gs uq us dq ds := by
  funext j
  obtain ⟨b, t, h, rfl⟩ : ∃ b t h, j = ix3 b t h := ⟨j 0, j 1, j 2, eq_ix3 j⟩
  rw [reshape_out_apply]
  unfold outP out
  show (∑ i : Fin 11264, hidP _ _ _ _ _ (ix2 (row b t) i)
      * wt (pad S11264x4096 ![0, 0] ![256, 0] ![0, 0] dq c8c hp3 hu (ix2 i h))
          (pad S88x4096 ![0, 0] ![2, 0] ![0, 0] ds z0c hp4 hu
            (ix2 (⟨i.val / 128, by have := i.isLt; omega⟩ : Fin 88) h)))
    = ∑ i : Fin 11008, hid x gq gs uq us b t i * wOut dq ds i h
  rw [sum_fin_tail_zero (m := 11008) (by decide)]
  · refine Finset.sum_congr rfl fun i _ => ?_
    show hidP _ _ _ _ _ (ix2 (row b t) (col i))
        * wt (pad S11264x4096 ![0, 0] ![256, 0] ![0, 0] dq c8c hp3 hu (ix2 (col i) h))
            (pad S88x4096 ![0, 0] ![2, 0] ![0, 0] ds z0c hp4 hu
              (ix2 (⟨(col i).val / 128, by have := (col i).isLt; omega⟩ : Fin 88) h))
      = hid x gq gs uq us b t i * wOut dq ds i h
    rw [hidP_pad, pad_rows11008_in, pad_rows86_in]
    rfl
  · intro i hi
    show hidP _ _ _ _ _ (ix2 (row b t) i)
        * wt (pad S11264x4096 ![0, 0] ![256, 0] ![0, 0] dq c8c hp3 hu (ix2 i h))
            (pad S88x4096 ![0, 0] ![2, 0] ![0, 0] ds z0c hp4 hu
              (ix2 (⟨i.val / 128, by have := i.isLt; omega⟩ : Fin 88) h)) = 0
    rw [pad_rows86_tail ds z0c hzc hp4 hu i hi h]
    unfold wt
    rw [mul_zero, mul_zero]

end Cert.KernelIdeal.Glue

end
-- ==== Proof.KValue.lean ====
/-
  The kernel program's result read off its run, at the extended reals: the final reshape of what the second pallas_call
  leaves, which is the down projection of what the first leaves, which is the gated hidden activations of the padded
  weights and the flattened tokens — the specification, by the padding lemma.
-/
import proofs.«107662_j71167608095143_1_alg».proof.Proof.KRun
import proofs.«107662_j71167608095143_1_alg».proof.Proof.Glue
import Idealize.ShloMosaic.Lib.StableHlo.Run

noncomputable section

namespace Cert.KernelIdeal.Val

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ)

/-! ## What the host stretches before the first pallas_call leave -/

theorem v6_eq (c : Dev nD) : (V13 m c main_v6 : S8192x4096.Idx → EReal) = shapeCast S8192x4096 (m ((c : Thread nD τ).loc main_arg0)) shapeCasts_S4x2048x4096_S8192x4096 := by
  show StableHlo.after hostOps0_12 (V12 m c) (Proc.devRef .tc main_v6) = _
  after_results; rfl
theorem v0_eq (c : Dev nD) : (V13 m c main_v0 : S4096x11264.Idx → BitVec 32) = pad S4096x11264 ![0, 0] ![0, 256] ![0, 0] (m ((c : Thread nD τ).loc main_arg1)) (constantI S_ 32 8#32) pads_S4096x11008_S4096x11264_000_02560 h_S_ := by
  show StableHlo.after hostOps0_12 (V12 m c) (Proc.devRef .tc main_v0) = _
  after_results; rfl
theorem v1_eq (c : Dev nD) : (V13 m c main_v1 : S4096x11264.Idx → BitVec 32) = pad S4096x11264 ![0, 0] ![0, 256] ![0, 0] (m ((c : Thread nD τ).loc main_arg3)) (constantI S_ 32 8#32) pads_S4096x11008_S4096x11264_000_02560 h_S_ := by
  show StableHlo.after hostOps0_12 (V12 m c) (Proc.devRef .tc main_v1) = _
  after_results; rfl
theorem v2_eq (c : Dev nD) : (V13 m c main_v2 : S32x11264.Idx → EReal) = pad S32x11264 ![0, 0] ![0, 256] ![0, 0] (m ((c : Thread nD τ).loc main_arg2)) (constant (F := Ideal) S_ .f32 0x00000000#32) pads_S32x11008_S32x11264_000_02560 h_S_ := by
  show StableHlo.after hostOps0_12 (V12 m c) (Proc.devRef .tc main_v2) = _
  after_results; rfl
theorem v3_eq (c : Dev nD) : (V13 m c main_v3 : S32x11264.Idx → EReal) = pad S32x11264 ![0, 0] ![0, 256] ![0, 0] (m ((c : Thread nD τ).loc main_arg4)) (constant (F := Ideal) S_ .f32 0x00000000#32) pads_S32x11008_S32x11264_000_02560 h_S_ := by
  show StableHlo.after hostOps0_12 (V12 m c) (Proc.devRef .tc main_v3) = _
  after_results; rfl
theorem v4_eq (c : Dev nD) : (V13 m c main_v4 : S11264x4096.Idx → BitVec 32) = pad S11264x4096 ![0, 0] ![256, 0] ![0, 0] (m ((c : Thread nD τ).loc main_arg5)) (constantI S_ 32 8#32) pads_S11008x4096_S11264x4096_02560_000 h_S_ := by
  show StableHlo.after hostOps0_12 (V12 m c) (Proc.devRef .tc main_v4) = _
  after_results; rfl
theorem v5_eq (c : Dev nD) : (V13 m c main_v5 : S88x4096.Idx → EReal) = pad S88x4096 ![0, 0] ![2, 0] ![0, 0] (m ((c : Thread nD τ).loc main_arg6)) (constant (F := Ideal) S_ .f32 0x00000000#32) pads_S86x4096_S88x4096_020_000 h_S_ := by
  show StableHlo.after hostOps0_12 (V12 m c) (Proc.devRef .tc main_v5) = _
  after_results; rfl

/-- The result buffer holds the reshape of what the second pallas_call leaves. -/
theorem v9_eq (c : Dev nD) : (V16 m (outsK m) c main_v9 : S4x2048x4096.Idx → EReal) = shapeCast S4x2048x4096 (o8 m c) shapeCasts_S8192x4096_S4x2048x4096 := by
  show StableHlo.after hostOps2 (V15 m (outsK m) c) (Proc.devRef .tc main_v9) = _
  rw [V15K, ← U15_v8 m c]
  after_results; rfl

/-- THE KERNEL'S VALUE, given the two pallas_calls' results as whole arrays. -/
theorem v9_spec
    (H0 : ∀ (V : (c : Dev nD) → (b : Ref sig .tc) → Buf (Elt Ideal) ((c : Thread nD τ).loc b)) (c : Dev nD),
      (dat0 (F := Ideal) V c).arrAt 5 cfg0.N = Cert.Mlp.hidP (V c main_v6) (V c main_v0) (V c main_v2) (V c main_v1) (V c main_v3))
    (H1 : ∀ (V : (c : Dev nD) → (b : Ref sig .tc) → Buf (Elt Ideal) ((c : Thread nD τ).loc b)) (c : Dev nD),
      (dat1 (F := Ideal) V c).arrAt 3 cfg1.N = Cert.Mlp.outP (V c main_v7) (V c main_v4) (V c main_v5))
    (c : Dev nD) :
    V16 m (outsK m) c main_v9 = Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e8 : o8 m c = Cert.Mlp.outP (U14 m c main_v7) (U14 m c main_v4) (U14 m c main_v5) := H1 (Ur14 m) c
  have e7 : o7 m c = Cert.Mlp.hidP (V13 m c main_v6) (V13 m c main_v0) (V13 m c main_v2) (V13 m c main_v1) (V13 m c main_v3) := H0 (Vr13 m) c
  refine (v9_eq m c).trans ?_
  rw [e8, U14_v7 m c, e7, U14_ne m c main_v4 (by decide), U14_ne m c main_v5 (by decide), v6_eq, v0_eq, v1_eq, v2_eq, v3_eq, v4_eq, v5_eq]
  exact Cert.KernelIdeal.Glue.glue _ _ _ _ _ _ _ _ _ _ _ _ _ (fun j => Cert.KernelIdeal.HostGlue.constant_zero_apply j) _ _ _ _ _ _ _

end Cert.KernelIdeal.Val

end
-- ==== Proof.R0VPieces.lean ====
/-
  What each control case of the first kernel body leaves in its two accumulators and in the output block, as
  plain functions of the blocks it loads.  Every store of the body covers its whole buffer, so the buffer afterwards
  holds the last stored payload.  At a point whose contraction block is 0 the accumulators are first set to the
  zero block and the step is taken from there; at the other points the step is taken from what the point before
  left; at a point whose contraction block is 3 the output block is the gating of the two new accumulators.
-/
import proofs.«107662_j71167608095143_1_alg».proof.Proof.R0Frame
import Idealize.ShloMosaic.Lib.Pipeline.Value

set_option maxRecDepth 16384

noncomputable section

namespace Cert.KernelIdeal.R0V

open Idealize.ShloMosaic Idealize.ShloMosaic.TcCoe Idealize.ShloMosaic.Tactic
open Idealize.SL.Sem
open Cert.KernelIdeal Cert.KernelIdeal.Gen Cert.KernelIdeal.Fr

variable {F : FTy → Type} [FloatOps F]

/-- The stores and loads of the body start at the origin of their buffers. -/
theorem hz : (![0, 0] : Fin 2 → Nat) = fun _ => 0 := funext fun a => by fin_cases a <;> rfl

/-- Contraction block 0, gate accumulator: one step from the zero block. -/
theorem gateA_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) :
    sout0_A_0 c i arg3 harg3 arg4 harg4 arg5 harg5 arg6 harg6 arg7 harg7 arg8 harg8 arg9 harg9 arg10 harg10 hc0 hc1 x0 x1 x2 x3 x4 = k0_pay1 (k0_pay8 x0 x1 x2 k0_pay4) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction block 0, up accumulator: one step from the zero block. -/
theorem upA_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec F S1024x1024 .f32) (x1 : Vec F S1024x256 .i32) (x2 : Vec F S8x256 .f32) (x3 : Vec F S1024x256 .i32) (x4 : Vec F S8x256 .f32) :
    sout0_A_1 c i arg3 harg3 arg4 harg4 arg5 harg5 arg6 harg6 arg7 harg7 arg8 harg8 arg9 harg9 arg10 harg10 hc0 hc1 x0 x1 x2 x3 x4 = k0_pay2 (k0_pay6 x0) (k0_pay7 x3 x4) k0_pay5 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction blocks 1 and 2, gate accumulator: one step from the carried contents. -/
theorem gateB_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    sout0_B_0 c i arg3 harg3 arg4 harg4 arg5 harg5 arg6 harg6 arg7 harg7 arg8 harg8 arg9 harg9 arg10 harg10 hc0 hc1 x0 x1 x2 x3 x4 xs0 xs1 = k0_pay1 (k0_pay8 x0 x1 x2 xs0) := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction blocks 1 and 2, up accumulator: one step from the carried contents. -/
theorem upB_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    sout0_B_1 c i arg3 harg3 arg4 harg4 arg5 harg5 arg6 harg6 arg7 harg7 arg8 harg8 arg9 harg9 arg10 harg10 hc0 hc1 x0 x1 x2 x3 x4 xs0 xs1 = k0_pay2 (k0_pay6 x0) (k0_pay7 x3 x4) xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction block 3, gate accumulator: one step from the carried contents. -/
theorem gateC_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    sout0_C_0 c i arg3 harg3 arg4 harg4 arg5 harg5 arg6 harg6 arg7 harg7 arg8 harg8 arg9 harg9 arg10 harg10 hc0 hc1 x0 x1 x2 x3 x4 xs0 xs1 = k0_pay1 (k0_pay8 x0 x1 x2 xs0) := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  dsimp only
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction block 3, up accumulator: one step from the carried contents. -/
theorem upC_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    sout0_C_1 c i arg3 harg3 arg4 harg4 arg5 harg5 arg6 harg6 arg7 harg7 arg8 harg8 arg9 harg9 arg10 harg10 hc0 hc1 x0 x1 x2 x3 x4 xs0 xs1 = k0_pay2 (k0_pay6 x0) (k0_pay7 x3 x4) xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  dsimp only
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

/-- Contraction block 3, output block: the gating of the two accumulators just stored. -/
theorem outC_eq (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec F S1024x1024 .f32) (x1 : Vec F S1024x256 .i32) (x2 : Vec F S8x256 .f32) (x3 : Vec F S1024x256 .i32) (x4 : Vec F S8x256 .f32) (xs0 : Vec F S1024x256 .f32) (xs1 : Vec F S1024x256 .f32) :
    out0_C_5 c i arg3 harg3 arg4 harg4 arg5 harg5 arg6 harg6 arg7 harg7 arg8 harg8 arg9 harg9 arg10 harg10 hc0 hc1 x0 x1 x2 x3 x4 xs0 xs1
      = k0_pay3 (k0_pay1 (k0_pay8 x0 x1 x2 xs0)) (k0_pay2 (k0_pay6 x0) (k0_pay7 x3 x4) xs1) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  dsimp only
  rw [View.canon_unit_zero hz]
  simp only [View.readCov_unit_zero (S := S1024x256) _ hz]
  simp only [View.readAt_eq_ld, harg3.read_unread, harg4.read_unread, harg5.read_unread, harg6.read_unread, harg7.read_unread, harg9.read_unread, harg10.read_unread, View.ld_unit_zero (S := S1024x1024) hz, View.ld_unit_zero (S := S1024x256) hz, View.ld_unit_zero (S := S8x256) hz]

end Cert.KernelIdeal.R0V

end
-- ==== Proof.R0VBlocks.lean ====
/-
  Where the first pallas_call's windows sit.  The grid point `t` stands for row block `t / 176`, column block
  `t / 4 % 44` and contraction block `t % 4`: the activations' window is block (row, contraction) of 1024 x 1024, the
  code windows are block (contraction, column) of 1024 x 256, the scale windows block (contraction, column) of
  8 x 256, and the output window block (row, column) of 1024 x 256.  An entry of a block is the entry of the array
  at block index times block size plus the entry's own coordinate.
-/
import proofs.«107662_j71167608095143_1_alg».proof.Proof.R0Frame
import Idealize.ShloMosaic.Lib.Pipeline.Value
import Idealize.ShloMosaic.Lib.ValueIdx

set_option maxRecDepth 16384

noncomputable section

namespace Cert.KernelIdeal.R0V

open Idealize.ShloMosaic Idealize.ShloMosaic.TcCoe Idealize.ShloMosaic.ValueIdx
open Idealize.SL.Sem
open Cert.KernelIdeal Cert.KernelIdeal.Gen Cert.KernelIdeal.Fr

variable {F : FTy → Type} [FloatOps F]

/-! ## The index maps over the grid -/

theorem idx0_0 : ∀ t : Fin cfg0.N, win0_0.index t (0 : Fin 2) = t.val / 176 ∧ win0_0.index t (1 : Fin 2) = t.val % 4 :=
  (by decide +kernel : ∀ t : Fin grid0.N, win0_0.index t (0 : Fin 2) = t.val / 176 ∧ win0_0.index t (1 : Fin 2) = t.val % 4)
theorem idx0_1 : ∀ t : Fin cfg0.N, win0_1.index t (0 : Fin 2) = t.val % 4 ∧ win0_1.index t (1 : Fin 2) = t.val / 4 % 44 :=
  (by decide +kernel : ∀ t : Fin grid0.N, win0_1.index t (0 : Fin 2) = t.val % 4 ∧ win0_1.index t (1 : Fin 2) = t.val / 4 % 44)
theorem idx0_2 : ∀ t : Fin cfg0.N, win0_2.index t (0 : Fin 2) = t.val % 4 ∧ win0_2.index t (1 : Fin 2) = t.val / 4 % 44 :=
  (by decide +kernel : ∀ t : Fin grid0.N, win0_2.index t (0 : Fin 2) = t.val % 4 ∧ win0_2.index t (1 : Fin 2) = t.val / 4 % 44)
theorem idx0_3 : ∀ t : Fin cfg0.N, win0_3.index t (0 : Fin 2) = t.val % 4 ∧ win0_3.index t (1 : Fin 2) = t.val / 4 % 44 :=
  (by decide +kernel : ∀ t : Fin grid0.N, win0_3.index t (0 : Fin 2) = t.val % 4 ∧ win0_3.index t (1 : Fin 2) = t.val / 4 % 44)
theorem idx0_4 : ∀ t : Fin cfg0.N, win0_4.index t (0 : Fin 2) = t.val % 4 ∧ win0_4.index t (1 : Fin 2) = t.val / 4 % 44 :=
  (by decide +kernel : ∀ t : Fin grid0.N, win0_4.index t (0 : Fin 2) = t.val % 4 ∧ win0_4.index t (1 : Fin 2) = t.val / 4 % 44)
theorem idx0_5 : ∀ t : Fin cfg0.N, win0_5.index t (0 : Fin 2) = t.val / 176 ∧ win0_5.index t (1 : Fin 2) = t.val / 4 % 44 :=
  (by decide +kernel : ∀ t : Fin grid0.N, win0_5.index t (0 : Fin 2) = t.val / 176 ∧ win0_5.index t (1 : Fin 2) = t.val / 4 % 44)

/-! ## The blocks read at an entry -/

variable (V : (c : Dev nD) → (b : Ref sig .tc) → Buf (Elt F) ((c : Thread nD τ).loc b))

/-- Window 0's block at point `t`, read at an entry: where that entry sits in the window's array. -/
theorem blk0_apply (c : Dev nD) (t : Fin cfg0.N) (p : Fin 1024) (k : Fin 1024) :
    (iblk0 V c 0 t : Vec F S1024x1024 .f32) (ix2 p k)
      = V c main_v6 (ix2 (⟨1024 * (t.val / 176) + p.val, by have h := t.isLt; have hN : cfg0.N = 1408 := N_0; have := p.isLt; omega⟩ : Fin 8192)
          (⟨1024 * (t.val % 4) + k.val, by have h := t.isLt; have hN : cfg0.N = 1408 := N_0; have := k.isLt; omega⟩ : Fin 4096)) := by
  obtain ⟨e0, e1⟩ := idx0_0 t
  unfold iblk0
  rw [View.read_apply]
  show V c main_v6 _ = V c main_v6 _
  refine congrArg (V c main_v6) (funext fun a => Fin.ext ?_)
  match a with
  | ⟨0, _⟩ => show win0_0.index t (0 : Fin 2) * 1024 + 1 * p.val = 1024 * (t.val / 176) + p.val; rw [e0]; omega
  | ⟨1, _⟩ => show win0_0.index t (1 : Fin 2) * 1024 + 1 * k.val = 1024 * (t.val % 4) + k.val; rw [e1]; omega

/-- Window 1's block at point `t`, read at an entry: where that entry sits in the window's array. -/
theorem blk1_apply (c : Dev nD) (t : Fin cfg0.N) (k : Fin 1024) (q : Fin 256) :
    (iblk0 V c 1 t : Vec F S1024x256 .i32) (ix2 k q)
      = V c main_v0 (ix2 (⟨1024 * (t.val % 4) + k.val, by have h := t.isLt; have hN : cfg0.N = 1408 := N_0; have := k.isLt; omega⟩ : Fin 4096)
          (⟨256 * (t.val / 4 % 44) + q.val, by have h := t.isLt; have hN : cfg0.N = 1408 := N_0; have := q.isLt; omega⟩ : Fin 11264)) := by
  obtain ⟨e0, e1⟩ := idx0_1 t
  unfold iblk0
  rw [View.read_apply]
  show V c main_v0 _ = V c main_v0 _
  refine congrArg (V c main_v0) (funext fun a => Fin.ext ?_)
  match a with
  | ⟨0, _⟩ => show win0_1.index t (0 : Fin 2) * 1024 + 1 * k.val = 1024 * (t.val % 4) + k.val; rw [e0]; omega
  | ⟨1, _⟩ => show win0_1.index t (1 : Fin 2) * 256 + 1 * q.val = 256 * (t.val / 4 % 44) + q.val; rw [e1]; omega

/-- Window 2's block at point `t`, read at an entry: where that entry sits in the window's array. -/
theorem blk2_apply (c : Dev nD) (t : Fin cfg0.N) (g : Fin 8) (q : Fin 256) :
    (iblk0 V c 2 t : Vec F S8x256 .f32) (ix2 g q)
      = V c main_v2 (ix2 (⟨8 * (t.val % 4) + g.val, by have h := t.isLt; have hN : cfg0.N = 1408 := N_0; have := g.isLt; omega⟩ : Fin 32)
          (⟨256 * (t.val / 4 % 44) + q.val, by have h := t.isLt; have hN : cfg0.N = 1408 := N_0; have := q.isLt; omega⟩ : Fin 11264)) := by
  obtain ⟨e0, e1⟩ := idx0_2 t
  unfold iblk0
  rw [View.read_apply]
  show V c main_v2 _ = V c main_v2 _
  refine congrArg (V c main_v2) (funext fun a => Fin.ext ?_)
  match a with
  | ⟨0, _⟩ => show win0_2.index t (0 : Fin 2) * 8 + 1 * g.val = 8 * (t.val % 4) + g.val; rw [e0]; omega
  | ⟨1, _⟩ => show win0_2.index t (1 : Fin 2) * 256 + 1 * q.val = 256 * (t.val / 4 % 44) + q.val; rw [e1]; omega

/-- Window 3's block at point `t`, read at an entry: where that entry sits in the window's array. -/
theorem blk3_apply (c : Dev nD) (t : Fin cfg0.N) (k : Fin 1024) (q : Fin 256) :
    (iblk0 V c 3 t : Vec F S1024x256 .i32) (ix2 k q)
      = V c main_v1 (ix2 (⟨1024 * (t.val % 4) + k.val, by have h := t.isLt; have hN : cfg0.N = 1408 := N_0; have := k.isLt; omega⟩ : Fin 4096)
          (⟨256 * (t.val / 4 % 44) + q.val, by have h := t.isLt; have hN : cfg0.N = 1408 := N_0; have := q.isLt; omega⟩ : Fin 11264)) := by
  obtain ⟨e0, e1⟩ := idx0_3 t
  unfold iblk0
  rw [View.read_apply]
  show V c main_v1 _ = V c main_v1 _
  refine congrArg (V c main_v1) (funext fun a => Fin.ext ?_)
  match a with
  | ⟨0, _⟩ => show win0_3.index t (0 : Fin 2) * 1024 + 1 * k.val = 1024 * (t.val % 4) + k.val; rw [e0]; omega
  | ⟨1, _⟩ => show win0_3.index t (1 : Fin 2) * 256 + 1 * q.val = 256 * (t.val / 4 % 44) + q.val; rw [e1]; omega

/-- Window 4's block at point `t`, read at an entry: where that entry sits in the window's array. -/
theorem blk4_apply (c : Dev nD) (t : Fin cfg0.N) (g : Fin 8) (q : Fin 256) :
    (iblk0 V c 4 t : Vec F S8x256 .f32) (ix2 g q)
      = V c main_v3 (ix2 (⟨8 * (t.val % 4) + g.val, by have h := t.isLt; have hN : cfg0.N = 1408 := N_0; have := g.isLt; omega⟩ : Fin 32)
          (⟨256 * (t.val / 4 % 44) + q.val, by have h := t.isLt; have hN : cfg0.N = 1408 := N_0; have := q.isLt; omega⟩ : Fin 11264)) := by
  obtain ⟨e0, e1⟩ := idx0_4 t
  unfold iblk0
  rw [View.read_apply]
  show V c main_v3 _ = V c main_v3 _
  refine congrArg (V c main_v3) (funext fun a => Fin.ext ?_)
  match a with
  | ⟨0, _⟩ => show win0_4.index t (0 : Fin 2) * 8 + 1 * g.val = 8 * (t.val % 4) + g.val; rw [e0]; omega
  | ⟨1, _⟩ => show win0_4.index t (1 : Fin 2) * 256 + 1 * q.val = 256 * (t.val / 4 % 44) + q.val; rw [e1]; omega

end Cert.KernelIdeal.R0V

end
-- ==== Proof.LibPeriodicTotal.lean ====
/-
  A running total that is reset at the start of every period.

  Steps are counted 0, 1, 2, …; a period has `p + 1` steps. At a step whose number is a multiple of `p + 1` the total is
  set to `0 + g n`; at every other step `g n` is added to what the step before left. Then at the LAST step of period
  `q` — step `(p + 1) * q + p` — the total is the sum of that period's `p + 1` terms, `∑ b, g ((p + 1) * q + b)`
  (`total_period_end`). This is what an accumulator zeroed under "first step of the sweep" and read out under "last step
  of the sweep" holds, one sweep after another on one grid. Everything is stated in a commutative additive monoid: only
  associativity and `0 + x = x` are used, so it holds on the extended reals with no finiteness assumed.
-/
import Mathlib.Algebra.BigOperators.Fin
import Mathlib.Algebra.BigOperators.Intervals

namespace Cert.LibPeriodicTotal

open Finset

variable {M : Type*} [AddCommMonoid M]

/-- The running total after step `n`: reset to `0 + g n` when `n` is a multiple of the period `p + 1`, otherwise the
    step before plus `g n`. -/
def total (p : ℕ) (g : ℕ → M) : ℕ → M
  | 0 => 0 + g 0
  | n + 1 => if (n + 1) % (p + 1) = 0 then 0 + g (n + 1) else total p g n + g (n + 1)

/-- At the first step of a period the total is `0 + g n`. -/
theorem total_reset (p : ℕ) (g : ℕ → M) (n : ℕ) (h : n % (p + 1) = 0) : total p g n = 0 + g n := by
  cases n with
  | zero => rfl
  | succ n => exact if_pos h

/-- At any other step the term is added to the step before. -/
theorem total_step (p : ℕ) (g : ℕ → M) (n : ℕ) (h : ¬(n + 1) % (p + 1) = 0) :
    total p g (n + 1) = total p g n + g (n + 1) := if_neg h

/-- Inside period `q`, after its step number `n ≤ p`, the total is the sum of the period's first `n + 1` terms. -/
theorem total_within (p : ℕ) (g : ℕ → M) (q : ℕ) :
    ∀ n, n ≤ p → total p g ((p + 1) * q + n) = ∑ i ∈ range (n + 1), g ((p + 1) * q + i)
  | 0, _ => by
    rw [total_reset p g _ (by rw [Nat.add_zero, Nat.mul_mod_right]), zero_add, sum_range_one]
  | n + 1, hn => by
    have hne : ¬((p + 1) * q + n + 1) % (p + 1) = 0 := by
      rw [Nat.add_assoc, Nat.mul_add_mod, Nat.mod_eq_of_lt (by omega)]; omega
    rw [show (p + 1) * q + (n + 1) = (p + 1) * q + n + 1 from rfl, total_step p g _ hne,
      total_within p g q n (by omega), sum_range_succ _ (n + 1)]
    rfl

/-- At the last step of period `q` the total is the sum of the period's `p + 1` terms. -/
theorem total_period_end (p : ℕ) (g : ℕ → M) (q : ℕ) :
    total p g ((p + 1) * q + p) = ∑ b : Fin (p + 1), g ((p + 1) * q + b.val) := by
  rw [total_within p g q p (Nat.le_refl p), Finset.sum_range]

end Cert.LibPeriodicTotal
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.R0VMath.lean ====
/-
  The arithmetic behind the first pallas_call's accumulation.  The contracted axis of 4096 features is cut into four
  blocks of 1024; one step adds, to an entry of an accumulator, the products of one block.  An accumulator that is
  reset at the first block and added to at the other three holds, after the fourth, the four blocks' sums, and these
  together are the sum over all 4096 features.  Only associativity and commutativity of the sum on the extended
  reals are used.
-/
import proofs.«107662_j71167608095143_1_alg».proof.Proof.KSpec
import proofs.«107662_j71167608095143_1_alg».proof.Proof.LibPeriodicTotal
import proofs.«107662_j71167608095143_1_alg».proof.Proof.LibBlockedSum

noncomputable section

open scoped BigOperators

namespace Cert.Mlp

open Idealize.ShloMosaic Idealize.ShloMosaic.ValueIdx

/-- What one [1024, 1024] activation block and one [1024, 256] weight block (codes `q`, one scale row per 128 weight
    rows) add to entry `(p, c)` of an accumulator. -/
def stepB (x : (⟨2, ![1024, 1024]⟩ : Shape).Idx → EReal) (q : (⟨2, ![1024, 256]⟩ : Shape).Idx → BitVec 32)
    (s : (⟨2, ![8, 256]⟩ : Shape).Idx → EReal) (p : Fin 1024) (c : Fin 256) : EReal :=
  ∑ k : Fin 1024, x (ix2 p k) * wt (q (ix2 k c)) (s (ix2 (⟨k.val / 128, by have := k.isLt; omega⟩ : Fin 8) c))

/-- Four blocks that are the four consecutive pieces of row `r` of the activations and of column `col` of the
    weights add up to the projection over the whole contracted axis. -/
theorem blocks_total (X : (⟨2, ![8192, 4096]⟩ : Shape).Idx → EReal)
    (Q : (⟨2, ![4096, 11264]⟩ : Shape).Idx → BitVec 32) (S : (⟨2, ![32, 11264]⟩ : Shape).Idx → EReal)
    (r : Fin 8192) (col : Fin 11264) (p : Fin 1024) (c : Fin 256)
    (xb : Fin 4 → (⟨2, ![1024, 1024]⟩ : Shape).Idx → EReal)
    (qb : Fin 4 → (⟨2, ![1024, 256]⟩ : Shape).Idx → BitVec 32)
    (sb : Fin 4 → (⟨2, ![8, 256]⟩ : Shape).Idx → EReal)
    (hx : ∀ (b : Fin 4) (k : Fin 1024),
      xb b (ix2 p k) = X (ix2 r (⟨1024 * b.val + k.val, by have := b.isLt; have := k.isLt; omega⟩ : Fin 4096)))
    (hq : ∀ (b : Fin 4) (k : Fin 1024),
      qb b (ix2 k c) = Q (ix2 (⟨1024 * b.val + k.val, by have := b.isLt; have := k.isLt; omega⟩ : Fin 4096) col))
    (hs : ∀ (b : Fin 4) (g : Fin 8),
      sb b (ix2 g c) = S (ix2 (⟨8 * b.val + g.val, by have := b.isLt; have := g.isLt; omega⟩ : Fin 32) col)) :
    ∑ b : Fin 4, stepB (xb b) (qb b) (sb b) p c = projP X Q S r col := by
  unfold projP
  refine Eq.trans ?_ (Cert.LibBlockedSum.sum_blocks (M := EReal) 4 1024
    (fun k : Fin (4 * 1024) =>
      X (ix2 r (⟨k.val, k.isLt⟩ : Fin 4096))
        * wt (Q (ix2 (⟨k.val, k.isLt⟩ : Fin 4096) col))
            (S (ix2 (⟨k.val / 128, by have := k.isLt; omega⟩ : Fin 32) col)))).symm
  refine Finset.sum_congr rfl fun b _ => ?_
  unfold stepB
  refine Finset.sum_congr rfl fun k _ => ?_
  have hb := b.isLt
  have hk := k.isLt
  have hv : (Cert.LibBlockedSum.slot 4 1024 b k).val = k.val + 1024 * b.val := Cert.LibBlockedSum.slot_val 4 1024 b k
  rw [hx, hq, hs]
  have e1 : (⟨1024 * b.val + k.val, by omega⟩ : Fin 4096)
      = ⟨(Cert.LibBlockedSum.slot 4 1024 b k).val, (Cert.LibBlockedSum.slot 4 1024 b k).isLt⟩ :=
    Fin.ext (by show 1024 * b.val + k.val = (Cert.LibBlockedSum.slot 4 1024 b k).val; omega)
  have e2 : (⟨8 * b.val + k.val / 128, by omega⟩ : Fin 32)
      = ⟨(Cert.LibBlockedSum.slot 4 1024 b k).val / 128, by omega⟩ :=
    Fin.ext (by show 8 * b.val + k.val / 128 = (Cert.LibBlockedSum.slot 4 1024 b k).val / 128; omega)
  rw [e1, e2]

/-- An accumulator entry that is set to `0 + g n` at the points `n` divisible by 4 and grows by `g n` at the others
    holds, at the last point `4 m + 3` of a sweep, the four blocks' sums; when these are the four consecutive
    pieces of one row and one column, that is the whole projection. -/
theorem sweep_total (X : (⟨2, ![8192, 4096]⟩ : Shape).Idx → EReal)
    (Q : (⟨2, ![4096, 11264]⟩ : Shape).Idx → BitVec 32) (S : (⟨2, ![32, 11264]⟩ : Shape).Idx → EReal)
    (r : Fin 8192) (col : Fin 11264) (p : Fin 1024) (c : Fin 256) (g : ℕ → EReal) (m : ℕ)
    (xb : Fin 4 → (⟨2, ![1024, 1024]⟩ : Shape).Idx → EReal)
    (qb : Fin 4 → (⟨2, ![1024, 256]⟩ : Shape).Idx → BitVec 32)
    (sb : Fin 4 → (⟨2, ![8, 256]⟩ : Shape).Idx → EReal)
    (hg : ∀ b : Fin 4, g (4 * m + b.val) = stepB (xb b) (qb b) (sb b) p c)
    (hx : ∀ (b : Fin 4) (k : Fin 1024),
      xb b (ix2 p k) = X (ix2 r (⟨1024 * b.val + k.val, by have := b.isLt; have := k.isLt; omega⟩ : Fin 4096)))
    (hq : ∀ (b : Fin 4) (k : Fin 1024),
      qb b (ix2 k c) = Q (ix2 (⟨1024 * b.val + k.val, by have := b.isLt; have := k.isLt; omega⟩ : Fin 4096) col))
    (hs : ∀ (b : Fin 4) (g : Fin 8),
      sb b (ix2 g c) = S (ix2 (⟨8 * b.val + g.val, by have := b.isLt; have := g.isLt; omega⟩ : Fin 32) col)) :
    Cert.LibPeriodicTotal.total 3 g (4 * m + 3) = projP X Q S r col := by
  rw [show (4 : ℕ) = 3 + 1 from rfl, Cert.LibPeriodicTotal.total_period_end 3 g m]
  refine Eq.trans (Finset.sum_congr rfl fun b _ => hg b) ?_
  exact blocks_total X Q S r col p c xb qb sb hx hq hs

end Cert.Mlp

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.PayMath.lean ====
/-
  The arithmetic of the two kernel bodies, read at one index over the extended reals.

  A weight block is stored as integer codes `q` and one scale per group of 128 rows; the bodies expand the scale
  table by repeating every row 128 times (a cast to [8, 1, n], a broadcast to [8, 128, n], a cast to [1024, n]), so
  row `k` of the expanded table is scale row `k / 128`, and the block's entry (k, c) is the weight
  `(q (k, c) - 8) * s (k / 128, c)`.  Each accumulation step adds to the running block the product of an activation
  block with such a weight block: entry (p, c) grows by the sum over k of `a (p, k) * weight (k, c)`.  A change of
  float format is the identity on extended reals, and the zero block the product is taken into contributes nothing.
-/
import proofs.«107662_j71167608095143_1_alg».proof.Proof.Gen.KernelIdeal.Skeleton
import proofs.«107662_j71167608095143_1_alg».proof.Proof.LibPlainMatmul
import proofs.«107662_j71167608095143_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayMath

open Idealize.ShloMosaic Idealize.ShloMosaic.ValueIdx Cert.KernelIdeal Cert.KernelIdeal.Gen

/-- The scale row of weight row `k` of a 1024-row block: one scale row per 128 weight rows. -/
abbrev grp (k : Fin 1024) : Fin 8 := ⟨k.val / 128, by have := k.isLt; omega⟩

/-! ## The expanded scale table -/

/-- An [8, 256] scale table with every row repeated 128 times, read at row `k`: scale row `k / 128`. -/
theorem scaleRows256_apply (s : FVec Ideal S8x256 .f32) (k : Fin 1024) (c : Fin 256) :
    shapeCast S1024x256
      (broadcastTo S8x128x256
        (shapeCast S8x1x256
          (shapeCast S8x1x256 (shapeCast S8x256 s shapeCasts_S8x256_S8x256) shapeCasts_S8x256_S8x1x256)
          shapeCasts_S8x1x256_S8x1x256)
        broadcasts_S8x1x256_S8x128x256)
      shapeCasts_S8x128x256_S1024x256 (ix2 k c) = s (ix2 (grp k) c) := by
  have hk := k.isLt
  refine (shapeCast_apply _ _ (ix2 k c)
    (ix3 (grp k) (⟨k.val % 128, Nat.mod_lt _ (by decide)⟩ : Fin 128) c) ?_).trans ?_
  · rw [Shape.rowMajor_val_three, Shape.rowMajor_val_two]
    show ((k.val / 128) * 128 + k.val % 128) * 256 + c.val = k.val * 256 + c.val
    omega
  refine (broadcastTo_apply _ _ _ (ix3 (grp k) (0 : Fin 1) c) ?_).trans ?_
  · intro a
    match a with
    | ⟨0, _⟩ => rfl
    | ⟨1, _⟩ => rfl
    | ⟨2, _⟩ => rfl
  rw [shapeCast_self]
  refine (shapeCast_apply _ _ _ (ix2 (grp k) c) ?_).trans ?_
  · rw [Shape.rowMajor_val_three, Shape.rowMajor_val_two]
    show (k.val / 128) * 256 + c.val = ((k.val / 128) * 1 + 0) * 256 + c.val
    omega
  rw [shapeCast_self]

/-- An [8, 1024] scale table with every row repeated 128 times, read at row `k`: scale row `k / 128`. -/
theorem scaleRows1024_apply (s : FVec Ideal S8x1024 .f32) (k : Fin 1024) (c : Fin 1024) :
    shapeCast S1024x1024
      (broadcastTo S8x128x1024
        (shapeCast S8x1x1024
          (shapeCast S8x1x1024 (shapeCast S8x1024 s shapeCasts_S8x1024_S8x1024) shapeCasts_S8x1024_S8x1x1024)
          shapeCasts_S8x1x1024_S8x1x1024)
        broadcasts_S8x1x1024_S8x128x1024)
      shapeCasts_S8x128x1024_S1024x1024 (ix2 k c) = s (ix2 (grp k) c) := by
  have hk := k.isLt
  refine (shapeCast_apply _ _ (ix2 k c)
    (ix3 (grp k) (⟨k.val % 128, Nat.mod_lt _ (by decide)⟩ : Fin 128) c) ?_).trans ?_
  · rw [Shape.rowMajor_val_three, Shape.rowMajor_val_two]
    show ((k.val / 128) * 128 + k.val % 128) * 1024 + c.val = k.val * 1024 + c.val
    omega
  refine (broadcastTo_apply _ _ _ (ix3 (grp k) (0 : Fin 1) c) ?_).trans ?_
  · intro a
    match a with
    | ⟨0, _⟩ => rfl
    | ⟨1, _⟩ => rfl
    | ⟨2, _⟩ => rfl
  rw [shapeCast_self]
  refine (shapeCast_apply _ _ _ (ix2 (grp k) c) ?_).trans ?_
  · rw [Shape.rowMajor_val_three, Shape.rowMajor_val_two]
    show (k.val / 128) * 1024 + c.val = ((k.val / 128) * 1 + 0) * 1024 + c.val
    omega
  rw [shapeCast_self]

/-! ## The weight blocks -/

/-- The [1024, 256] weight block of the first body at (k, c): the code less 8, times scale row `k / 128`. -/
theorem k0_pay7_apply (q : Vec Ideal S1024x256 .i32) (s : Vec Ideal S8x256 .f32) (k : Fin 1024) (c : Fin 256) :
    k0_pay7 (F := Ideal) q s (ix2 k c) = Cert.Mlp.wt (q (ix2 k c)) (s (ix2 (grp k) c)) := by
  unfold k0_pay7 Cert.Mlp.wt
  rw [shapeCast_self]
  exact congrArg (fun z : EReal => (FloatOps.sitofp (F := Ideal) .f32 (q (ix2 k c)) - Cert.Mlp.eight) * z)
    (scaleRows256_apply s k c)

/-- The first body's weight block is the same expression whichever of its two places it is written at. -/
theorem k0_pay8_eq (x : Vec Ideal S1024x1024 .f32) (q : Vec Ideal S1024x256 .i32) (s : Vec Ideal S8x256 .f32)
    (acc : Vec Ideal S1024x256 .f32) :
    k0_pay8 (F := Ideal) x q s acc
      = addf acc (matmul dot_S1024x1024_S1024x256_S1024x256_1_0_0_1_n_n none (k0_pay6 x) (k0_pay7 q s)
          (constant (F := Ideal) S1024x256 .f32 0x00000000#32)) := rfl

/-- The activation block of the first body after its format change: unchanged. -/
theorem k0_pay6_apply (x : Vec Ideal S1024x1024 .f32) (j : S1024x1024.Idx) : k0_pay6 (F := Ideal) x j = x j := by
  unfold k0_pay6
  rw [shapeCast_self]
  rfl

/-- The product of an activation block with a weight block of the first body into the zero block, at (p, c). -/
theorem matmul0_apply (a : FVec Ideal S1024x1024 .bf16) (w : FVec Ideal S1024x256 .bf16) (p : Fin 1024) (c : Fin 256) :
    matmul dot_S1024x1024_S1024x256_S1024x256_1_0_0_1_n_n none a w
        (constant (F := Ideal) S1024x256 .f32 0x00000000#32) (ix2 p c)
      = ∑ k : Fin 1024, a (ix2 p k) * w (ix2 k c) :=
  Cert.SE.Lib.matmul_plain_apply dot_S1024x1024_S1024x256_S1024x256_1_0_0_1_n_n rfl rfl rfl rfl rfl rfl none a w p c

/-- One accumulation step of the first body, written with the blocks it loads, at (p, c). -/
theorem k0_pay8_apply (x : Vec Ideal S1024x1024 .f32) (q : Vec Ideal S1024x256 .i32) (s : Vec Ideal S8x256 .f32)
    (acc : Vec Ideal S1024x256 .f32) (p : Fin 1024) (c : Fin 256) :
    k0_pay8 (F := Ideal) x q s acc (ix2 p c)
      = acc (ix2 p c) + ∑ k : Fin 1024, x (ix2 p k) * Cert.Mlp.wt (q (ix2 k c)) (s (ix2 (grp k) c)) := by
  rw [k0_pay8_eq]
  refine (addf_apply _ _ _).trans ?_
  rw [matmul0_apply]
  refine congrArg (fun z : EReal => acc (ix2 p c) + z) (Finset.sum_congr rfl fun k _ => ?_)
  rw [k0_pay6_apply, k0_pay7_apply]

/-- The same step written over the blocks the body carries (its second accumulator), at (p, c). -/
theorem k0_pay2_apply (a : FVec Ideal S1024x1024 .bf16) (w : FVec Ideal S1024x256 .bf16)
    (acc : Vec Ideal S1024x256 .f32) (p : Fin 1024) (c : Fin 256) :
    k0_pay2 (F := Ideal) a w acc (ix2 p c) = acc (ix2 p c) + ∑ k : Fin 1024, a (ix2 p k) * w (ix2 k c) := by
  unfold k0_pay2
  rw [shapeCast_self]
  refine (addf_apply _ _ _).trans ?_
  rw [matmul0_apply]

/-- The second accumulator's step on the loaded blocks, at (p, c). -/
theorem k0_pay2_pay_apply (x : Vec Ideal S1024x1024 .f32) (q : Vec Ideal S1024x256 .i32) (s : Vec Ideal S8x256 .f32)
    (acc : Vec Ideal S1024x256 .f32) (p : Fin 1024) (c : Fin 256) :
    k0_pay2 (F := Ideal) (k0_pay6 x) (k0_pay7 q s) acc (ix2 p c)
      = acc (ix2 p c) + ∑ k : Fin 1024, x (ix2 p k) * Cert.Mlp.wt (q (ix2 k c)) (s (ix2 (grp k) c)) := by
  rw [k0_pay2_apply]
  refine congrArg (fun z : EReal => acc (ix2 p c) + z) (Finset.sum_congr rfl fun k _ => ?_)
  rw [k0_pay6_apply, k0_pay7_apply]

/-! ## The gating, the zero blocks and the identity cast -/

/-- The hidden block the first body writes, at any index: `(g * σ g) * u`. -/
theorem k0_pay3_apply (g u : Vec Ideal S1024x256 .f32) (j : S1024x256.Idx) :
    k0_pay3 (F := Ideal) g u j = Cert.Mlp.gated (g j) (u j) := rfl

/-- The first accumulator's reset block is zero everywhere. -/
theorem k0_pay4_apply (j : S1024x256.Idx) : k0_pay4 (F := Ideal) j = 0 := by
  unfold k0_pay4
  rw [shapeCast_self]
  exact Ideal.ofBits_zero_f32

/-- The second accumulator's reset block is zero everywhere. -/
theorem k0_pay5_apply (j : S1024x256.Idx) : k0_pay5 (F := Ideal) j = 0 := by
  unfold k0_pay5
  rw [shapeCast_self]
  exact Ideal.ofBits_zero_f32

/-- A cast of a block to its own shape is the block. -/
theorem k0_pay1_eq (v : FVec Ideal S1024x256 .f32) : k0_pay1 (F := Ideal) v = v := by
  unfold k0_pay1
  rw [shapeCast_self]

/-! ## The second body -/

/-- The second body's reset block is zero everywhere. -/
theorem k1_pay1_apply (j : S256x1024.Idx) : k1_pay1 (F := Ideal) j = 0 := by
  unfold k1_pay1
  rw [shapeCast_self]
  exact Ideal.ofBits_zero_f32

/-- The [1024, 1024] weight block of the second body. -/
def deq1 (q : Vec Ideal S1024x1024 .i32) (s : Vec Ideal S8x1024 .f32) : FVec Ideal S1024x1024 .bf16 :=
  truncf .bf16
    (mulf
      (subf (sitofp .f32 (shapeCast S1024x1024 q shapeCasts_S1024x1024_S1024x1024 : IVec S1024x1024 32))
        (broadcast S1024x1024 (Scalar.ofBits (F := Ideal) .f32 0x41000000#32)))
      (shapeCast S1024x1024
        (broadcastTo S8x128x1024
          (shapeCast S8x1x1024
            (shapeCast S8x1x1024 (shapeCast S8x1024 s shapeCasts_S8x1024_S8x1024) shapeCasts_S8x1024_S8x1x1024)
            shapeCasts_S8x1x1024_S8x1x1024)
          broadcasts_S8x1x1024_S8x128x1024)
        shapeCasts_S8x128x1024_S1024x1024))
    bitsLt_bf16_f32

/-- Its entry (k, c): the code less 8, times scale row `k / 128`. -/
theorem deq1_apply (q : Vec Ideal S1024x1024 .i32) (s : Vec Ideal S8x1024 .f32) (k : Fin 1024) (c : Fin 1024) :
    deq1 q s (ix2 k c) = Cert.Mlp.wt (q (ix2 k c)) (s (ix2 (grp k) c)) := by
  unfold deq1 Cert.Mlp.wt
  rw [shapeCast_self]
  exact congrArg (fun z : EReal => (FloatOps.sitofp (F := Ideal) .f32 (q (ix2 k c)) - Cert.Mlp.eight) * z)
    (scaleRows1024_apply s k c)

/-- The second body's step is the running block plus the product of the hidden block with the weight block. -/
theorem k1_pay2_eq (h : Vec Ideal S256x1024 .bf16) (q : Vec Ideal S1024x1024 .i32) (s : Vec Ideal S8x1024 .f32)
    (acc : Vec Ideal S256x1024 .f32) :
    k1_pay2 (F := Ideal) h q s acc
      = shapeCast S256x1024
          (addf acc (matmul dot_S256x1024_S1024x1024_S256x1024_1_0_0_1_n_n none
            (shapeCast S256x1024 h shapeCasts_S256x1024_S256x1024 : FVec Ideal S256x1024 .bf16) (deq1 q s)
            (constant (F := Ideal) S256x1024 .f32 0x00000000#32)))
          shapeCasts_S256x1024_S256x1024 := rfl

/-- One accumulation step of the second body, at (p, c). -/
theorem k1_pay2_apply (h : Vec Ideal S256x1024 .bf16) (q : Vec Ideal S1024x1024 .i32) (s : Vec Ideal S8x1024 .f32)
    (acc : Vec Ideal S256x1024 .f32) (p : Fin 256) (c : Fin 1024) :
    k1_pay2 (F := Ideal) h q s acc (ix2 p c)
      = acc (ix2 p c) + ∑ k : Fin 1024, h (ix2 p k) * Cert.Mlp.wt (q (ix2 k c)) (s (ix2 (grp k) c)) := by
  rw [k1_pay2_eq, shapeCast_self, shapeCast_self]
  refine (addf_apply _ _ _).trans ?_
  rw [Cert.SE.Lib.matmul_plain_apply dot_S256x1024_S1024x1024_S256x1024_1_0_0_1_n_n rfl rfl rfl rfl rfl rfl none h
    (deq1 q s) p c]
  refine congrArg (fun z : EReal => acc (ix2 p c) + z) (Finset.sum_congr rfl fun k _ => ?_)
  rw [deq1_apply]

end Cert.KernelIdeal.PayMath

end
-- ==== Proof.R0VAcc.lean ====
/-
  The two accumulators of the first pallas_call along the grid.  At every point each accumulator entry grows by the
  products of that point's blocks, starting again from zero wherever the contraction block is 0: after a point it
  holds the running total of its sweep.  At the last point of a sweep (contraction block 3) the totals are the gate
  and up projections over the whole contracted axis, and the block written there is their gating.
-/
import proofs.«107662_j71167608095143_1_alg».proof.Proof.R0VPieces
import proofs.«107662_j71167608095143_1_alg».proof.Proof.R0VBlocks
import proofs.«107662_j71167608095143_1_alg».proof.Proof.R0VMath
import proofs.«107662_j71167608095143_1_alg».proof.Proof.PayMath

set_option maxRecDepth 16384

noncomputable section

open scoped BigOperators

namespace Cert.KernelIdeal.R0V

open Idealize.ShloMosaic Idealize.ShloMosaic.TcCoe Idealize.ShloMosaic.ValueIdx
open Idealize.SL.Sem
open Cert.KernelIdeal Cert.KernelIdeal.Gen Cert.KernelIdeal.Fr
open Cert.LibPeriodicTotal (total total_reset total_step)

/-! ## One point, over the blocks it loads -/

theorem gateA_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec Ideal S1024x1024 .f32) (x1 : Vec Ideal S1024x256 .i32) (x2 : Vec Ideal S8x256 .f32) (x3 : Vec Ideal S1024x256 .i32) (x4 : Vec Ideal S8x256 .f32) (p : Fin 1024) (q : Fin 256) :
    sout0_A_0 (F := Ideal) c i arg3 harg3 arg4 harg4 arg5 harg5 arg6 harg6 arg7 harg7 arg8 harg8 arg9 harg9 arg10 harg10 hc0 hc1 x0 x1 x2 x3 x4 (ix2 p q) = 0 + Cert.Mlp.stepB x0 x1 x2 p q := by
  rw [gateA_eq, PayMath.k0_pay1_eq, PayMath.k0_pay8_apply, PayMath.k0_pay4_apply]
  rfl

theorem upA_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i) (hc1 : ¬cond0_1 i) (x0 : Vec Ideal S1024x1024 .f32) (x1 : Vec Ideal S1024x256 .i32) (x2 : Vec Ideal S8x256 .f32) (x3 : Vec Ideal S1024x256 .i32) (x4 : Vec Ideal S8x256 .f32) (p : Fin 1024) (q : Fin 256) :
    sout0_A_1 (F := Ideal) c i arg3 harg3 arg4 harg4 arg5 harg5 arg6 harg6 arg7 harg7 arg8 harg8 arg9 harg9 arg10 harg10 hc0 hc1 x0 x1 x2 x3 x4 (ix2 p q) = 0 + Cert.Mlp.stepB x0 x3 x4 p q := by
  rw [upA_eq, PayMath.k0_pay2_pay_apply, PayMath.k0_pay5_apply]
  rfl

theorem gateB_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec Ideal S1024x1024 .f32) (x1 : Vec Ideal S1024x256 .i32) (x2 : Vec Ideal S8x256 .f32) (x3 : Vec Ideal S1024x256 .i32) (x4 : Vec Ideal S8x256 .f32) (xs0 : Vec Ideal S1024x256 .f32) (xs1 : Vec Ideal S1024x256 .f32) (p : Fin 1024) (q : Fin 256) :
    sout0_B_0 (F := Ideal) c i arg3 harg3 arg4 harg4 arg5 harg5 arg6 harg6 arg7 harg7 arg8 harg8 arg9 harg9 arg10 harg10 hc0 hc1 x0 x1 x2 x3 x4 xs0 xs1 (ix2 p q) = xs0 (ix2 p q) + Cert.Mlp.stepB x0 x1 x2 p q := by
  rw [gateB_eq, PayMath.k0_pay1_eq, PayMath.k0_pay8_apply]
  rfl

theorem upB_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : ¬cond0_1 i) (x0 : Vec Ideal S1024x1024 .f32) (x1 : Vec Ideal S1024x256 .i32) (x2 : Vec Ideal S8x256 .f32) (x3 : Vec Ideal S1024x256 .i32) (x4 : Vec Ideal S8x256 .f32) (xs0 : Vec Ideal S1024x256 .f32) (xs1 : Vec Ideal S1024x256 .f32) (p : Fin 1024) (q : Fin 256) :
    sout0_B_1 (F := Ideal) c i arg3 harg3 arg4 harg4 arg5 harg5 arg6 harg6 arg7 harg7 arg8 harg8 arg9 harg9 arg10 harg10 hc0 hc1 x0 x1 x2 x3 x4 xs0 xs1 (ix2 p q) = xs1 (ix2 p q) + Cert.Mlp.stepB x0 x3 x4 p q := by
  rw [upB_eq, PayMath.k0_pay2_pay_apply]
  rfl

theorem gateC_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec Ideal S1024x1024 .f32) (x1 : Vec Ideal S1024x256 .i32) (x2 : Vec Ideal S8x256 .f32) (x3 : Vec Ideal S1024x256 .i32) (x4 : Vec Ideal S8x256 .f32) (xs0 : Vec Ideal S1024x256 .f32) (xs1 : Vec Ideal S1024x256 .f32) (p : Fin 1024) (q : Fin 256) :
    sout0_C_0 (F := Ideal) c i arg3 harg3 arg4 harg4 arg5 harg5 arg6 harg6 arg7 harg7 arg8 harg8 arg9 harg9 arg10 harg10 hc0 hc1 x0 x1 x2 x3 x4 xs0 xs1 (ix2 p q) = xs0 (ix2 p q) + Cert.Mlp.stepB x0 x1 x2 p q := by
  rw [gateC_eq, PayMath.k0_pay1_eq, PayMath.k0_pay8_apply]
  rfl

theorem upC_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec Ideal S1024x1024 .f32) (x1 : Vec Ideal S1024x256 .i32) (x2 : Vec Ideal S8x256 .f32) (x3 : Vec Ideal S1024x256 .i32) (x4 : Vec Ideal S8x256 .f32) (xs0 : Vec Ideal S1024x256 .f32) (xs1 : Vec Ideal S1024x256 .f32) (p : Fin 1024) (q : Fin 256) :
    sout0_C_1 (F := Ideal) c i arg3 harg3 arg4 harg4 arg5 harg5 arg6 harg6 arg7 harg7 arg8 harg8 arg9 harg9 arg10 harg10 hc0 hc1 x0 x1 x2 x3 x4 xs0 xs1 (ix2 p q) = xs1 (ix2 p q) + Cert.Mlp.stepB x0 x3 x4 p q := by
  rw [upC_eq, PayMath.k0_pay2_pay_apply]
  rfl

/-- The block written at the last point of a sweep is the gating of the two accumulators as that point leaves them. -/
theorem outC_apply (c : Dev nD) (i : grid0.Coords) (arg3 : Memref sig .tc .vmem S1024x1024 .f32) (harg3 : arg3.IsWhole) (arg4 : Memref sig .tc .vmem S1024x256 .i32) (harg4 : arg4.IsWhole) (arg5 : Memref sig .tc .vmem S8x256 .f32) (harg5 : arg5.IsWhole) (arg6 : Memref sig .tc .vmem S1024x256 .i32) (harg6 : arg6.IsWhole) (arg7 : Memref sig .tc .vmem S8x256 .f32) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i) (hc1 : cond0_1 i) (x0 : Vec Ideal S1024x1024 .f32) (x1 : Vec Ideal S1024x256 .i32) (x2 : Vec Ideal S8x256 .f32) (x3 : Vec Ideal S1024x256 .i32) (x4 : Vec Ideal S8x256 .f32) (xs0 : Vec Ideal S1024x256 .f32) (xs1 : Vec Ideal S1024x256 .f32) (y : S1024x256.Idx) :
    out0_C_5 (F := Ideal) c i arg3 harg3 arg4 harg4 arg5 harg5 arg6 harg6 arg7 harg7 arg8 harg8 arg9 harg9 arg10 harg10 hc0 hc1 x0 x1 x2 x3 x4 xs0 xs1 y
      = Cert.Mlp.gated (sout0_C_0 (F := Ideal) c i arg3 harg3 arg4 harg4 arg5 harg5 arg6 harg6 arg7 harg7 arg8 harg8 arg9 harg9 arg10 harg10 hc0 hc1 x0 x1 x2 x3 x4 xs0 xs1 y)
          (sout0_C_1 (F := Ideal) c i arg3 harg3 arg4 harg4 arg5 harg5 arg6 harg6 arg7 harg7 arg8 harg8 arg9 harg9 arg10 harg10 hc0 hc1 x0 x1 x2 x3 x4 xs0 xs1 y) := by
  rw [outC_eq, gateC_eq, upC_eq]
  rfl

/-! ## Along the grid -/

variable (V : (c : Dev nD) → (b : Ref sig .tc) → Buf (Elt Ideal) ((c : Thread nD τ).loc b))

/-- What point `n` adds to entry `(p, q)` of the gate accumulator. -/
def gStep (c : Dev nD) (p : Fin 1024) (q : Fin 256) (n : ℕ) : EReal :=
  if h : n < cfg0.N then
    Cert.Mlp.stepB (iblk0 V c 0 ⟨n, h⟩) (iblk0 V c 1 ⟨n, h⟩) (iblk0 V c 2 ⟨n, h⟩) p q
  else 0

/-- What point `n` adds to entry `(p, q)` of the up accumulator. -/
def uStep (c : Dev nD) (p : Fin 1024) (q : Fin 256) (n : ℕ) : EReal :=
  if h : n < cfg0.N then
    Cert.Mlp.stepB (iblk0 V c 0 ⟨n, h⟩) (iblk0 V c 3 ⟨n, h⟩) (iblk0 V c 4 ⟨n, h⟩) p q
  else 0

theorem gStep_at (c : Dev nD) (t : Fin cfg0.N) (p : Fin 1024) (q : Fin 256) :
    gStep V c p q t.val = Cert.Mlp.stepB (iblk0 V c 0 t) (iblk0 V c 1 t) (iblk0 V c 2 t) p q := dif_pos t.isLt
theorem uStep_at (c : Dev nD) (t : Fin cfg0.N) (p : Fin 1024) (q : Fin 256) :
    uStep V c p q t.val = Cert.Mlp.stepB (iblk0 V c 0 t) (iblk0 V c 3 t) (iblk0 V c 4 t) p q := dif_pos t.isLt

theorem atA_acc (c : Dev nD) (t : Fin cfg0.N) (h0 : t.val % 4 = 0) (h1 : ¬t.val % 4 = 3) (p : Fin 1024) (q : Fin 256) :
    (atA V c t h0 h1).2.1 (ix2 p q) = 0 + gStep V c p q t.val
      ∧ (atA V c t h0 h1).2.2 (ix2 p q) = 0 + uStep V c p q t.val := by
  unfold atA
  dsimp only
  rw [gStep_at, uStep_at]
  exact ⟨gateA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) p q,
    upA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) p q⟩

theorem atB_acc (c : Dev nD) (t : Fin cfg0.N) (h0 : ¬t.val % 4 = 0) (h1 : ¬t.val % 4 = 3)
    (pr : Vec Ideal S1024x256 .bf16 × Vec Ideal S1024x256 .f32 × Vec Ideal S1024x256 .f32) (p : Fin 1024) (q : Fin 256) :
    (atB V c t h0 h1 pr).2.1 (ix2 p q) = pr.2.1 (ix2 p q) + gStep V c p q t.val
      ∧ (atB V c t h0 h1 pr).2.2 (ix2 p q) = pr.2.2 (ix2 p q) + uStep V c p q t.val := by
  unfold atB
  dsimp only
  rw [gStep_at, uStep_at]
  exact ⟨gateB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) pr.2.1 pr.2.2 p q,
    upB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) pr.2.1 pr.2.2 p q⟩

theorem atC_acc (c : Dev nD) (t : Fin cfg0.N) (h0 : ¬t.val % 4 = 0) (h1 : t.val % 4 = 3)
    (pr : Vec Ideal S1024x256 .bf16 × Vec Ideal S1024x256 .f32 × Vec Ideal S1024x256 .f32) (p : Fin 1024) (q : Fin 256) :
    (atC V c t h0 h1 pr).2.1 (ix2 p q) = pr.2.1 (ix2 p q) + gStep V c p q t.val
      ∧ (atC V c t h0 h1 pr).2.2 (ix2 p q) = pr.2.2 (ix2 p q) + uStep V c p q t.val := by
  unfold atC
  dsimp only
  rw [gStep_at, uStep_at]
  exact ⟨gateC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) pr.2.1 pr.2.2 p q,
    upC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) pr.2.1 pr.2.2 p q⟩

theorem atC_out (c : Dev nD) (t : Fin cfg0.N) (h0 : ¬t.val % 4 = 0) (h1 : t.val % 4 = 3)
    (pr : Vec Ideal S1024x256 .bf16 × Vec Ideal S1024x256 .f32 × Vec Ideal S1024x256 .f32) (y : S1024x256.Idx) :
    (atC V c t h0 h1 pr).1 y = Cert.Mlp.gated ((atC V c t h0 h1 pr).2.1 y) ((atC V c t h0 h1 pr).2.2 y) := by
  unfold atC
  dsimp only
  exact outC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) pr.2.1 pr.2.2 y

/-- After point `n` each accumulator entry is the running total of its sweep. -/
theorem acc_inv (c : Dev nD) : ∀ (n : ℕ) (hn : n < cfg0.N) (p : Fin 1024) (q : Fin 256),
    (outsAt0 V c n hn).2.1 (ix2 p q) = total 3 (gStep V c p q) n
      ∧ (outsAt0 V c n hn).2.2 (ix2 p q) = total 3 (uStep V c p q) n
  | 0, hn, p, q => by
    have h1 : ¬(⟨0, hn⟩ : Fin cfg0.N).val % 4 = 3 := by intro h; have h' : (0 : ℕ) % 4 = 3 := h; omega
    rw [outsAt0_A V c ⟨0, hn⟩ rfl h1]
    exact atA_acc V c ⟨0, hn⟩ rfl h1 p q
  | n + 1, hn, p, q => by
    by_cases h0 : (n + 1) % 4 = 0
    · have h1 : ¬(n + 1) % 4 = 3 := by omega
      rw [outsAt0_A V c ⟨n + 1, hn⟩ h0 h1, total_reset 3 _ (n + 1) h0, total_reset 3 _ (n + 1) h0]
      exact atA_acc V c ⟨n + 1, hn⟩ h0 h1 p q
    · have ih := acc_inv c n (Nat.lt_of_succ_lt hn) p q
      rw [total_step 3 _ n h0, total_step 3 _ n h0]
      by_cases h1 : (n + 1) % 4 = 3
      · rw [outsAt0_C V c ⟨n + 1, hn⟩ h0 h1]
        obtain ⟨a1, a2⟩ := atC_acc V c ⟨n + 1, hn⟩ h0 h1 (outsAt0 V c n (Nat.lt_of_succ_lt hn)) p q
        exact ⟨a1.trans (congrArg (fun z : EReal => z + gStep V c p q (n + 1)) ih.1),
          a2.trans (congrArg (fun z : EReal => z + uStep V c p q (n + 1)) ih.2)⟩
      · rw [outsAt0_B V c ⟨n + 1, hn⟩ h0 h1]
        obtain ⟨a1, a2⟩ := atB_acc V c ⟨n + 1, hn⟩ h0 h1 (outsAt0 V c n (Nat.lt_of_succ_lt hn)) p q
        exact ⟨a1.trans (congrArg (fun z : EReal => z + gStep V c p q (n + 1)) ih.1),
          a2.trans (congrArg (fun z : EReal => z + uStep V c p q (n + 1)) ih.2)⟩

end Cert.KernelIdeal.R0V

end
-- ==== Proof.R0Value.lean ====
/-
  The first pallas_call's result array.  The block written back at the last point of a sweep — row block `i`, column
  block `j`, contraction block 3 — holds at `(p, q)` the gating of the gate and up projections of row `1024 i + p`
  onto column `256 j + q`, each a sum over the whole contracted axis; these blocks tile the [8192, 11264] array, so
  the array ends as the gated hidden activations over the padded extents.
-/
import proofs.«107662_j71167608095143_1_alg».proof.Proof.R0VAcc

set_option maxRecDepth 16384

noncomputable section

open scoped BigOperators

namespace Cert.KernelIdeal.R0V

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr
open Cert.LibPeriodicTotal (total)

variable (V : (c : Dev nD) → (b : Ref sig .tc) → Buf (Elt Ideal) ((c : Thread nD τ).loc b))

/-! ## The totals at the end of a sweep -/

theorem gate_total (c : Dev nD) (t : Fin cfg0.N) (h3 : t.val % 4 = 3) (p : Fin 1024) (q : Fin 256) :
    total 3 (gStep V c p q) t.val
      = Cert.Mlp.projP (V c main_v6) (V c main_v0) (V c main_v2) (⟨1024 * (t.val / 176) + p.val, by have h := t.isLt; have hN : cfg0.N = 1408 := N_0; have := p.isLt; omega⟩ : Fin 8192) (⟨256 * (t.val / 4 % 44) + q.val, by have h := t.isLt; have hN : cfg0.N = 1408 := N_0; have := q.isLt; omega⟩ : Fin 11264) := by
  have hN : cfg0.N = 1408 := N_0
  have ht := t.isLt
  have hb : ∀ b : Fin 4, 4 * (t.val / 4) + b.val < cfg0.N := fun b => by have := b.isLt; omega
  refine (congrArg (total 3 (gStep V c p q)) (show t.val = 4 * (t.val / 4) + 3 by omega)).trans ?_
  refine Cert.Mlp.sweep_total (V c main_v6) (V c main_v0) (V c main_v2) _ _ p q (gStep V c p q) (t.val / 4)
    (fun b => iblk0 V c 0 ⟨4 * (t.val / 4) + b.val, hb b⟩)
    (fun b => iblk0 V c 1 ⟨4 * (t.val / 4) + b.val, hb b⟩)
    (fun b => iblk0 V c 2 ⟨4 * (t.val / 4) + b.val, hb b⟩)
    (fun b => dif_pos (hb b)) ?_ ?_ ?_
  · intro b k
    have hb4 := b.isLt
    refine (blk0_apply V c ⟨4 * (t.val / 4) + b.val, hb b⟩ p k).trans ?_
    refine congrArg (V c main_v6) (congrArg₂ (fun (a : Fin 8192) (b' : Fin 4096) => ix2 a b') (Fin.ext ?_) (Fin.ext ?_))
    · show 1024 * ((4 * (t.val / 4) + b.val) / 176) + p.val = 1024 * (t.val / 176) + p.val; omega
    · show 1024 * ((4 * (t.val / 4) + b.val) % 4) + k.val = 1024 * b.val + k.val; omega
  · intro b k
    have hb4 := b.isLt
    refine (blk1_apply V c ⟨4 * (t.val / 4) + b.val, hb b⟩ k q).trans ?_
    refine congrArg (V c main_v0) (congrArg₂ (fun (a : Fin 4096) (b' : Fin 11264) => ix2 a b') (Fin.ext ?_) (Fin.ext ?_))
    · show 1024 * ((4 * (t.val / 4) + b.val) % 4) + k.val = 1024 * b.val + k.val; omega
    · show 256 * ((4 * (t.val / 4) + b.val) / 4 % 44) + q.val = 256 * (t.val / 4 % 44) + q.val; omega
  · intro b g
    have hb4 := b.isLt
    refine (blk2_apply V c ⟨4 * (t.val / 4) + b.val, hb b⟩ g q).trans ?_
    refine congrArg (V c main_v2) (congrArg₂ (fun (a : Fin 32) (b' : Fin 11264) => ix2 a b') (Fin.ext ?_) (Fin.ext ?_))
    · show 8 * ((4 * (t.val / 4) + b.val) % 4) + g.val = 8 * b.val + g.val; omega
    · show 256 * ((4 * (t.val / 4) + b.val) / 4 % 44) + q.val = 256 * (t.val / 4 % 44) + q.val; omega

theorem up_total (c : Dev nD) (t : Fin cfg0.N) (h3 : t.val % 4 = 3) (p : Fin 1024) (q : Fin 256) :
    total 3 (uStep V c p q) t.val
      = Cert.Mlp.projP (V c main_v6) (V c main_v1) (V c main_v3) (⟨1024 * (t.val / 176) + p.val, by have h := t.isLt; have hN : cfg0.N = 1408 := N_0; have := p.isLt; omega⟩ : Fin 8192) (⟨256 * (t.val / 4 % 44) + q.val, by have h := t.isLt; have hN : cfg0.N = 1408 := N_0; have := q.isLt; omega⟩ : Fin 11264) := by
  have hN : cfg0.N = 1408 := N_0
  have ht := t.isLt
  have hb : ∀ b : Fin 4, 4 * (t.val / 4) + b.val < cfg0.N := fun b => by have := b.isLt; omega
  refine (congrArg (total 3 (uStep V c p q)) (show t.val = 4 * (t.val / 4) + 3 by omega)).trans ?_
  refine Cert.Mlp.sweep_total (V c main_v6) (V c main_v1) (V c main_v3) _ _ p q (uStep V c p q) (t.val / 4)
    (fun b => iblk0 V c 0 ⟨4 * (t.val / 4) + b.val, hb b⟩)
    (fun b => iblk0 V c 3 ⟨4 * (t.val / 4) + b.val, hb b⟩)
    (fun b => iblk0 V c 4 ⟨4 * (t.val / 4) + b.val, hb b⟩)
    (fun b => dif_pos (hb b)) ?_ ?_ ?_
  · intro b k
    have hb4 := b.isLt
    refine (blk0_apply V c ⟨4 * (t.val / 4) + b.val, hb b⟩ p k).trans ?_
    refine congrArg (V c main_v6) (congrArg₂ (fun (a : Fin 8192) (b' : Fin 4096) => ix2 a b') (Fin.ext ?_) (Fin.ext ?_))
    · show 1024 * ((4 * (t.val / 4) + b.val) / 176) + p.val = 1024 * (t.val / 176) + p.val; omega
    · show 1024 * ((4 * (t.val / 4) + b.val) % 4) + k.val = 1024 * b.val + k.val; omega
  · intro b k
    have hb4 := b.isLt
    refine (blk3_apply V c ⟨4 * (t.val / 4) + b.val, hb b⟩ k q).trans ?_
    refine congrArg (V c main_v1) (congrArg₂ (fun (a : Fin 4096) (b' : Fin 11264) => ix2 a b') (Fin.ext ?_) (Fin.ext ?_))
    · show 1024 * ((4 * (t.val / 4) + b.val) % 4) + k.val = 1024 * b.val + k.val; omega
    · show 256 * ((4 * (t.val / 4) + b.val) / 4 % 44) + q.val = 256 * (t.val / 4 % 44) + q.val; omega
  · intro b g
    have hb4 := b.isLt
    refine (blk4_apply V c ⟨4 * (t.val / 4) + b.val, hb b⟩ g q).trans ?_
    refine congrArg (V c main_v3) (congrArg₂ (fun (a : Fin 32) (b' : Fin 11264) => ix2 a b') (Fin.ext ?_) (Fin.ext ?_))
    · show 8 * ((4 * (t.val / 4) + b.val) % 4) + g.val = 8 * b.val + g.val; omega
    · show 256 * ((4 * (t.val / 4) + b.val) / 4 % 44) + q.val = 256 * (t.val / 4 % 44) + q.val; omega

/-- The output block at the last point of a sweep, entry `(p, q)`. -/
theorem out_at (c : Dev nD) (t : Fin cfg0.N) (h3 : t.val % 4 = 3) (p : Fin 1024) (q : Fin 256) :
    (outsAt0 V c t.val t.isLt).1 (ix2 p q)
      = Cert.Mlp.hidP (V c main_v6) (V c main_v0) (V c main_v2) (V c main_v1) (V c main_v3) (ix2 (⟨1024 * (t.val / 176) + p.val, by have h := t.isLt; have hN : cfg0.N = 1408 := N_0; have := p.isLt; omega⟩ : Fin 8192) (⟨256 * (t.val / 4 % 44) + q.val, by have h := t.isLt; have hN : cfg0.N = 1408 := N_0; have := q.isLt; omega⟩ : Fin 11264)) := by
  have h0 : ¬t.val % 4 = 0 := by omega
  obtain ⟨a1, a2⟩ := acc_inv V c t.val t.isLt p q
  have e := outsAt0_C V c t h0 h3
  rw [e] at a1 a2 ⊢
  rw [atC_out, a1, a2, gate_total V c t h3 p q, up_total V c t h3 p q]
  rfl

/-! ## From blocks to the array -/

/-- What a point that writes back writes: its block of the gated hidden activations. -/
theorem flushed_eq (c : Dev nD) (t : Fin cfg0.N) (hf : (cfg0.win 5).flush t = true) :
    (dat0 V c).flushed 5 t = ((cfg0.win 5).blk t).view.read (Elt Ideal) (Cert.Mlp.hidP (V c main_v6) (V c main_v0) (V c main_v2) (V c main_v1) (V c main_v3)) := by
  have h3 : t.val % 4 = 3 := (flush0_5 t).mp hf
  obtain ⟨e0, e1⟩ := idx0_5 t
  show (cfg0.win 5).cut (grid0.coords t) ((dat0 V c).after 5 t) = _
  rw [after0_5]
  funext y
  obtain ⟨p, q, rfl⟩ : ∃ (p : Fin 1024) (q : Fin 256), (y : S1024x256.Idx) = ix2 p q := ⟨y 0, y 1, eq_ix2 y⟩
  rw [View.read_apply]
  show (outsAt0 V c t.val t.isLt).1 (ix2 p q) = Cert.Mlp.hidP (V c main_v6) (V c main_v0) (V c main_v2) (V c main_v1) (V c main_v3) (((cfg0.win 5).blk t).view.emb (ix2 p q))
  rw [out_at V c t h3 p q]
  refine congrArg (Cert.Mlp.hidP (V c main_v6) (V c main_v0) (V c main_v2) (V c main_v1) (V c main_v3)) (funext fun a => Fin.ext ?_)
  match a with
  | ⟨0, _⟩ => show 1024 * (t.val / 176) + p.val = win0_5.index t (0 : Fin 2) * 1024 + 1 * p.val; rw [e0]; omega
  | ⟨1, _⟩ => show 256 * (t.val / 4 % 44) + q.val = win0_5.index t (1 : Fin 2) * 256 + 1 * q.val; rw [e1]; omega

/-- An index of the array is in point `t`'s block iff each coordinate is in the block's range on its axis. -/
theorem mem_blk5 (t : Fin cfg0.N) (i : S8192x11264.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v7).slice (win0_5.rect t)).set ↔ _
  rw [View.set_slice_whole, Rect.mem_set_unit]
  exact Iff.rfl

/-- Every entry of the array is in the block of a point that writes back. -/
theorem cover5 (i : S8192x11264.Idx) :
    ∃ t : Fin cfg0.N, (cfg0.win 5).flush t = true ∧ i ∈ ((cfg0.win 5).blk t).view.set := by
  have hN : cfg0.N = 1408 := N_0
  have hi0 : (i 0).val < 8192 := (i 0).isLt
  have hi1 : (i 1).val < 11264 := (i 1).isLt
  refine ⟨⟨(i 0).val / 1024 * 176 + (i 1).val / 256 * 4 + 3, by omega⟩, (flush0_5 _).mpr (by show ((i 0).val / 1024 * 176 + (i 1).val / 256 * 4 + 3) % 4 = 3; omega), ?_⟩
  rw [mem_blk5]
  obtain ⟨e0, e1⟩ := idx0_5 ⟨(i 0).val / 1024 * 176 + (i 1).val / 256 * 4 + 3, by omega⟩
  intro a
  match a with
  | ⟨0, _⟩ =>
    show win0_5.index _ (0 : Fin 2) * 1024 ≤ (i 0).val ∧ (i 0).val < win0_5.index _ (0 : Fin 2) * 1024 + 1024
    rw [e0]
    show ((i 0).val / 1024 * 176 + (i 1).val / 256 * 4 + 3) / 176 * 1024 ≤ (i 0).val ∧ (i 0).val < ((i 0).val / 1024 * 176 + (i 1).val / 256 * 4 + 3) / 176 * 1024 + 1024
    omega
  | ⟨1, _⟩ =>
    show win0_5.index _ (1 : Fin 2) * 256 ≤ (i 1).val ∧ (i 1).val < win0_5.index _ (1 : Fin 2) * 256 + 256
    rw [e1]
    show ((i 0).val / 1024 * 176 + (i 1).val / 256 * 4 + 3) / 4 % 44 * 256 ≤ (i 1).val ∧ (i 1).val < ((i 0).val / 1024 * 176 + (i 1).val / 256 * 4 + 3) / 4 % 44 * 256 + 256
    omega

/-- The first pallas_call's result array after the run: the gated hidden activations over the padded extents. -/
theorem final0 (c : Dev nD) :
    (dat0 V c).arrAt 5 cfg0.N = Cert.Mlp.hidP (V c main_v6) (V c main_v0) (V c main_v2) (V c main_v1) (V c main_v3) :=
  (dat0 V c).arrAt_eq_of_cover 5 (Cert.Mlp.hidP (V c main_v6) (V c main_v0) (V c main_v2) (V c main_v1) (V c main_v3)) (flushed_eq V c) cover5

end Cert.KernelIdeal.R0V

end
-- ==== Proof.R1VPieces.lean ====
/-
  What each control case of the second body leaves in the accumulator and in the output window's buffer, as one
  expression of the blocks it loads: the accumulator is always the step `acc + hidden block * weight block`, taken from
  the zero block at a point whose contraction block is 0, and at a point whose contraction block is 10 the output
  buffer receives the same new accumulator.
-/
import proofs.«107662_j71167608095143_1_alg».proof.Proof.R1Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz1 : (![0, 0] : Fin 2 → Nat) = fun _ => 0 := funext fun a => by fin_cases a <;> rfl

/-- A middle point: the accumulator takes one more step. -/
theorem soutB_eq (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : ¬cond1_1 i) (x0 : Vec F S256x1024 .bf16) (x1 : Vec F S1024x1024 .i32) (x2 : Vec F S8x1024 .f32) (xs0 : Vec F S256x1024 .f32) :
    sout1_B_0 c i arg3 harg3 arg4 harg4 arg5 harg5 arg6 harg6 arg7 harg7 hc0 hc1 x0 x1 x2 xs0 = k1_pay2 x0 x1 x2 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_words
  rw [View.canon_unit_zero hz1]
  simp only [View.readAt_eq_ld, harg3.read_unread, harg4.read_unread, harg5.read_unread, harg7.read_unread,
    View.ld_unit_zero (S := S256x1024) hz1, View.ld_unit_zero (S := S1024x1024) hz1, View.ld_unit_zero (S := S8x1024) hz1]

/-- A first point: the accumulator is zeroed, then takes the first step. -/
theorem soutA_eq (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : cond1_0 i) (hc1 : ¬cond1_1 i) (x0 : Vec F S256x1024 .bf16) (x1 : Vec F S1024x1024 .i32) (x2 : Vec F S8x1024 .f32) :
    sout1_A_0 c i arg3 harg3 arg4 harg4 arg5 harg5 arg6 harg6 arg7 harg7 hc0 hc1 x0 x1 x2 = k1_pay2 x0 x1 x2 k1_pay1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  try sl_unfold_words
  rw [View.canon_cons_unit_zero (S := S256x1024) hz1, View.readCov_unit_zero (S := S256x1024) _ hz1]
  simp only [View.readAt_eq_ld, harg3.read_unread, harg4.read_unread, harg5.read_unread,
    View.ld_unit_zero (S := S256x1024) hz1, View.ld_unit_zero (S := S1024x1024) hz1, View.ld_unit_zero (S := S8x1024) hz1]

/-- A last point: the accumulator takes the last step, -/
theorem soutC_eq (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) :
    sout1_C_0 c i arg3 harg3 arg4 harg4 arg5 harg5 arg6 harg6 arg7 harg7 hc0 hc1 x0 x1 x2 xs0 = k1_pay2 x0 x1 x2 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  try sl_unfold_words
  rw [View.canon_unit_zero hz1]
  simp only [View.readAt_eq_ld, harg3.read_unread, harg4.read_unread, harg5.read_unread, harg7.read_unread,
    View.ld_unit_zero (S := S256x1024) hz1, View.ld_unit_zero (S := S1024x1024) hz1, View.ld_unit_zero (S := S8x1024) hz1]

/-- and the output buffer receives the new accumulator. -/
theorem outC_eq (c : Dev nD) (i : grid1.Coords) (arg3 : Memref sig .tc .vmem S256x1024 .bf16) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S256x1024 .f32) (harg7 : arg7.IsWhole) (hc0 : ¬cond1_0 i) (hc1 : cond1_1 i) (x0 : Vec F S256x1024 .bf16) (x1 : Vec F S1024x1024 .i32) (x2 : Vec F S8x1024 .f32) (xs0 : Vec F S256x1024 .f32) :
    out1_C_3 c i arg3 harg3 arg4 harg4 arg5 harg5 arg6 harg6 arg7 harg7 hc0 hc1 x0 x1 x2 xs0 = k1_pay2 x0 x1 x2 xs0 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero hz1, View.readCov_unit_zero (S := S256x1024) _ hz1]
  simp only [View.readAt_eq_ld, harg3.read_unread, harg4.read_unread, harg5.read_unread, harg7.read_unread,
    View.ld_unit_zero (S := S256x1024) hz1, View.ld_unit_zero (S := S1024x1024) hz1, View.ld_unit_zero (S := S8x1024) hz1]

/-! ## The same, at a grid point, over the blocks the windows read there -/

variable (V : (c : Dev nD) → (b : Ref sig .tc) → Buf (Elt F) ((c : Thread nD τ).loc b))

theorem at1A_snd (c : Dev nD) (t : Fin cfg1.N) (h0 : t.val % 11 = 0) (h1 : ¬t.val % 11 = 10) :
    (at1A V c t h0 h1).2 = k1_pay2 (iblk1 V c 0 t) (iblk1 V c 1 t) (iblk1 V c 2 t) k1_pay1 := by
  unfold at1A
  dsimp only
  exact soutA_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

theorem at1B_snd (c : Dev nD) (t : Fin cfg1.N) (h0 : ¬t.val % 11 = 0) (h1 : ¬t.val % 11 = 10)
    (pr : Vec F S256x1024 .f32 × Vec F S256x1024 .f32) :
    (at1B V c t h0 h1 pr).2 = k1_pay2 (iblk1 V c 0 t) (iblk1 V c 1 t) (iblk1 V c 2 t) pr.2 := by
  unfold at1B
  dsimp only
  exact soutB_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) pr.2

theorem at1C_snd (c : Dev nD) (t : Fin cfg1.N) (h0 : ¬t.val % 11 = 0) (h1 : t.val % 11 = 10)
    (pr : Vec F S256x1024 .f32 × Vec F S256x1024 .f32) :
    (at1C V c t h0 h1 pr).2 = k1_pay2 (iblk1 V c 0 t) (iblk1 V c 1 t) (iblk1 V c 2 t) pr.2 := by
  unfold at1C
  dsimp only
  exact soutC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) pr.2

theorem at1C_fst (c : Dev nD) (t : Fin cfg1.N) (h0 : ¬t.val % 11 = 0) (h1 : t.val % 11 = 10)
    (pr : Vec F S256x1024 .f32 × Vec F S256x1024 .f32) :
    (at1C V c t h0 h1 pr).1 = k1_pay2 (iblk1 V c 0 t) (iblk1 V c 1 t) (iblk1 V c 2 t) pr.2 := by
  unfold at1C
  dsimp only
  exact outC_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) pr.2

end Cert.KernelIdeal.Fr

end
-- ==== Proof.R1VMath.lean ====
/-
  The hidden axis of 11264 entries summed as eleven blocks of 1024.
-/
import proofs.«107662_j71167608095143_1_alg».proof.Proof.LibBlockedSum
import proofs.«107662_j71167608095143_1_alg».proof.Proof.LibPeriodicTotal

open scoped BigOperators

namespace Cert.KernelIdeal.R1V

variable {M : Type*} [AddCommMonoid M]

/-- A sum over 11264 indices is the sum over eleven blocks of the sums over each block's 1024 positions. -/
theorem sum_blocks11 (f : Fin 11264 → M) :
    ∑ i, f i = ∑ b : Fin 11, ∑ k : Fin 1024,
      f ⟨b.val * 1024 + k.val, by have := b.isLt; have := k.isLt; omega⟩ := by
  have e := Cert.LibBlockedSum.sum_blocks 11 1024
    (fun i : Fin (11 * 1024) => f ⟨i.val, by have := i.isLt; omega⟩)
  have e0 : ∑ i : Fin (11 * 1024), f ⟨i.val, by have := i.isLt; omega⟩ = ∑ i : Fin 11264, f i :=
    Fintype.sum_equiv (finCongr (show 11 * 1024 = 11264 from rfl)) _ _ fun i => rfl
  rw [← e0, e]
  refine Finset.sum_congr rfl fun b _ => Finset.sum_congr rfl fun k _ => ?_
  exact congrArg f (Fin.ext (by
    show (Cert.LibBlockedSum.slot 11 1024 b k).val = b.val * 1024 + k.val
    rw [Cert.LibBlockedSum.slot_val]; omega))

/-- A total reset at every multiple of 11 holds, at a step congruent to 10, the sum of that period's eleven terms. -/
theorem total_at_last (g : ℕ → M) (n : ℕ) (h : n % 11 = 10) :
    Cert.LibPeriodicTotal.total 10 g n = ∑ b : Fin 11, g (11 * (n / 11) + b.val) := by
  have hn : n = (10 + 1) * (n / 11) + 10 := by omega
  exact (congrArg (Cert.LibPeriodicTotal.total 10 g) hn).trans (Cert.LibPeriodicTotal.total_period_end 10 g (n / 11))

end Cert.KernelIdeal.R1V
-- ==== Proof.R1Value.lean ====
/-
  The second pallas_call's result array, at the exact extended reals: the down projection over the padded hidden axis.

  Point `t` of the grid is (row block `t / 44`, column block `t / 11 % 4`, contraction block `t % 11`).  Along the
  eleven points of one (row block, column block) the accumulator is reset to zero and then grows, entry by entry, by
  one contraction block's products of hidden activations with dequantised down weights; after the eleventh point it
  holds the sum over the whole padded hidden axis (eleven blocks of 1024 are its 11264 entries, and weight row
  `b * 1024 + k` has scale row `b * 8 + k / 128`), and that point writes it to block (row block, column block) of
  the result.  These blocks tile the result array.
-/
import proofs.«107662_j71167608095143_1_alg».proof.Proof.R1VPieces
import proofs.«107662_j71167608095143_1_alg».proof.Proof.R1VMath
import proofs.«107662_j71167608095143_1_alg».proof.Proof.PayMath
import proofs.«107662_j71167608095143_1_alg».proof.Proof.KSpec
import Idealize.ShloMosaic.Lib.Pipeline.Value

set_option maxRecDepth 16384

noncomputable section

open scoped BigOperators

namespace Cert.KernelIdeal.Fr

open Idealize.ShloMosaic Idealize.ShloMosaic.TcCoe Idealize.ShloMosaic.ValueIdx
open Idealize.SL.Sem
open Idealize.ShloMosaic.Pipeline (Dat)
open Cert.KernelIdeal Cert.KernelIdeal.Gen Cert.Mlp

variable (V : (c : Dev nD) → (b : Ref sig .tc) → Buf (Elt Ideal) ((c : Thread nD τ).loc b))

theorem N1 : cfg1.N = 1408 := by decide

/-- The hidden, code and scale blocks the windows read at point `t`, and the three arrays, with their entry types
    written out. -/
abbrev hBlk (c : Dev nD) (t : Fin cfg1.N) : S256x1024.Idx → EReal := iblk1 V c 0 t
abbrev qBlk (c : Dev nD) (t : Fin cfg1.N) : S1024x1024.Idx → BitVec 32 := iblk1 V c 1 t
abbrev sBlk (c : Dev nD) (t : Fin cfg1.N) : S8x1024.Idx → EReal := iblk1 V c 2 t
abbrev hArr (c : Dev nD) : S8192x11264.Idx → EReal := V c main_v7
abbrev qArr (c : Dev nD) : S11264x4096.Idx → BitVec 32 := V c main_v4
abbrev sArr (c : Dev nD) : S88x4096.Idx → EReal := V c main_v5

/-- The windows' block indices at point `t`, decided over the grid. -/
theorem idx_facts1 : ∀ t : Fin cfg1.N,
    win1_0.index t (0 : Fin 2) = t.val / 44 ∧ win1_0.index t (1 : Fin 2) = t.val % 11
    ∧ win1_1.index t (0 : Fin 2) = t.val % 11 ∧ win1_1.index t (1 : Fin 2) = t.val / 11 % 4
    ∧ win1_2.index t (0 : Fin 2) = t.val % 11 ∧ win1_2.index t (1 : Fin 2) = t.val / 11 % 4
    ∧ win1_3.index t (0 : Fin 2) = t.val / 44 ∧ win1_3.index t (1 : Fin 2) = t.val / 11 % 4 :=
  (by decide +kernel : ∀ t : Fin grid1.N, _)

/-! ## The blocks the windows read at a point, as entries of the arrays -/

/-- The hidden block at point `t`: rows `t / 44 * 256 + p`, columns `t % 11 * 1024 + k` of the hidden array. -/
theorem hB_apply (c : Dev nD) (t : Fin cfg1.N) (p : Fin 256) (k : Fin 1024) (r : Fin 8192) (i : Fin 11264)
    (hr : r.val = t.val / 44 * 256 + p.val) (hi : i.val = t.val % 11 * 1024 + k.val) :
    hBlk V c t (ix2 p k) = hArr V c (ix2 r i) := by
  obtain ⟨e0, e1, -⟩ := idx_facts1 t
  unfold hBlk hArr iblk1
  rw [View.read_apply]
  show V c main_v7 _ = V c main_v7 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 1024 + 1 * k.val = i.val; rw [e1, hi]; omega

/-- The code block at point `t`: rows `t % 11 * 1024 + k`, columns `t / 11 % 4 * 1024 + q` of the code array. -/
theorem qB_apply (c : Dev nD) (t : Fin cfg1.N) (k : Fin 1024) (q : Fin 1024) (i : Fin 11264) (h : Fin 4096)
    (hi : i.val = t.val % 11 * 1024 + k.val) (hh : h.val = t.val / 11 % 4 * 1024 + q.val) :
    qBlk V c t (ix2 k q) = qArr V c (ix2 i h) := by
  obtain ⟨-, -, e2, e3, -⟩ := idx_facts1 t
  unfold qBlk qArr iblk1
  rw [View.read_apply]
  show V c main_v4 _ = V c main_v4 _
  congr 1
  funext a
  apply Fin.ext
  match a with
  | ⟨0, _⟩ => show win1_1.index t (0 : Fin 2) * 1024 + 1 * k.val = i.val; rw [e2, hi]; omega
  | ⟨1, _⟩ => show win1_1.index t (1 : Fin 2) * 1024 + 1 * q.val = h.val; rw [e3, hh]; omega

/-- The scale block at point `t`: rows `t % 11 * 8 + g`, columns `t / 11 % 4 * 1024 + q` of the scale array. -/
theorem sB_apply (c : Dev nD) (t : Fin cfg1.N) (g : Fin 8) (q : Fin 1024) (gi : Fin 88) (h : Fin 4096)
    (hg : gi.val = t.val % 11 * 8 + g.val) (hh : h.val = t.val / 11 % 4 * 1024 + q.val) :
    sBlk V c t (ix2 g q) = sArr V c (ix2 gi h) := by
  obtain ⟨-, -, -, -, e4, e5, -⟩ := idx_facts1 t
  unfold sBlk sArr iblk1
  rw [View.read_apply]
  show V c main_v5 _ = V c main_v5 _
  congr 1
  funext a
  apply Fin.ext
  match a with
  | ⟨0, _⟩ => show win1_2.index t (0 : Fin 2) * 8 + 1 * g.val = gi.val; rw [e4, hg]; omega
  | ⟨1, _⟩ => show win1_2.index t (1 : Fin 2) * 1024 + 1 * q.val = h.val; rw [e5, hh]; omega

/-! ## One point's contribution -/

/-- What point `t` adds to entry (p, q) of the accumulator. -/
def stepAt (c : Dev nD) (t : Fin cfg1.N) (p : Fin 256) (q : Fin 1024) : EReal :=
  ∑ k : Fin 1024, hBlk V c t (ix2 p k) * wt (qBlk V c t (ix2 k q)) (sBlk V c t (ix2 (PayMath.grp k) q))

/-- The same with the point a natural number (nothing past the grid). -/
def step (c : Dev nD) (p : Fin 256) (q : Fin 1024) (n : ℕ) : EReal :=
  if h : n < cfg1.N then stepAt V c ⟨n, h⟩ p q else 0

/-- The body's step at point `t`, at (p, q). -/
theorem pay_apply (c : Dev nD) (t : Fin cfg1.N) (acc : Vec Ideal S256x1024 .f32) (p : Fin 256) (q : Fin 1024) :
    k1_pay2 (F := Ideal) (iblk1 V c 0 t) (iblk1 V c 1 t) (iblk1 V c 2 t) acc (ix2 p q)
      = acc (ix2 p q) + stepAt V c t p q :=
  PayMath.k1_pay2_apply (iblk1 V c 0 t) (iblk1 V c 1 t) (iblk1 V c 2 t) acc p q

/-- A term of the down projection's sum at (r, h). -/
abbrev term (c : Dev nD) (r : Fin 8192) (h : Fin 4096) (i : Fin 11264) : EReal :=
  hArr V c (ix2 r i)
    * wt (qArr V c (ix2 i h)) (sArr V c (ix2 (⟨i.val / 128, by have := i.isLt; omega⟩ : Fin 88) h))

/-- Point `s`'s contribution is contraction block `s % 11` of the sum at the entry it accumulates. -/
theorem stepAt_eq (c : Dev nD) (s : Fin cfg1.N) (p : Fin 256) (q : Fin 1024) (r : Fin 8192) (h : Fin 4096) (b : Fin 11)
    (hb : s.val % 11 = b.val) (hr : r.val = s.val / 44 * 256 + p.val) (hh : h.val = s.val / 11 % 4 * 1024 + q.val) :
    stepAt V c s p q = ∑ k : Fin 1024,
      term V c r h ⟨b.val * 1024 + k.val, by have := b.isLt; have := k.isLt; omega⟩ := by
  unfold stepAt
  refine Finset.sum_congr rfl fun k _ => ?_
  have hk := k.isLt
  have hbl := b.isLt
  exact congrArg₂ (fun (x y : EReal) => x * y)
    (hB_apply V c s p k r ⟨b.val * 1024 + k.val, by omega⟩ hr (by rw [hb]))
    (congrArg₂ wt
      (qB_apply V c s k q ⟨b.val * 1024 + k.val, by omega⟩ h (by rw [hb]) hh)
      (sB_apply V c s (PayMath.grp k) q ⟨(b.val * 1024 + k.val) / 128, by omega⟩ h
        (by rw [hb]; show (b.val * 1024 + k.val) / 128 = b.val * 8 + k.val / 128; omega) hh))

/-! ## The accumulator along the grid -/

theorem outs_A (c : Dev nD) (t : Fin cfg1.N) (h0 : t.val % 11 = 0) (h1 : ¬t.val % 11 = 10) (p : Fin 256) (q : Fin 1024) :
    (outsAt1 V c t.val t.isLt).2 (ix2 p q) = 0 + stepAt V c t p q := by
  have e : (outsAt1 V c t.val t.isLt).2
      = k1_pay2 (F := Ideal) (iblk1 V c 0 t) (iblk1 V c 1 t) (iblk1 V c 2 t) (k1_pay1 (F := Ideal)) :=
    (congrArg Prod.snd (outsAt1_A V c t h0 h1)).trans (at1A_snd V c t h0 h1)
  rw [e]
  refine (pay_apply V c t (k1_pay1 (F := Ideal)) p q).trans ?_
  rw [PayMath.k1_pay1_apply]

theorem outs_B (c : Dev nD) (n : ℕ) (hn : n + 1 < cfg1.N) (h0 : ¬(n + 1) % 11 = 0) (h1 : ¬(n + 1) % 11 = 10)
    (p : Fin 256) (q : Fin 1024) :
    (outsAt1 V c (n + 1) hn).2 (ix2 p q)
      = (outsAt1 V c n (Nat.lt_of_succ_lt hn)).2 (ix2 p q) + stepAt V c ⟨n + 1, hn⟩ p q := by
  have e : (outsAt1 V c (n + 1) hn).2
      = k1_pay2 (F := Ideal) (iblk1 V c 0 ⟨n + 1, hn⟩) (iblk1 V c 1 ⟨n + 1, hn⟩) (iblk1 V c 2 ⟨n + 1, hn⟩)
          (outsAt1 V c n (Nat.lt_of_succ_lt hn)).2 :=
    (congrArg Prod.snd (outsAt1_B V c ⟨n + 1, hn⟩ h0 h1)).trans (at1B_snd V c ⟨n + 1, hn⟩ h0 h1 _)
  rw [e]
  exact pay_apply V c ⟨n + 1, hn⟩ _ p q

theorem outs_C (c : Dev nD) (n : ℕ) (hn : n + 1 < cfg1.N) (h0 : ¬(n + 1) % 11 = 0) (h1 : (n + 1) % 11 = 10)
    (p : Fin 256) (q : Fin 1024) :
    (outsAt1 V c (n + 1) hn).2 (ix2 p q)
      = (outsAt1 V c n (Nat.lt_of_succ_lt hn)).2 (ix2 p q) + stepAt V c ⟨n + 1, hn⟩ p q := by
  have e : (outsAt1 V c (n + 1) hn).2
      = k1_pay2 (F := Ideal) (iblk1 V c 0 ⟨n + 1, hn⟩) (iblk1 V c 1 ⟨n + 1, hn⟩) (iblk1 V c 2 ⟨n + 1, hn⟩)
          (outsAt1 V c n (Nat.lt_of_succ_lt hn)).2 :=
    (congrArg Prod.snd (outsAt1_C V c ⟨n + 1, hn⟩ h0 h1)).trans (at1C_snd V c ⟨n + 1, hn⟩ h0 h1 _)
  rw [e]
  exact pay_apply V c ⟨n + 1, hn⟩ _ p q

/-- THE INVARIANT: after point `n` entry (p, q) of the accumulator is the running total, reset every eleven points,
    of the points' contributions. -/
theorem acc_eq (c : Dev nD) (p : Fin 256) (q : Fin 1024) : ∀ (n : ℕ) (hn : n < cfg1.N),
    (outsAt1 V c n hn).2 (ix2 p q) = Cert.LibPeriodicTotal.total 10 (step V c p q) n
  | 0, hn => by
    refine (outs_A V c ⟨0, hn⟩ (Nat.zero_mod _) (by show ¬(0 % 11 = 10); decide) p q).trans ?_
    show _ = 0 + step V c p q 0
    unfold step
    rw [dif_pos hn]
  | n + 1, hn => by
    have hstep : step V c p q (n + 1) = stepAt V c ⟨n + 1, hn⟩ p q := by unfold step; rw [dif_pos hn]
    by_cases h0 : (n + 1) % 11 = 0
    · have h1 : ¬(n + 1) % 11 = 10 := by omega
      rw [Cert.LibPeriodicTotal.total_reset 10 _ _ h0, hstep]
      exact outs_A V c ⟨n + 1, hn⟩ h0 h1 p q
    · rw [Cert.LibPeriodicTotal.total_step 10 _ n h0, hstep, ← acc_eq c p q n (Nat.lt_of_succ_lt hn)]
      by_cases h1 : (n + 1) % 11 = 10
      · exact outs_C V c n hn h0 h1 p q
      · exact outs_B V c n hn h0 h1 p q

/-- At a point whose contraction block is 10 the output buffer holds the accumulator. -/
theorem out_fst_eq (c : Dev nD) (t : Fin cfg1.N) (h10 : t.val % 11 = 10) :
    (outsAt1 V c t.val t.isLt).1 = (outsAt1 V c t.val t.isLt).2 := by
  have h0 : ¬t.val % 11 = 0 := by omega
  rw [outsAt1_C V c t h0 h10]
  exact (at1C_fst V c t h0 h10 _).trans (at1C_snd V c t h0 h10 _).symm

/-- WHAT A WRITING POINT HOLDS: the whole sum over the padded hidden axis at the entry it writes. -/
theorem flush_val (c : Dev nD) (t : Fin cfg1.N) (h10 : t.val % 11 = 10) (p : Fin 256) (q : Fin 1024)
    (r : Fin 8192) (h : Fin 4096) (hr : r.val = t.val / 44 * 256 + p.val) (hh : h.val = t.val / 11 % 4 * 1024 + q.val) :
    (outsAt1 V c t.val t.isLt).1 (ix2 p q) = ∑ i : Fin 11264, term V c r h i := by
  have hN := N1
  have ht : t.val < 1408 := lt_of_lt_of_eq t.isLt hN
  rw [out_fst_eq V c t h10, acc_eq V c p q t.val t.isLt, R1V.total_at_last _ _ h10, R1V.sum_blocks11]
  refine Finset.sum_congr rfl fun b _ => ?_
  have hbl := b.isLt
  have hs : 11 * (t.val / 11) + b.val < cfg1.N :=
    lt_of_lt_of_eq (show 11 * (t.val / 11) + b.val < 1408 by omega) hN.symm
  unfold step
  rw [dif_pos hs]
  exact stepAt_eq V c ⟨11 * (t.val / 11) + b.val, hs⟩ p q r h b
    (by show (11 * (t.val / 11) + b.val) % 11 = b.val; omega)
    (by show r.val = (11 * (t.val / 11) + b.val) / 44 * 256 + p.val; omega)
    (by show h.val = (11 * (t.val / 11) + b.val) / 11 % 4 * 1024 + q.val; omega)

/-! ## The result array -/

/-- What point `t` writes back is its block of the down projection. -/
theorem flushed1_eq (c : Dev nD) (t : Fin cfg1.N) (hf : (cfg1.win 3).flush t = true) :
    (dat1 V c).flushed 3 t
      = ((cfg1.win 3).blk t).view.read (Elt Ideal) (outP (V c main_v7) (V c main_v4) (V c main_v5)) := by
  have h10 : t.val % 11 = 10 := (flush1_3 t).mp hf
  obtain ⟨-, -, -, -, -, -, e6, e7⟩ := idx_facts1 t
  show (cfg1.win 3).cut (grid1.coords t) ((dat1 V c).after 3 t) = _
  rw [after1_3]
  funext j
  obtain ⟨p, q, rfl⟩ : ∃ (p : Fin 256) (q : Fin 1024), j = (ix2 p q : S256x1024.Idx) :=
    ⟨j 0, j 1, eq_ix2 (n0 := 256) (n1 := 1024) j⟩
  rw [View.read_apply]
  show (outsAt1 V c t.val t.isLt).1 (ix2 p q)
    = outP (V c main_v7) (V c main_v4) (V c main_v5) (((cfg1.win 3).blk t).view.emb (ix2 p q))
  exact flush_val V c t h10 p q ((((cfg1.win 3).blk t).view.emb (ix2 p q)) 0) ((((cfg1.win 3).blk t).view.emb (ix2 p q)) 1)
    (by show win1_3.index t (0 : Fin 2) * 256 + 1 * p.val = t.val / 44 * 256 + p.val; rw [e6]; omega)
    (by show win1_3.index t (1 : Fin 2) * 1024 + 1 * q.val = t.val / 11 % 4 * 1024 + q.val; rw [e7]; omega)

/-- THE RESULT ARRAY after the second pallas_call: the down projection over the padded hidden axis. -/
theorem final1 (c : Dev nD) :
    (dat1 V c).arrAt 3 cfg1.N = outP (V c main_v7) (V c main_v4) (V c main_v5) :=
  (dat1 V c).arrAt_eq_of_cover 3 _ (flushed1_eq V c) fun i => by
    have hi0 : (i 0).val < 8192 := (i 0).isLt
    have hi1 : (i 1).val < 4096 := (i 1).isLt
    have hN := N1
    obtain ⟨t, ht⟩ : ∃ t : Fin cfg1.N, t.val = (i 0).val / 256 * 44 + (i 1).val / 1024 * 11 + 10 :=
      ⟨⟨(i 0).val / 256 * 44 + (i 1).val / 1024 * 11 + 10,
        lt_of_lt_of_eq (show (i 0).val / 256 * 44 + (i 1).val / 1024 * 11 + 10 < 1408 by omega) hN.symm⟩, rfl⟩
    obtain ⟨-, -, -, -, -, -, e6, e7⟩ := idx_facts1 t
    refine ⟨t, (flush1_3 t).mpr (by omega), ?_⟩
    show i ∈ ((View.whole main_v8).slice (win1_3.rect t)).set
    rw [View.set_slice_whole, Rect.mem_set_unit]
    intro a
    match a with
    | ⟨0, _⟩ =>
      show win1_3.index t (0 : Fin 2) * 256 ≤ (i 0).val ∧ (i 0).val < win1_3.index t (0 : Fin 2) * 256 + 256
      rw [e6]; omega
    | ⟨1, _⟩ =>
      show win1_3.index t (1 : Fin 2) * 1024 ≤ (i 1).val ∧ (i 1).val < win1_3.index t (1 : Fin 2) * 1024 + 1024
      rw [e7]; omega

end Cert.KernelIdeal.Fr

namespace Cert.KernelIdeal.R1V

open Idealize.ShloMosaic Idealize.ShloMosaic.TcCoe Idealize.SL.Sem Cert.KernelIdeal Cert.KernelIdeal.Fr

/-- The result array after the second pallas_call is the down projection over the padded hidden axis. -/
theorem final1 (V : (c : Dev nD) → (b : Ref sig .tc) → Buf (Elt Ideal) ((c : Thread nD τ).loc b)) (c : Dev nD) :
    (dat1 V c).arrAt 3 cfg1.N = Cert.Mlp.outP (V c main_v7) (V c main_v4) (V c main_v5) :=
  Cert.KernelIdeal.Fr.final1 V c

end Cert.KernelIdeal.R1V

end
-- ==== Proof.RefAWeights.lean ====
/-
  The three dequantised weight matrices of the reference, read at an index.  A scale table with one row per
  group of 128 input rows is repeated along the rows (a broadcast to [groups, 128, columns] followed by a
  row-major reshape to [groups * 128, columns]), so the entry at row `k` reads scale row `k / 128`; the code is
  converted to a float, the literal 8.0 is subtracted and the difference is multiplied by that scale.
-/
import proofs.«107662_j71167608095143_1_alg».proof.Proof.Gen.ReferenceIdeal.Read
import proofs.«107662_j71167608095143_1_alg».proof.Proof.Spec

noncomputable section

open scoped BigOperators

namespace Cert.ReferenceIdeal.RefValue

open Cert.ReferenceIdeal Cert.ReferenceIdeal.Read Idealize.ShloMosaic Idealize.ShloMosaic.ValueIdx

/-- Row `k`, column `i` of the repeated gate scale table is row `k / 128`, column `i` of the table. -/
theorem scaleIdx_gate (k : Fin 4096) (i : Fin 11008) :
    idx_main_v0 (idx_main_v1 (ix2 k i)) = ix2 (⟨k.val / 128, by have := k.isLt; omega⟩ : Fin 32) i :=
  funext fun a => Fin.ext (by
    have hk := k.isLt
    have hi := i.isLt
    match a with
    | ⟨0, _⟩ => show (k.val * 11008 + i.val) / 1409024 = k.val / 128; omega
    | ⟨1, _⟩ => show (k.val * 11008 + i.val) % 11008 = i.val; omega)

/-- The same for the up scale table. -/
theorem scaleIdx_up (k : Fin 4096) (i : Fin 11008) :
    idx_main_v6 (idx_main_v7 (ix2 k i)) = ix2 (⟨k.val / 128, by have := k.isLt; omega⟩ : Fin 32) i :=
  funext fun a => Fin.ext (by
    have hk := k.isLt
    have hi := i.isLt
    match a with
    | ⟨0, _⟩ => show (k.val * 11008 + i.val) / 1409024 = k.val / 128; omega
    | ⟨1, _⟩ => show (k.val * 11008 + i.val) % 11008 = i.val; omega)

/-- Row `i`, column `h` of the repeated down scale table is row `i / 128`, column `h` of the table. -/
theorem scaleIdx_down (i : Fin 11008) (h : Fin 4096) :
    idx_main_v12 (idx_main_v13 (ix2 i h)) = ix2 (⟨i.val / 128, by have := i.isLt; omega⟩ : Fin 86) h :=
  funext fun a => Fin.ext (by
    have hi := i.isLt
    have hh := h.isLt
    match a with
    | ⟨0, _⟩ => show (i.val * 4096 + h.val) / 524288 = i.val / 128; omega
    | ⟨1, _⟩ => show (i.val * 4096 + h.val) % 4096 = h.val; omega)

/-- The reference's gate weight at `(k, i)` is the specification's. -/
theorem gateW_apply (x1 : (⟨S4096x11008, .i32⟩ : BufTy).Contents (Elt Ideal))
    (x2 : (⟨S32x11008, .f32⟩ : BufTy).Contents (Elt Ideal)) (k : Fin 4096) (i : Fin 11008) :
    val_main_v5 (F := Ideal) x1 x2 (ix2 k i) = Cert.Mlp.wIn x1 x2 k i := by
  rw [val_main_v5_apply, val_main_v4_apply, val_main_v2_apply, val_main_v3_apply, val_main_cst_apply,
    val_main_v1_apply, val_main_v0_apply, scaleIdx_gate]
  rfl

/-- The reference's up weight at `(k, i)` is the specification's. -/
theorem upW_apply (x3 : (⟨S4096x11008, .i32⟩ : BufTy).Contents (Elt Ideal))
    (x4 : (⟨S32x11008, .f32⟩ : BufTy).Contents (Elt Ideal)) (k : Fin 4096) (i : Fin 11008) :
    val_main_v11 (F := Ideal) x3 x4 (ix2 k i) = Cert.Mlp.wIn x3 x4 k i := by
  rw [val_main_v11_apply, val_main_v10_apply, val_main_v8_apply, val_main_v9_apply, val_main_cst_0_apply,
    val_main_v7_apply, val_main_v6_apply, scaleIdx_up]
  rfl

/-- The reference's down weight at `(i, h)` is the specification's. -/
theorem downW_apply (x5 : (⟨S11008x4096, .i32⟩ : BufTy).Contents (Elt Ideal))
    (x6 : (⟨S86x4096, .f32⟩ : BufTy).Contents (Elt Ideal)) (i : Fin 11008) (h : Fin 4096) :
    val_main_v17 (F := Ideal) x5 x6 (ix2 i h) = Cert.Mlp.wOut x5 x6 i h := by
  rw [val_main_v17_apply, val_main_v16_apply, val_main_v14_apply, val_main_v15_apply, val_main_cst_1_apply,
    val_main_v13_apply, val_main_v12_apply, scaleIdx_down]
  rfl

end Cert.ReferenceIdeal.RefValue

end
-- ==== Proof.RefAHidden.lean ====
/-
  The reference's two projections and its hidden activations, read at an index.  A projection of token `(b, t)`
  onto hidden column `i` is the sum over the 4096 input features of the token's feature times the dequantised
  weight.  The activation multiplies the gate projection `g` by `1 / (1 + exp (-g))`, which is the logistic
  function of `g` spelt out, and then by the up projection.
-/
import proofs.«107662_j71167608095143_1_alg».proof.Proof.RefAWeights
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-- The left operand's index of the gate projection: token `(b, t)`, feature `k`. -/
theorem lidx_gate (b : Fin 4) (t : Fin 2048) (i : Fin 11008) (k : Fin 4096) :
    lidx_main_v18 (ix3 b t i) k = ix3 b t k :=
  funext fun a => match a with
    | ⟨0, _⟩ => rfl
    | ⟨1, _⟩ => rfl
    | ⟨2, _⟩ => rfl

/-- The right operand's index of the gate projection: feature `k`, column `i`. -/
theorem ridx_gate (b : Fin 4) (t : Fin 2048) (i : Fin 11008) (k : Fin 4096) :
    ridx_main_v18 (ix3 b t i) k = ix2 k i :=
  funext fun a => match a with
    | ⟨0, _⟩ => rfl
    | ⟨1, _⟩ => rfl

/-- The same two for the up projection. -/
theorem lidx_up (b : Fin 4) (t : Fin 2048) (i : Fin 11008) (k : Fin 4096) :
    lidx_main_v19 (ix3 b t i) k = ix3 b t k :=
  funext fun a => match a with
    | ⟨0, _⟩ => rfl
    | ⟨1, _⟩ => rfl
    | ⟨2, _⟩ => rfl

theorem ridx_up (b : Fin 4) (t : Fin 2048) (i : Fin 11008) (k : Fin 4096) :
    ridx_main_v19 (ix3 b t i) k = ix2 k i :=
  funext fun a => match a with
    | ⟨0, _⟩ => rfl
    | ⟨1, _⟩ => rfl

/-- The reference's gate projection at `(b, t, i)` is the specification's. -/
theorem gateProj_apply (x0 : (⟨S4x2048x4096, .f32⟩ : BufTy).Contents (Elt Ideal))
    (x1 : (⟨S4096x11008, .i32⟩ : BufTy).Contents (Elt Ideal))
    (x2 : (⟨S32x11008, .f32⟩ : BufTy).Contents (Elt Ideal)) (b : Fin 4) (t : Fin 2048) (i : Fin 11008) :
    val_main_v18 (F := Ideal) x0 x1 x2 (ix3 b t i) = Cert.Mlp.proj x0 x1 x2 b t i := by
  rw [val_main_v18_apply]
  unfold Cert.Mlp.proj
  refine Finset.sum_congr rfl fun k _ => ?_
  rw [lidx_gate, ridx_gate, gateW_apply]

/-- The reference's up projection at `(b, t, i)` is the specification's. -/
theorem upProj_apply (x0 : (⟨S4x2048x4096, .f32⟩ : BufTy).Contents (Elt Ideal))
    (x3 : (⟨S4096x11008, .i32⟩ : BufTy).Contents (Elt Ideal))
    (x4 : (⟨S32x11008, .f32⟩ : BufTy).Contents (Elt Ideal)) (b : Fin 4) (t : Fin 2048) (i : Fin 11008) :
    val_main_v19 (F := Ideal) x0 x3 x4 (ix3 b t i) = Cert.Mlp.proj x0 x3 x4 b t i := by
  rw [val_main_v19_apply]
  unfold Cert.Mlp.proj
  refine Finset.sum_congr rfl fun k _ => ?_
  rw [lidx_up, ridx_up, upW_apply]

/-- `g · (1 / (1 + exp (-g))) · u` with the two ones written as the float literal 1.0 is the gating. -/
theorem gated_spelt (g u : EReal) :
    g * Ideal.div (Ideal.ofBits .f32 0x3F800000#32) (Ideal.ofBits .f32 0x3F800000#32 + Ideal.exp (-g)) * u
      = Cert.Mlp.gated g u := by
  rw [Ideal.ofBits_one_f32]
  rfl

/-- The reference's hidden activation at `(b, t, i)` is the specification's. -/
theorem hidden_apply (x0 : (⟨S4x2048x4096, .f32⟩ : BufTy).Contents (Elt Ideal))
    (x1 : (⟨S4096x11008, .i32⟩ : BufTy).Contents (Elt Ideal))
    (x2 : (⟨S32x11008, .f32⟩ : BufTy).Contents (Elt Ideal))
    (x3 : (⟨S4096x11008, .i32⟩ : BufTy).Contents (Elt Ideal))
    (x4 : (⟨S32x11008, .f32⟩ : BufTy).Contents (Elt Ideal)) (b : Fin 4) (t : Fin 2048) (i : Fin 11008) :
    val_main_v21 (F := Ideal) x0 x1 x2 x3 x4 (ix3 b t i) = Cert.Mlp.hid x0 x1 x2 x3 x4 b t i := by
  rw [val_main_v21_apply, val_main_v20_apply, val_main_call0_v5_apply, val_main_call0_v4_apply,
    val_main_call0_cst_0_apply, val_main_call0_v3_apply, val_main_call0_v2_apply, val_main_call0_cst_apply,
    val_main_call0_v1_apply, val_main_call0_v0_apply, gateProj_apply, upProj_apply]
  exact gated_spelt _ _

end Cert.ReferenceIdeal.RefValue

end
-- ==== Proof.RefValue.lean ====
/-
  The reference program computes the specification.  Its result at token `(b, t)` and output feature `h` is the
  sum over the 11008 hidden columns of the hidden activation times the dequantised down weight, which is the
  specification's `out` term by term; the run of the program then ends with the result array at `out` of the
  argument arrays and the arguments unchanged.
-/
import proofs.«107662_j71167608095143_1_alg».proof.Proof.RefAHidden

noncomputable section

open scoped BigOperators

namespace Cert.ReferenceIdeal.RefValue

open Cert.ReferenceIdeal Cert.ReferenceIdeal.Read Idealize.ShloMosaic Idealize.ShloMosaic.ValueIdx
open Idealize.ShloMosaic.TcCoe Idealize.SL.Sem Cert.ReferenceIdeal.Gen

/-- The left operand's index of the last product: token `(b, t)`, hidden column `k`. -/
theorem lidx_down (b : Fin 4) (t : Fin 2048) (h : Fin 4096) (k : Fin 11008) :
    lidx_main_v22 (ix3 b t h) k = ix3 b t k :=
  funext fun a => match a with
    | ⟨0, _⟩ => rfl
    | ⟨1, _⟩ => rfl
    | ⟨2, _⟩ => rfl

/-- The right operand's index of the last product: hidden column `k`, output feature `h`. -/
theorem ridx_down (b : Fin 4) (t : Fin 2048) (h : Fin 4096) (k : Fin 11008) :
    ridx_main_v22 (ix3 b t h) k = ix2 k h :=
  funext fun a => match a with
    | ⟨0, _⟩ => rfl
    | ⟨1, _⟩ => rfl

/-- The reference's last stage is the specification, index by index. -/
theorem stage_eq (x0 : (⟨S4x2048x4096, .f32⟩ : BufTy).Contents (Elt Ideal))
    (x1 : (⟨S4096x11008, .i32⟩ : BufTy).Contents (Elt Ideal))
    (x2 : (⟨S32x11008, .f32⟩ : BufTy).Contents (Elt Ideal))
    (x3 : (⟨S4096x11008, .i32⟩ : BufTy).Contents (Elt Ideal))
    (x4 : (⟨S32x11008, .f32⟩ : BufTy).Contents (Elt Ideal))
    (x5 : (⟨S11008x4096, .i32⟩ : BufTy).Contents (Elt Ideal))
    (x6 : (⟨S86x4096, .f32⟩ : BufTy).Contents (Elt Ideal)) :
    val_main_v22 (F := Ideal) x0 x1 x2 x3 x4 x5 x6 = Cert.Mlp.out x0 x1 x2 x3 x4 x5 x6 := by
  funext j
  obtain ⟨b, t, h, rfl⟩ : ∃ (b : Fin 4) (t : Fin 2048) (h : Fin 4096), j = ix3 b t h :=
    ⟨j 0, j 1, j 2, eq_ix3 j⟩
  rw [val_main_v22_apply]
  show _ = ∑ i : Fin 11008, Cert.Mlp.hid x0 x1 x2 x3 x4 b t i * Cert.Mlp.wOut x5 x6 i h
  refine Finset.sum_congr rfl fun k _ => ?_
  rw [lidx_down, ridx_down, hidden_apply, downW_apply]

/-- The term the generated run states for the result array is the specification of the argument arrays. -/
theorem ref_eq (x0 : FVec Ideal S4x2048x4096 .f32) (x1 : IVec S4096x11008 32) (x2 : FVec Ideal S32x11008 .f32)
    (x3 : IVec S4096x11008 32) (x4 : FVec Ideal S32x11008 .f32) (x5 : IVec S11008x4096 32)
    (x6 : FVec Ideal S86x4096 .f32) :
    Host.dotGeneral (F := Ideal) dot_S4x2048x11008_S11008x4096_S4x2048x4096_2_0_01_1_n_n none (mulf (F := Ideal) (mulf (F := Ideal) (Host.dotGeneral (F := Ideal) dot_S4x2048x4096_S4096x11008_S4x2048x11008_2_0_01_1_n_n none (x0) (mulf (F := Ideal) (subf (F := Ideal) (sitofp (F := Ideal) .f32 (x1)) (broadcastInDim S4096x11008 ![] bcast_S_S4096x11008 (constant (F := Ideal) S_ .f32 0x41000000#32))) (shapeCast _ (broadcastInDim S32x128x11008 ![0, 2] bcast_S32x11008_S32x128x11008_0_2 (x2)) shapeCasts_S32x128x11008_S4096x11008))) (Host.divf (F := Ideal) (broadcastInDim S4x2048x11008 ![] bcast_S_S4x2048x11008 (constant (F := Ideal) S_ .f32 0x3F800000#32)) (addf (F := Ideal) (broadcastInDim S4x2048x11008 ![] bcast_S_S4x2048x11008 (constant (F := Ideal) S_ .f32 0x3F800000#32)) (Host.exp (F := Ideal) (Host.negf (F := Ideal) (Host.dotGeneral (F := Ideal) dot_S4x2048x4096_S4096x11008_S4x2048x11008_2_0_01_1_n_n none (x0) (mulf (F := Ideal) (subf (F := Ideal) (sitofp (F := Ideal) .f32 (x1)) (broadcastInDim S4096x11008 ![] bcast_S_S4096x11008 (constant (F := Ideal) S_ .f32 0x41000000#32))) (shapeCast _ (broadcastInDim S32x128x11008 ![0, 2] bcast_S32x11008_S32x128x11008_0_2 (x2)) shapeCasts_S32x128x11008_S4096x11008)))))))) (Host.dotGeneral (F := Ideal) dot_S4x2048x4096_S4096x11008_S4x2048x11008_2_0_01_1_n_n none (x0) (mulf (F := Ideal) (subf (F := Ideal) (sitofp (F := Ideal) .f32 (x3)) (broadcastInDim S4096x11008 ![] bcast_S_S4096x11008 (constant (F := Ideal) S_ .f32 0x41000000#32))) (shapeCast _ (broadcastInDim S32x128x11008 ![0, 2] bcast_S32x11008_S32x128x11008_0_2 (x4)) shapeCasts_S32x128x11008_S4096x11008)))) (mulf (F := Ideal) (subf (F := Ideal) (sitofp (F := Ideal) .f32 (x5)) (broadcastInDim S11008x4096 ![] bcast_S_S11008x4096 (constant (F := Ideal) S_ .f32 0x41000000#32))) (shapeCast _ (broadcastInDim S86x128x4096 ![0, 2] bcast_S86x4096_S86x128x4096_0_2 (x6)) shapeCasts_S86x128x4096_S11008x4096))
      = Cert.Mlp.out x0 x1 x2 x3 x4 x5 x6 :=
  (val_main_v22_eq (F := Ideal) x0 x1 x2 x3 x4 x5 x6).trans (stage_eq x0 x1 x2 x3 x4 x5 x6)

/-- Every weakly fair execution of the reference terminates with the result array at the specification of the
    launch contents of the seven argument arrays, and with those arrays unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v22) = Cert.Mlp.out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (defs (F := Ideal)) _ _).mono (fun _ h c => ⟨(h c).1.trans (ref_eq _ _ _ _ _ _ _), (h c).2⟩)
    (Cert.ReferenceIdeal.Value.run (F := Ideal) m' ρ')

end Cert.ReferenceIdeal.RefValue

end
-- ==== Proof.lean ====
/-
  The certificate of a gated MLP with 4-bit group-quantised weights: a Pallas kernel in two pallas_calls against a
  plain jnp reference, equal index by index over the extended reals.

  The mathematics.  A weight is `(q - 8) · s` for a code `q` and the scale `s` of its group of 128 input rows.  The
  reference computes `g = x · Wg`, `u = x · Wu`, the hidden activations `(g · σ(g)) · u` with `σ z = 1 / (1 + e^(-z))`
  (spelt with negate, exponential, add and divide: the same function on the extended reals), and their product with
  `Wd`.  The kernel pads the hidden axis from 11008 to 11264 columns with the code 8 and the scale 0, so that a padded
  weight is `(8 - 8) · 0`; its first pallas_call accumulates `g` and `u` over four blocks of 1024 of the contracted
  axis in two scratch buffers, reset at the first block and gated into the output at the last; its second accumulates
  the down projection over eleven blocks of 1024 of the padded hidden axis.  A sum over the whole axis is the sum of its
  blocks' sums (addition of extended reals is commutative and associative), and a padded row of `Wd` has scale `0`,
  so every padded term is `z · ((8 - 8) · 0) = 0` whatever `z` is: no finiteness of the inputs is used.

  The frames: each pallas_call's body is run once per control case (first, middle, last contraction block), the
  accumulators are carried between grid points by the region invariant, and @main is the chain of its sixteen items.
  The same text proves the word-level program's frame and the idealized program's; the idealization rewrote nothing,
  so `preserves` is trivial.
-/
import proofs.«107662_j71167608095143_1_alg».proof.Defs
import proofs.«107662_j71167608095143_1_alg».proof.Proof.Gen.Kernel
import proofs.«107662_j71167608095143_1_alg».proof.Proof.Gen.KernelIdeal
import proofs.«107662_j71167608095143_1_alg».proof.Proof.Gen.ReferenceIdeal
import proofs.«107662_j71167608095143_1_alg».proof.Proof.Gen.Pre_finite_inputs
import proofs.«107662_j71167608095143_1_alg».proof.Proof.BKRun
import proofs.«107662_j71167608095143_1_alg».proof.Proof.KValue
import proofs.«107662_j71167608095143_1_alg».proof.Proof.R0Value
import proofs.«107662_j71167608095143_1_alg».proof.Proof.R1Value
import proofs.«107662_j71167608095143_1_alg».proof.Proof.RefValue

noncomputable section

namespace Cert.Proof

open Idealize.ShloMosaic Idealize.SL.Sem

/-- The word-level kernel runs to the end and leaves its arguments as launched. -/
theorem frame_p : Cert.frame_Kernel := fun m ρ _ =>
  (θ_run Cert.Kernel.defs _ _).mono (fun _ h c => (h c).2) (Cert.Kernel.Fr.run_main (F := Bits) m ρ)

/-- So does the idealized kernel. -/
theorem frame_pi : Cert.frame_KernelIdeal := fun m ρ _ =>
  (θ_run Cert.KernelIdeal.defs _ _).mono (fun _ h c => (h c).2) (Cert.KernelIdeal.Fr.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- Both programs end with the specification's array of the arguments. -/
theorem algebraic : Cert.algebraic_KernelIdeal_ReferenceIdeal := by
  intro m ρ m' ρ' _ hagree
  refine ⟨fun c => Cert.Mlp.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Val.v9_spec m (fun V c => Cert.KernelIdeal.R0V.final0 V c) (fun V c => Cert.KernelIdeal.R1V.final1 V c) c), (h c).2⟩)
      (Cert.KernelIdeal.Fr.run_main (F := Ideal) m ρ)
  · refine (θ_run Cert.ReferenceIdeal.defs _ _).mono (fun _ h c => ⟨?_, (h c).2⟩) (Cert.ReferenceIdeal.RefValue.ref_run m' ρ')
    rw [(h c).1, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
